-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S1x256x1x1 : Shape := ⟨4, ![1, 256, 1, 1]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn {F : FTy → Type} [FloatOps F] (main_arg0 : FVec F S32x256x56x56 .f32) (main_arg1 : FVec F S1x256x1x1 .f32) (main_arg2 : FVec F S1x256x1x1 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S1x256x1x1 .f32 := Host.absf main_arg1
  let main_cst_0 : FVec F S_ .f32 := constant S_ .f32 0x7F800000#32
  let main_v5 : FVec F S1x256x1x1 .f32 := broadcastInDim S1x256x1x1 ![] bcast_S_S1x256x1x1 main_cst_0
  let main_v6 : IVec S1x256x1x1 1 := cmpf .olt main_v4 main_v5
  let main_c_1 : IVec S_ 1 := constantI S_ 1 1#1
  let main_v7 : IVec S_ 1 := (fun x v => Host.reduce IntOp.andi x v reducesTo_S1x256x1x1_S_d0_1_2_3 h_S_) main_v6 main_c_1
  let main_v8 : IVec S_ 1 := andi main_v3 main_v7
  let main_v9 : FVec F S1x256x1x1 .f32 := Host.absf main_arg2
  let main_cst_2 : FVec F S_ .f32 := constant S_ .f32 0x7F800000#32
  let main_v10 : FVec F S1x256x1x1 .f32 := broadcastInDim S1x256x1x1 ![] bcast_S_S1x256x1x1 main_cst_2
  let main_v11 : IVec S1x256x1x1 1 := cmpf .olt main_v9 main_v10
  let main_c_3 : IVec S_ 1 := constantI S_ 1 1#1
  let main_v12 : IVec S_ 1 := (fun x v => Host.reduce IntOp.andi x v reducesTo_S1x256x1x1_S_d0_1_2_3 h_S_) main_v11 main_c_3
  let main_v13 : IVec S_ 1 := andi main_v8 main_v12
  main_v13
-- ==== Kernel.lean ====
abbrev S32x256x56x56 : Shape := ⟨4, ![32, 256, 56, 56]⟩
abbrev S1x256x1x1 : Shape := ⟨4, ![1, 256, 1, 1]⟩
abbrev S32x256x3136 : Shape := ⟨3, ![32, 256, 3136]⟩
abbrev S4x64 : Shape := ⟨2, ![4, 64]⟩
abbrev S4x64x64 : Shape := ⟨3, ![4, 64, 64]⟩
abbrev S4x256x3136 : Shape := ⟨3, ![4, 256, 3136]⟩
abbrev S1x256x3136 : Shape := ⟨3, ![1, 256, 3136]⟩
abbrev S256x3136 : Shape := ⟨2, ![256, 3136]⟩
abbrev S4x64x3136 : Shape := ⟨3, ![4, 64, 3136]⟩
abbrev S_ : Shape := ⟨0, ![]⟩
abbrev S64x64 : Shape := ⟨2, ![64, 64]⟩
abbrev S1x64x64 : Shape := ⟨3, ![1, 64, 64]⟩
abbrev S4x64x1 : Shape := ⟨3, ![4, 64, 1]⟩
abbrev S4x1x64 : Shape := ⟨3, ![4, 1, 64]⟩
abbrev S4 : Shape := ⟨1, ![4]⟩
abbrev S4x1x1 : Shape := ⟨3, ![4, 1, 1]⟩
abbrev S256x1 : Shape := ⟨2, ![256, 1]⟩
abbrev S2x256x3136 : Shape := ⟨3, ![2, 256, 3136]⟩

abbrev nBuf : Space → Nat
  | .hbm => 107
  | .vmem => 12
  | .smem => 0
  | _ => 0

abbrev bufTy : (tb : Table) → Fin (tcTables nBuf tb) → BufTy
  | .hbm, ⟨0, _⟩ => ⟨S32x256x56x56, .f32⟩
  | .hbm, ⟨1, _⟩ => ⟨S1x256x1x1, .f32⟩
  | .hbm, ⟨2, _⟩ => ⟨S1x256x1x1, .f32⟩
  | .hbm, ⟨3, _⟩ => ⟨S32x256x3136, .f32⟩
  | .hbm, ⟨4, _⟩ => ⟨S4x64, .f32⟩
  | .hbm, ⟨5, _⟩ => ⟨S4x64x64, .f32⟩
  | .hbm, ⟨6, _⟩ => ⟨S_, .f32⟩
  | .hbm, ⟨7, _⟩ => ⟨S4x64, .f32⟩
  | .hbm, ⟨8, _⟩ => ⟨S4x64, .f32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i1⟩
  | .hbm, ⟨15, _⟩ => ⟨S64x64, .f32⟩
  | .hbm, ⟨16, _⟩ => ⟨S1x64x64, .f32⟩
  | .hbm, ⟨17, _⟩ => ⟨S_, .f32⟩
  | .hbm, ⟨18, _⟩ => ⟨S1x64x64, .f32⟩
  | .hbm, ⟨19, _⟩ => ⟨S1x64x64, .f32⟩
  | .hbm, ⟨20, _⟩ => ⟨S_, .f32⟩
  | .hbm, ⟨21, _⟩ => ⟨S4x64x64, .f32⟩
  | .hbm, ⟨22, _⟩ => ⟨S4x64x64, .f32⟩
  | .hbm, ⟨23, _⟩ => ⟨S4x64x64, .f32⟩
  | .hbm, ⟨24, _⟩ => ⟨S4x64x64, .f32⟩
  | .hbm, ⟨25, _⟩ => ⟨S4x64x1, .f32⟩
  | .hbm, ⟨26, _⟩ => ⟨S4x1x64, .f32⟩
  | .hbm, ⟨27, _⟩ => ⟨S4x64x64, .f32⟩
  | .hbm, ⟨28, _⟩ => ⟨S4x64x64, .f32⟩
  | .hbm, ⟨29, _⟩ => ⟨S4x64x64, .f32⟩
  | .hbm, ⟨30, _⟩ => ⟨S4x64x64, .f32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S64x64, .i1⟩
  | .hbm, ⟨37, _⟩ => ⟨S_, .f32⟩
  | .hbm, ⟨38, _⟩ => ⟨S4x64x64, .f32⟩
  | .hbm, ⟨39, _⟩ => ⟨S4x64x64, .i1⟩
  | .hbm, ⟨40, _⟩ => ⟨S4x64x64, .f32⟩
  | .hbm, ⟨41, _⟩ => ⟨S_, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4x1x1, .f32⟩
  | .hbm, ⟨47, _⟩ => ⟨S4x64x64, .f32⟩
  | .hbm, ⟨48, _⟩ => ⟨S4x64x64, .f32⟩
  | .hbm, ⟨49, _⟩ => ⟨S4x64x64, .f32⟩
  | .hbm, ⟨50, _⟩ => ⟨S_, .f32⟩
  | .hbm, ⟨51, _⟩ => ⟨S4x64x64, .f32⟩
  | .hbm, ⟨52, _⟩ => ⟨S4x64x64, .f32⟩
  | .hbm, ⟨53, _⟩ => ⟨S4x64x64, .f32⟩
  | .hbm, ⟨54, _⟩ => ⟨S4x64x64, .f32⟩
  | .hbm, ⟨55, _⟩ => ⟨S4x64x64, .f32⟩
  | .hbm, ⟨56, _⟩ => ⟨S_, .f32⟩
  | .hbm, ⟨57, _⟩ => ⟨S4x64x64, .f32⟩
  | .hbm, ⟨58, _⟩ => ⟨S4x64x64, .f32⟩
  | .hbm, ⟨59, _⟩ => ⟨S4x64x64, .f32⟩
  | .hbm, ⟨60, _⟩ => ⟨S_, .f32⟩
  | .hbm, ⟨61, _⟩ => ⟨S4x64x64, .f32⟩
  | .hbm, ⟨62, _⟩ => ⟨S4x64x64, .f32⟩
  | .hbm, ⟨63, _⟩ => ⟨S4x64x64, .f32⟩
  | .hbm, ⟨64, _⟩ => ⟨S4x64x64, .f32⟩
  | .hbm, ⟨65, _⟩ => ⟨S4x64x64, .f32⟩
  | .hbm, ⟨66, _⟩ => ⟨S_, .f32⟩
  | .hbm, ⟨67, _⟩ => ⟨S4x64x64, .f32⟩
  | .hbm, ⟨68, _⟩ => ⟨S4x64x64, .f32⟩
  | .hbm, ⟨69, _⟩ => ⟨S4x64x64, .f32⟩
  | .hbm, ⟨70, _⟩ => ⟨S_, .f32⟩
  | .hbm, ⟨71, _⟩ => ⟨S4x64x64, .f32⟩
  | .hbm, ⟨72, _⟩ => ⟨S4x64x64, .f32⟩
  | .hbm, ⟨73, _⟩ => ⟨S4x64x64, .f32⟩
  | .hbm, ⟨74, _⟩ => ⟨S4x64x64, .f32⟩
  | .hbm, ⟨75, _⟩ => ⟨S4x64x64, .f32⟩
  | .hbm, ⟨76, _⟩ => ⟨S_, .f32⟩
  | .hbm, ⟨77, _⟩ => ⟨S4x64x64, .f32⟩
  | .hbm, ⟨78, _⟩ => ⟨S4x64x64, .f32⟩
  | .hbm, ⟨79, _⟩ => ⟨S4x64x64, .f32⟩
  | .hbm, ⟨80, _⟩ => ⟨S_, .f32⟩
  | .hbm, ⟨81, _⟩ => ⟨S4x64x64, .f32⟩
  | .hbm, ⟨82, _⟩ => ⟨S4x64x64, .f32⟩
  | .hbm, ⟨83, _⟩ => ⟨S4x64x64, .f32⟩
  | .hbm, ⟨84, _⟩ => ⟨S4x64x64, .f32⟩
  | .hbm, ⟨85, _⟩ => ⟨S4x64x64, .f32⟩
  | .hbm, ⟨86, _⟩ => ⟨S_, .f32⟩
  | .hbm, ⟨87, _⟩ => ⟨S4x64x64, .f32⟩
  | .hbm, ⟨88, _⟩ => ⟨S4x64x64, .f32⟩
  | .hbm, ⟨89, _⟩ => ⟨S4x64x64, .f32⟩
  | .hbm, ⟨90, _⟩ => ⟨S_, .f32⟩
  | .hbm, ⟨91, _⟩ => ⟨S4x64x64, .f32⟩
  | .hbm, ⟨92, _⟩ => ⟨S4x64x64, .f32⟩
  | .hbm, ⟨93, _⟩ => ⟨S4x64x64, .f32⟩
  | .hbm, ⟨94, _⟩ => ⟨S4x64x64, .f32⟩
  | .hbm, ⟨95, _⟩ => ⟨S4x64x64, .f32⟩
  | .hbm, ⟨96, _⟩ => ⟨S_, .f32⟩
  | .hbm, ⟨97, _⟩ => ⟨S4x64x64, .f32⟩
  | .hbm, ⟨98, _⟩ => ⟨S4x64x64, .f32⟩
  | .hbm, ⟨99, _⟩ => ⟨S4x64x64, .f32⟩
  | .hbm, ⟨100, _⟩ => ⟨S4x1x1, .f32⟩
  | .hbm, ⟨101, _⟩ => ⟨S4x64x64, .f32⟩
  | .hbm, ⟨102, _⟩ => ⟨S4x64x64, .f32⟩
  | .hbm, ⟨103, _⟩ => ⟨S256x1, .f32⟩
  | .hbm, ⟨104, _⟩ => ⟨S256x1, .f32⟩
  | .hbm, ⟨105, _⟩ => ⟨S32x256x3136, .f32⟩
  | .hbm, ⟨106, _⟩ => ⟨S32x256x56x56, .f32⟩
  | .local _ .vmem, ⟨0, _⟩ => ⟨S4x256x3136, .f32⟩
  | .local _ .vmem, ⟨1, _⟩ => ⟨S4x256x3136, .f32⟩
  | .local _ .vmem, ⟨2, _⟩ => ⟨S4x64, .f32⟩
  | .local _ .vmem, ⟨3, _⟩ => ⟨S4x64x64, .f32⟩
  | .local _ .vmem, ⟨4, _⟩ => ⟨S2x256x3136, .f32⟩
  | .local _ .vmem, ⟨5, _⟩ => ⟨S2x256x3136, .f32⟩
  | .local _ .vmem, ⟨6, _⟩ => ⟨S4x64, .f32⟩
  | .local _ .vmem, ⟨7, _⟩ => ⟨S4x64x64, .f32⟩
  | .local _ .vmem, ⟨8, _⟩ => ⟨S256x1, .f32⟩
  | .local _ .vmem, ⟨9, _⟩ => ⟨S256x1, .f32⟩
  | .local _ .vmem, ⟨10, _⟩ => ⟨S2x256x3136, .f32⟩
  | .local _ .vmem, ⟨11, _⟩ => ⟨S2x256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_c : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_cst : Ref sig .tc := ⟨.hbm, 37, rfl⟩
abbrev main_call0_v5 : Ref sig .tc := ⟨.hbm, 38, rfl⟩
abbrev main_call0_call0_v0 : Ref sig .tc := ⟨.hbm, 39, rfl⟩
abbrev main_call0_v6 : Ref sig .tc := ⟨.hbm, 40, rfl⟩
abbrev main_call0_cst_0 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x256x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x256x3136 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S32x256x56x56_S32x256x3136 : S32x256x56x56.ShapeCasts S32x256x3136
  inb_S4x64_S4x64_0_0 : ∀ a, (![0, 0] : Fin 2 → Nat) a + S4x64.size a ≤ S4x64.size a
  h_S4x64 : 0 < S4x64.numel
  inb_S4x64x64_S4x64x64_0_0_0 : ∀ a, (![0, 0, 0] : Fin 3 → Nat) a + S4x64x64.size a ≤ S4x64x64.size a
  h_S4x64x64 : 0 < S4x64x64.numel
  inb_S4x256x3136_S1x256x3136_0_0_0 : ∀ a, (![0, 0, 0] : Fin 3 → Nat) a + S1x256x3136.size a ≤ S4x256x3136.size a
  h_S1x256x3136 : 0 < S1x256x3136.numel
  shapeCasts_S1x256x3136_S256x3136 : S1x256x3136.ShapeCasts S256x3136
  shapeCasts_S256x3136_S4x64x3136 : S256x3136.ShapeCasts S4x64x3136
  shapeCasts_S4x64_S4x64 : S4x64.ShapeCasts S4x64
  reduces_S4x64x3136_S4x64 : S4x64x3136.Reduces [2] S4x64
  shapeCasts_S4x64x64_S4x64x64 : S4x64x64.ShapeCasts S4x64x64
  inb_S4x256x3136_S1x256x3136_1_0_0 : ∀ a, (![1, 0, 0] : Fin 3 → Nat) a + S1x256x3136.size a ≤ S4x256x3136.size a
  inb_S4x256x3136_S1x256x3136_2_0_0 : ∀ a, (![2, 0, 0] : Fin 3 → Nat) a + S1x256x3136.size a ≤ S4x256x3136.size a
  inb_S4x256x3136_S1x256x3136_3_0_0 : ∀ a, (![3, 0, 0] : Fin 3 → Nat) a + S1x256x3136.size a ≤ S4x256x3136.size a
  bcast_S_S4x64 : S_.BroadcastsInDim S4x64 (![] : Fin 0 → Fin S4x64.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S_S4x64x64 : S_.BroadcastsInDim S4x64x64 (![] : Fin 0 → Fin S4x64x64.rank)
  bcast_S1x64x64_S4x64x64_0_1_2 : S1x64x64.BroadcastsInDim S4x64x64 (![0, 1, 2] : Fin 3 → Fin S4x64x64.rank)
  bcast_S4x64_S4x64x1_0_1 : S4x64.BroadcastsInDim S4x64x1 (![0, 1] : Fin 2 → Fin S4x64x1.rank)
  bcast_S4x64_S4x1x64_0_2 : S4x64.BroadcastsInDim S4x1x64 (![0, 2] : Fin 2 → Fin S4x1x64.rank)
  bcast_S4x64x1_S4x64x64_0_1_2 : S4x64x1.BroadcastsInDim S4x64x64 (![0, 1, 2] : Fin 3 → Fin S4x64x64.rank)
  bcast_S4x1x64_S4x64x64_0_1_2 : S4x1x64.BroadcastsInDim S4x64x64 (![0, 1, 2] : Fin 3 → Fin S4x64x64.rank)
  bcast_S64x64_S4x64x64_1_2 : S64x64.BroadcastsInDim S4x64x64 (![1, 2] : Fin 2 → Fin S4x64x64.rank)
  reducesTo_S4x64x64_S4_d1_2 : S4x64x64.ReducesTo [1, 2] S4
  h_S_ : 0 < S_.numel
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x64x64_0_1_2 : S4x1x1.BroadcastsInDim S4x64x64 (![0, 1, 2] : Fin 3 → Fin S4x64x64.rank)
  shapeCasts_S1x256x1x1_S256x1 : S1x256x1x1.ShapeCasts S256x1
  inb_S2x256x3136_S1x256x3136_0_0_0 : ∀ a, (![0, 0, 0] : Fin 3 → Nat) a + S1x256x3136.size a ≤ S2x256x3136.size a
  shapeCasts_S4x64_S4x64x1 : S4x64.ShapeCasts S4x64x1
  broadcasts_S4x64x1_S4x64x3136 : S4x64x1.Broadcasts S4x64x3136
  shapeCasts_S4x64x3136_S256x3136 : S4x64x3136.ShapeCasts S256x3136
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3136 : S256x1.Broadcasts S256x3136
  shapeCasts_S256x3136_S1x256x3136 : S256x3136.ShapeCasts S1x256x3136
  inb_S2x256x3136_S1x256x3136_1_0_0 : ∀ a, (![1, 0, 0] : Fin 3 → Nat) a + S1x256x3136.size a ≤ S2x256x3136.size a
  shapeCasts_S32x256x3136_S32x256x56x56 : S32x256x3136.ShapeCasts S32x256x56x56
  dot_S4x64x3136_S4x64x3136_S4x64x64_2_2_1_1_0_0_wf : DotDims.WF S4x64x3136 S4x64x3136 S4x64x64 [2] [2] [1] [1] [0] [0]
  dot_S4x64x64_S4x64x64_S4x64x64_2_1_1_2_0_0_wf : DotDims.WF S4x64x64 S4x64x64 S4x64x64 [2] [1] [1] [2] [0] [0]
  dot_S4x64x64_S4x64x3136_S4x64x3136_2_1_1_2_0_0_wf : DotDims.WF S4x64x64 S4x64x3136 S4x64x3136 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x3136.size a ≤ S32x256x3136.size a
  hwx0_0 : ∀ i : grid0.Coords, EltTy.bits .f32 = 32 ∨ (Rect.block (s := S32x256x3136) S4x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x64.size a ≤ S4x64x64.size a
  hwx0_2 : ∀ i : grid0.Coords, EltTy.bits .f32 = 32 ∨ (Rect.block (s := S4x64x64) S4x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x3136.size a ≤ S32x256x3136.size a
  hwx1_0 : ∀ i : grid1.Coords, EltTy.bits .f32 = 32 ∨ (Rect.block (s := S32x256x3136) S2x256x3136.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64.size a ≤ S4x64.size a
  hwx1_1 : ∀ i : grid1.Coords, EltTy.bits .f32 = 32 ∨ (Rect.block (s := S4x64) S4x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x64x64.size a ≤ S4x64x64.size a
  hwx1_2 : ∀ i : grid1.Coords, EltTy.bits .f32 = 32 ∨ (Rect.block (s := S4x64x64) S4x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x256x3136.size a ≤ S32x256x3136.size a
  hwx1_5 : ∀ i : grid1.Coords, EltTy.bits .f32 = 32 ∨ (Rect.block (s := S32x256x3136) S2x256x3136.size (cc1_transform_5 i) (hinb1_5 i)).WholeWords (EltTy.packing .f32)

variable [Facts₀]

def dot_S4x64x3136_S4x64x3136_S4x64x64_2_2_1_1_0_0 : DotDims S4x64x3136 S4x64x3136 S4x64x64 where
  lhsContracting := [2]
  rhsContracting := [2]
  lhsNonContracting := [1]
  rhsNonContracting := [1]
  lhsBatch := [0]
  rhsBatch := [0]
  wf := dot_S4x64x3136_S4x64x3136_S4x64x64_2_2_1_1_0_0_wf
def dot_S4x64x64_S4x64x64_S4x64x64_2_1_1_2_0_0 : DotDims S4x64x64 S4x64x64 S4x64x64 where
  lhsContracting := [2]
  rhsContracting := [1]
  lhsNonContracting := [1]
  rhsNonContracting := [2]
  lhsBatch := [0]
  rhsBatch := [0]
  wf := dot_S4x64x64_S4x64x64_S4x64x64_2_1_1_2_0_0_wf
def dot_S4x64x64_S4x64x3136_S4x64x3136_2_1_1_2_0_0 : DotDims S4x64x64 S4x64x3136 S4x64x3136 where
  lhsContracting := [2]
  rhsContracting := [1]
  lhsNonContracting := [1]
  rhsNonContracting := [2]
  lhsBatch := [0]
  rhsBatch := [0]
  wf := dot_S4x64x64_S4x64x3136_S4x64x3136_2_1_1_2_0_0_wf

abbrev win0_0 : Pipeline.Window sig grid0 :=
  Pipeline.Window.ofSpec (Memref.whole main_v0) S4x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S4x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S4x64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2x256x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S4x64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S256x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v75) S2x256x3136.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x256x56x56 : Shape := ⟨4, ![32, 256, 56, 56]⟩
abbrev S1x256x1x1 : Shape := ⟨4, ![1, 256, 1, 1]⟩
abbrev S256x32x56x56 : Shape := ⟨4, ![256, 32, 56, 56]⟩
abbrev S4x64x100352 : Shape := ⟨3, ![4, 64, 100352]⟩
abbrev S_ : Shape := ⟨0, ![]⟩
abbrev S4x64 : Shape := ⟨2, ![4, 64]⟩
abbrev S4x64x1 : Shape := ⟨3, ![4, 64, 1]⟩
abbrev S64x64 : Shape := ⟨2, ![64, 64]⟩
abbrev S4x64x64 : Shape := ⟨3, ![4, 64, 64]⟩
abbrev S1x64x64 : Shape := ⟨3, ![1, 64, 64]⟩
abbrev S4 : Shape := ⟨1, ![4]⟩
abbrev S4x1x1 : Shape := ⟨3, ![4, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S1x256x1x1, .f32⟩
  | .hbm, ⟨2, _⟩ => ⟨S1x256x1x1, .f32⟩
  | .hbm, ⟨3, _⟩ => ⟨S256x32x56x56, .f32⟩
  | .hbm, ⟨4, _⟩ => ⟨S4x64x100352, .f32⟩
  | .hbm, ⟨5, _⟩ => ⟨S_, .f32⟩
  | .hbm, ⟨6, _⟩ => ⟨S4x64, .f32⟩
  | .hbm, ⟨7, _⟩ => ⟨S4x64x1, .f32⟩
  | .hbm, ⟨8, _⟩ => ⟨S_, .f32⟩
  | .hbm, ⟨9, _⟩ => ⟨S4x64x1, .f32⟩
  | .hbm, ⟨10, _⟩ => ⟨S4x64x1, .f32⟩
  | .hbm, ⟨11, _⟩ => ⟨S4x64x100352, .f32⟩
  | .hbm, ⟨12, _⟩ => ⟨S4x64x100352, .f32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S64x64, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S4x64x64, .f32⟩
  | .hbm, ⟨24, _⟩ => ⟨S_, .f32⟩
  | .hbm, ⟨25, _⟩ => ⟨S4x64x64, .f32⟩
  | .hbm, ⟨26, _⟩ => ⟨S4x64x64, .f32⟩
  | .hbm, ⟨27, _⟩ => ⟨S1x64x64, .f32⟩
  | .hbm, ⟨28, _⟩ => ⟨S4x64x64, .f32⟩
  | .hbm, ⟨29, _⟩ => ⟨S4x64x64, .f32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S64x64, .i1⟩
  | .hbm, ⟨36, _⟩ => ⟨S_, .f32⟩
  | .hbm, ⟨37, _⟩ => ⟨S4x64x64, .f32⟩
  | .hbm, ⟨38, _⟩ => ⟨S4x64x64, .i1⟩
  | .hbm, ⟨39, _⟩ => ⟨S4x64x64, .f32⟩
  | .hbm, ⟨40, _⟩ => ⟨S_, .f32⟩
  | .hbm, ⟨41, _⟩ => ⟨S4, .f32⟩
  | .hbm, ⟨42, _⟩ => ⟨S4x1x1, .f32⟩
  | .hbm, ⟨43, _⟩ => ⟨S_, .f32⟩
  | .hbm, ⟨44, _⟩ => ⟨S4x1x1, .f32⟩
  | .hbm, ⟨45, _⟩ => ⟨S4x1x1, .f32⟩
  | .hbm, ⟨46, _⟩ => ⟨S4x64x64, .f32⟩
  | .hbm, ⟨47, _⟩ => ⟨S4x64x64, .f32⟩
  | .hbm, ⟨48, _⟩ => ⟨S4x64x64, .f32⟩
  | .hbm, ⟨49, _⟩ => ⟨S_, .f32⟩
  | .hbm, ⟨50, _⟩ => ⟨S4x64x64, .f32⟩
  | .hbm, ⟨51, _⟩ => ⟨S4x64x64, .f32⟩
  | .hbm, ⟨52, _⟩ => ⟨S4x64x64, .f32⟩
  | .hbm, ⟨53, _⟩ => ⟨S4x64x64, .f32⟩
  | .hbm, ⟨54, _⟩ => ⟨S4x64x64, .f32⟩
  | .hbm, ⟨55, _⟩ => ⟨S_, .f32⟩
  | .hbm, ⟨56, _⟩ => ⟨S4x64x64, .f32⟩
  | .hbm, ⟨57, _⟩ => ⟨S4x64x64, .f32⟩
  | .hbm, ⟨58, _⟩ => ⟨S4x64x64, .f32⟩
  | .hbm, ⟨59, _⟩ => ⟨S_, .f32⟩
  | .hbm, ⟨60, _⟩ => ⟨S4x64x64, .f32⟩
  | .hbm, ⟨61, _⟩ => ⟨S4x64x64, .f32⟩
  | .hbm, ⟨62, _⟩ => ⟨S4x64x64, .f32⟩
  | .hbm, ⟨63, _⟩ => ⟨S4x64x64, .f32⟩
  | .hbm, ⟨64, _⟩ => ⟨S4x64x64, .f32⟩
  | .hbm, ⟨65, _⟩ => ⟨S_, .f32⟩
  | .hbm, ⟨66, _⟩ => ⟨S4x64x64, .f32⟩
  | .hbm, ⟨67, _⟩ => ⟨S4x64x64, .f32⟩
  | .hbm, ⟨68, _⟩ => ⟨S4x64x64, .f32⟩
  | .hbm, ⟨69, _⟩ => ⟨S_, .f32⟩
  | .hbm, ⟨70, _⟩ => ⟨S4x64x64, .f32⟩
  | .hbm, ⟨71, _⟩ => ⟨S4x64x64, .f32⟩
  | .hbm, ⟨72, _⟩ => ⟨S4x64x64, .f32⟩
  | .hbm, ⟨73, _⟩ => ⟨S4x64x64, .f32⟩
  | .hbm, ⟨74, _⟩ => ⟨S4x64x64, .f32⟩
  | .hbm, ⟨75, _⟩ => ⟨S_, .f32⟩
  | .hbm, ⟨76, _⟩ => ⟨S4x64x64, .f32⟩
  | .hbm, ⟨77, _⟩ => ⟨S4x64x64, .f32⟩
  | .hbm, ⟨78, _⟩ => ⟨S4x64x64, .f32⟩
  | .hbm, ⟨79, _⟩ => ⟨S_, .f32⟩
  | .hbm, ⟨80, _⟩ => ⟨S4x64x64, .f32⟩
  | .hbm, ⟨81, _⟩ => ⟨S4x64x64, .f32⟩
  | .hbm, ⟨82, _⟩ => ⟨S4x64x64, .f32⟩
  | .hbm, ⟨83, _⟩ => ⟨S4x64x64, .f32⟩
  | .hbm, ⟨84, _⟩ => ⟨S4x64x64, .f32⟩
  | .hbm, ⟨85, _⟩ => ⟨S_, .f32⟩
  | .hbm, ⟨86, _⟩ => ⟨S4x64x64, .f32⟩
  | .hbm, ⟨87, _⟩ => ⟨S4x64x64, .f32⟩
  | .hbm, ⟨88, _⟩ => ⟨S4x64x64, .f32⟩
  | .hbm, ⟨89, _⟩ => ⟨S_, .f32⟩
  | .hbm, ⟨90, _⟩ => ⟨S4x64x64, .f32⟩
  | .hbm, ⟨91, _⟩ => ⟨S4x64x64, .f32⟩
  | .hbm, ⟨92, _⟩ => ⟨S4x64x64, .f32⟩
  | .hbm, ⟨93, _⟩ => ⟨S4x64x64, .f32⟩
  | .hbm, ⟨94, _⟩ => ⟨S4x64x64, .f32⟩
  | .hbm, ⟨95, _⟩ => ⟨S_, .f32⟩
  | .hbm, ⟨96, _⟩ => ⟨S4x64x64, .f32⟩
  | .hbm, ⟨97, _⟩ => ⟨S4x64x64, .f32⟩
  | .hbm, ⟨98, _⟩ => ⟨S4x64x64, .f32⟩
  | .hbm, ⟨99, _⟩ => ⟨S4x1x1, .f32⟩
  | .hbm, ⟨100, _⟩ => ⟨S4x64x64, .f32⟩
  | .hbm, ⟨101, _⟩ => ⟨S4x64x64, .f32⟩
  | .hbm, ⟨102, _⟩ => ⟨S4x64x100352, .f32⟩
  | .hbm, ⟨103, _⟩ => ⟨S256x32x56x56, .f32⟩
  | .hbm, ⟨104, _⟩ => ⟨S32x256x56x56, .f32⟩
  | .hbm, ⟨105, _⟩ => ⟨S32x256x56x56, .f32⟩
  | .hbm, ⟨106, _⟩ => ⟨S32x256x56x56, .f32⟩
  | .hbm, ⟨107, _⟩ => ⟨S32x256x56x56, .f32⟩
  | .hbm, ⟨108, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_c : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_cst : Ref sig .tc := ⟨.hbm, 36, rfl⟩
abbrev main_call0_v5 : Ref sig .tc := ⟨.hbm, 37, rfl⟩
abbrev main_call0_call0_v0 : Ref sig .tc := ⟨.hbm, 38, rfl⟩
abbrev main_call0_v6 : Ref sig .tc := ⟨.hbm, 39, rfl⟩
abbrev main_call0_cst_0 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]

class Facts₀ : Prop where
  transposes_S32x256x56x56_S256x32x56x56_1_0_2_3 : S32x256x56x56.Transposes [1, 0, 2, 3] S256x32x56x56
  shapeCasts_S256x32x56x56_S4x64x100352 : S256x32x56x56.ShapeCasts S4x64x100352
  reducesTo_S4x64x100352_S4x64_d2 : S4x64x100352.ReducesTo [2] S4x64
  h_S_ : 0 < S_.numel
  bcast_S4x64_S4x64x1_0_1 : S4x64.BroadcastsInDim S4x64x1 (![0, 1] : Fin 2 → Fin S4x64x1.rank)
  bcast_S_S4x64x1 : S_.BroadcastsInDim S4x64x1 (![] : Fin 0 → Fin S4x64x1.rank)
  bcast_S4x64x1_S4x64x100352_0_1_2 : S4x64x1.BroadcastsInDim S4x64x100352 (![0, 1, 2] : Fin 3 → Fin S4x64x100352.rank)
  bcast_S_S64x64 : S_.BroadcastsInDim S64x64 (![] : Fin 0 → Fin S64x64.rank)
  bcast_S_S4x64x64 : S_.BroadcastsInDim S4x64x64 (![] : Fin 0 → Fin S4x64x64.rank)
  bcast_S64x64_S1x64x64_1_2 : S64x64.BroadcastsInDim S1x64x64 (![1, 2] : Fin 2 → Fin S1x64x64.rank)
  bcast_S1x64x64_S4x64x64_0_1_2 : S1x64x64.BroadcastsInDim S4x64x64 (![0, 1, 2] : Fin 3 → Fin S4x64x64.rank)
  bcast_S64x64_S4x64x64_1_2 : S64x64.BroadcastsInDim S4x64x64 (![1, 2] : Fin 2 → Fin S4x64x64.rank)
  reducesTo_S4x64x64_S4_d1_2 : S4x64x64.ReducesTo [1, 2] S4
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x64x64_0_1_2 : S4x1x1.BroadcastsInDim S4x64x64 (![0, 1, 2] : Fin 3 → Fin S4x64x64.rank)
  shapeCasts_S4x64x100352_S256x32x56x56 : S4x64x100352.ShapeCasts S256x32x56x56
  transposes_S256x32x56x56_S32x256x56x56_1_0_2_3 : S256x32x56x56.Transposes [1, 0, 2, 3] S32x256x56x56
  bcast_S1x256x1x1_S32x256x56x56_0_1_2_3 : S1x256x1x1.BroadcastsInDim S32x256x56x56 (![0, 1, 2, 3] : Fin 4 → Fin S32x256x56x56.rank)
  dot_S4x64x100352_S4x64x100352_S4x64x64_2_2_1_1_0_0_wf : DotDims.WF S4x64x100352 S4x64x100352 S4x64x64 [2] [2] [1] [1] [0] [0]
  dot_S4x64x64_S4x64x64_S4x64x64_2_1_1_2_0_0_wf : DotDims.WF S4x64x64 S4x64x64 S4x64x64 [2] [1] [1] [2] [0] [0]
  dot_S4x64x64_S4x64x100352_S4x64x100352_2_1_1_2_0_0_wf : DotDims.WF S4x64x64 S4x64x100352 S4x64x100352 [2] [1] [1] [2] [0] [0]

variable [Facts₀]

def dot_S4x64x100352_S4x64x100352_S4x64x64_2_2_1_1_0_0 : DotDims S4x64x100352 S4x64x100352 S4x64x64 where
  lhsContracting := [2]
  rhsContracting := [2]
  lhsNonContracting := [1]
  rhsNonContracting := [1]
  lhsBatch := [0]
  rhsBatch := [0]
  wf := dot_S4x64x100352_S4x64x100352_S4x64x64_2_2_1_1_0_0_wf
def dot_S4x64x64_S4x64x64_S4x64x64_2_1_1_2_0_0 : DotDims S4x64x64 S4x64x64 S4x64x64 where
  lhsContracting := [2]
  rhsContracting := [1]
  lhsNonContracting := [1]
  rhsNonContracting := [2]
  lhsBatch := [0]
  rhsBatch := [0]
  wf := dot_S4x64x64_S4x64x64_S4x64x64_2_1_1_2_0_0_wf
def dot_S4x64x64_S4x64x100352_S4x64x100352_2_1_1_2_0_0 : DotDims S4x64x64 S4x64x100352 S4x64x100352 where
  lhsContracting := [2]
  rhsContracting := [1]
  lhsNonContracting := [1]
  rhsNonContracting := [2]
  lhsBatch := [0]
  rhsBatch := [0]
  wf := dot_S4x64x64_S4x64x100352_S4x64x100352_2_1_1_2_0_0_wf

class Facts : Prop extends Facts₀ where

variable [Facts]
-- ==== Proof.KRun.lean ====
/-
  The idealized kernel program's run, with its result named. The program is seven segments: a reshape of X to
  [32, 256, 3136]; the first pallas region (the per-group sums and sums of products); the host arithmetic that turns
  them into the mean and the whitening matrix; the second pallas region (centre, whiten, scale and shift); and the
  reshape back to [32, 256, 56, 56]. Every weakly fair execution runs through the segments in order, and after the
  last one every buffer that outlives the call holds the contents the segments' fold assigns it: the result array
  holds the fold's value at the result's buffer, and the three argument arrays hold what they held at launch.
-/
import proofs.«147816_j11527692222570_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the segments' types mention the pinned pipeline configurations: unification has to unfold plain definitions in a
-- metavariable's type to see that they are the printed ones
set_option backward.isDefEq.respectTransparency.types false in
/-- Every weakly fair execution of the program terminates without a fault; the result array then holds the value
    the segments' fold gives the result's buffer, and the argument arrays are as launched. -/
theorem run : θ_run defs (onTc (τ := τ) (main (F := F))) ⟨m, fun _ => 0, ρ⟩ (fun r => ∀ c : Dev nD,
      r.2.mem ((c.tc : Thread nD τ).loc main_v76) = W7 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v76 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.Whole

end
-- ==== Proof.LibLineResults.lean ====
/-
  Reading a straight line of host operations: three general facts used by every stage lemma of this certificate.

  * The contents after two lines run one after the other are the second line's contents after the first's.
  * An operation over a literal family of FIVE operand references (a concatenation of five arrays) writes its
    function applied to each operand's contents taken at that operand's own reference, so that a reader can go on
    rewriting those contents one operation further back.
  * A tactic that unrolls a literal line at a reference in one simplification pass, the five-operand fact included.
-/
import Idealize.ShloMosaic.Lib.StableHlo.Run

noncomputable section

namespace Idealize.ShloMosaic.StableHlo

open Idealize.ShloMosaic

variable {τ : Topo} {sig : RefSig} {Val : EltTy → Type}

/-- The contents after a concatenated line: the second part's fold over the first part's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {x a b c e y : Ref sig .tc}

/-- A five-operand operation's result, each operand's contents at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same, with the result reference kept out of the simplifier's index. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- Unrolls a literal line of host operations at one reference in a single pass: every operation's result at its
    own result reference becomes its function's value, at any other reference what was there before. -/
macro "line_results" : tactic =>
  `(tactic| (simp (disch := decide) only [after_cons, after_nil,
      nullary_result', unary_result', binary_result', ternary_result', quaternary_result', reshape_result', nary5_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefRun.lean ====
/-
  The reference program run by hand, and its result named stage by stage, at the exact extended-real values.

  The program is a straight line of 106 host operations once the two outlined functions (the trace, and the select inside
  it) are written at their call sites. Run from any memory it terminates with every buffer at the fold of the operations'
  results over the initial contents. The fold is read in ten consecutive pieces: each piece computes a few named values
  from the values it reads and leaves alone the buffers later pieces still need, so the contents of the result buffer
  unwind, piece by piece from the last, to the stage functions below applied to the three arguments' contents:

    xr        the input with channels in front and samples and pixels flattened,
    meanCol   its channel means, centred the data minus them,
    epsI      the regulariser, sigma the regularised covariance of the centred data,
    whitening five Newton-Schulz steps on the unit-trace covariance, scaled back by the square root of one over the trace,
    result    the whitening matrix applied to the centred data, laid back out, times the weight plus the bias.
-/
import proofs.«147816_j11527692222570_1_alg».proof.Proof.Gen.ReferenceIdeal
import proofs.«147816_j11527692222570_1_alg».proof.Proof.LibLineResults
import Idealize.ShloMosaic.Lib.StableHlo.Run
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages, at the exact extended-real values

Each definition is one host operation, or a short run of them, of the program applied to the values it reads. -/

/-- The input with the channel axis moved to the front and the sample and pixel axes flattened into one (value 1). -/
def xr (X : FVec Ideal S32x256x56x56 .f32) : FVec Ideal S4x64x100352 .f32 :=
  shapeCast S4x64x100352 (transpose S256x32x56x56 [1, 0, 2, 3] X transposes_S32x256x56x56_S256x32x56x56_1_0_2_3)
    shapeCasts_S256x32x56x56_S4x64x100352

/-- The mean over the long axis of a channel-major array, kept as a column (value 5 as a function of value 1). -/
def meanColOf (x : FVec Ideal S4x64x100352 .f32) : FVec Ideal S4x64x1 .f32 :=
  Host.divf (F := Ideal)
    (broadcastInDim S4x64x1 ![0, 1] bcast_S4x64_S4x64x1_0_1
      (Host.reduceAdd (F := Ideal) x (constant (F := Ideal) S_ .f32 0x00000000#32) reducesTo_S4x64x100352_S4x64_d2 h_S_))
    (broadcastInDim S4x64x1 ![] bcast_S_S4x64x1 (constant (F := Ideal) S_ .f32 0x47C40000#32))

/-- The channel means of the input (value 5). -/
def meanCol (X : FVec Ideal S32x256x56x56 .f32) : FVec Ideal S4x64x1 .f32 := meanColOf (xr X)

/-- A channel-major array minus its channel means (value 7 as a function of value 1). -/
def centredOf (x : FVec Ideal S4x64x100352 .f32) : FVec Ideal S4x64x100352 .f32 :=
  subf (F := Ideal) x (broadcastInDim S4x64x100352 ![0, 1, 2] bcast_S4x64x1_S4x64x100352_0_1_2 (meanColOf x))

/-- The centred data (value 7). -/
def centred (X : FVec Ideal S32x256x56x56 .f32) : FVec Ideal S4x64x100352 .f32 := centredOf (xr X)

/-- The 64 x 64 identity pattern as floats: one where the row index equals the column index, zero elsewhere (value 13). -/
def eye : FVec Ideal S64x64 .f32 :=
  uitofp (F := Ideal) .f32
    (cmpi .eq (addi (iotaInDim S64x64 32 0) (broadcastInDim S64x64 ![] bcast_S_S64x64 (constantI S_ 32 0#32)))
      (iotaInDim S64x64 32 1))

/-- The regulariser: the small constant times the identity pattern (value 15). -/
def epsI : FVec Ideal S64x64 .f32 :=
  mulf (F := Ideal) (broadcastInDim S64x64 ![] bcast_S_S64x64 (constant (F := Ideal) S_ .f32 0x3727C5AC#32)) eye

/-- The regularised covariance of centred data: the regulariser plus the Gram matrix over the long axis divided by its
    length (value 21 as a function of value 7). -/
def sigmaOf (c : FVec Ideal S4x64x100352 .f32) : FVec Ideal S4x64x64 .f32 :=
  addf (F := Ideal)
    (broadcastInDim S4x64x64 ![0, 1, 2] bcast_S1x64x64_S4x64x64_0_1_2
      (broadcastInDim S1x64x64 ![1, 2] bcast_S64x64_S1x64x64_1_2 epsI))
    (Host.divf (F := Ideal)
      (Host.dotGeneral (F := Ideal) dot_S4x64x100352_S4x64x100352_S4x64x64_2_2_1_1_0_0 none c c)
      (broadcastInDim S4x64x64 ![] bcast_S_S4x64x64 (constant (F := Ideal) S_ .f32 0x47C40000#32)))

/-- The regularised covariance of the input (value 21). -/
def sigma (X : FVec Ideal S32x256x56x56 .f32) : FVec Ideal S4x64x64 .f32 := sigmaOf (centred X)

/-- The trace of each group's matrix: the diagonal selected by the identity pattern, summed (value 22). -/
def traceOf (S : FVec Ideal S4x64x64 .f32) : FVec Ideal S4 .f32 :=
  Host.reduceAdd (F := Ideal)
    (select
      (broadcastInDim S4x64x64 ![1, 2] bcast_S64x64_S4x64x64_1_2
        (cmpi .eq (addi (iotaInDim S64x64 32 0) (broadcastInDim S64x64 ![] bcast_S_S64x64 (constantI S_ 32 0#32)))
          (iotaInDim S64x64 32 1)))
      S (broadcastInDim S4x64x64 ![] bcast_S_S4x64x64 (constant (F := Ideal) S_ .f32 0x00000000#32)))
    (constant (F := Ideal) S_ .f32 0x00000000#32) reducesTo_S4x64x64_S4_d1_2 h_S_

/-- One over the trace (value 25). -/
def invTrace (S : FVec Ideal S4x64x64 .f32) : FVec Ideal S4x1x1 .f32 :=
  Host.divf (F := Ideal) (broadcastInDim S4x1x1 ![] bcast_S_S4x1x1 (constant (F := Ideal) S_ .f32 0x3F800000#32))
    (broadcastInDim S4x1x1 ![0] bcast_S4_S4x1x1_0 (traceOf S))

/-- The matrix scaled to unit trace (value 27). -/
def scaled (S : FVec Ideal S4x64x64 .f32) : FVec Ideal S4x64x64 .f32 :=
  mulf (F := Ideal) S (broadcastInDim S4x64x64 ![0, 1, 2] bcast_S4x1x1_S4x64x64_0_1_2 (invTrace S))

/-- The identity pattern in every group (value 28): the iteration's start. -/
def eye3 : FVec Ideal S4x64x64 .f32 := broadcastInDim S4x64x64 ![1, 2] bcast_S64x64_S4x64x64_1_2 eye

/-- The batched matrix product of two [4,64,64] arrays. -/
def mm (l r : FVec Ideal S4x64x64 .f32) : FVec Ideal S4x64x64 .f32 :=
  Host.dotGeneral (F := Ideal) dot_S4x64x64_S4x64x64_S4x64x64_2_1_1_2_0_0 none l r

/-- One Newton-Schulz step towards the inverse square root of A: Y goes to 1.5 Y - 0.5 Y Y Y A. -/
def nsStep (A Y : FVec Ideal S4x64x64 .f32) : FVec Ideal S4x64x64 .f32 :=
  subf (F := Ideal)
    (mulf (F := Ideal) (broadcastInDim S4x64x64 ![] bcast_S_S4x64x64 (constant (F := Ideal) S_ .f32 0x3FC00000#32)) Y)
    (mulf (F := Ideal) (broadcastInDim S4x64x64 ![] bcast_S_S4x64x64 (constant (F := Ideal) S_ .f32 0x3F000000#32))
      (mm (mm (mm Y Y) Y) A))

/-- The whitening matrix of a covariance: five Newton-Schulz steps on the unit-trace matrix from the identity, then
    scaled back by the square root of one over the trace (value 71 as a function of value 21). -/
def whitening (S : FVec Ideal S4x64x64 .f32) : FVec Ideal S4x64x64 .f32 :=
  mulf (F := Ideal)
    (nsStep (scaled S) (nsStep (scaled S) (nsStep (scaled S) (nsStep (scaled S) (nsStep (scaled S) eye3)))))
    (broadcastInDim S4x64x64 ![0, 1, 2] bcast_S4x1x1_S4x64x64_0_1_2 (Host.sqrt (F := Ideal) (invTrace S)))

/-- The output from a whitening matrix, centred data, weight and bias: the batched product, laid back out as
    [32,256,56,56], times the weight plus the bias, each broadcast over samples and pixels (value 78). -/
def resultOf (Wm : FVec Ideal S4x64x64 .f32) (c : FVec Ideal S4x64x100352 .f32) (w b : FVec Ideal S1x256x1x1 .f32) :
    FVec Ideal S32x256x56x56 .f32 :=
  addf (F := Ideal)
    (mulf (F := Ideal)
      (transpose S32x256x56x56 [1, 0, 2, 3]
        (shapeCast S256x32x56x56
          (Host.dotGeneral (F := Ideal) dot_S4x64x64_S4x64x100352_S4x64x100352_2_1_1_2_0_0 none Wm c)
          shapeCasts_S4x64x100352_S256x32x56x56)
        transposes_S256x32x56x56_S32x256x56x56_1_0_2_3)
      (broadcastInDim S32x256x56x56 ![0, 1, 2, 3] bcast_S1x256x1x1_S32x256x56x56_0_1_2_3 w))
    (broadcastInDim S32x256x56x56 ![0, 1, 2, 3] bcast_S1x256x1x1_S32x256x56x56_0_1_2_3 b)

/-- The program's result (value 78). -/
def result (X : FVec Ideal S32x256x56x56 .f32) (w b : FVec Ideal S1x256x1x1 .f32) : FVec Ideal S32x256x56x56 .f32 :=
  resultOf (whitening (sigma X)) (centred X) w b

/-- The identity pattern in every group, as a function of the pattern. -/
def eye3Of (e : FVec Ideal S64x64 .f32) : FVec Ideal S4x64x64 .f32 :=
  broadcastInDim S4x64x64 ![1, 2] bcast_S64x64_S4x64x64_1_2 e

/-- The last step of the whitening matrix: the iterate times the square root of the reciprocal trace. -/
def finish (Y : FVec Ideal S4x64x64 .f32) (r : FVec Ideal S4x1x1 .f32) : FVec Ideal S4x64x64 .f32 :=
  mulf (F := Ideal) Y (broadcastInDim S4x64x64 ![0, 1, 2] bcast_S4x1x1_S4x64x64_0_1_2 (Host.sqrt (F := Ideal) r))
/-- The program's 106 host operations in order, the two outlined functions' operations written at their call sites. -/
abbrev ops : List (HloOp τ sig (Elt F)) :=
  [ unary main_arg0 main_v0 ((transpose S256x32x56x56 [1, 0, 2, 3] · transposes_S32x256x56x56_S256x32x56x56_1_0_2_3) : (⟨S32x256x56x56, .f32⟩ : BufTy).Contents (Elt F) → (⟨S256x32x56x56, .f32⟩ : BufTy).Contents (Elt F)),
    reshape main_v0 main_v1 rfl shapeCasts_S256x32x56x56_S4x64x100352,
    nullary main_cst (constant S_ .f32 0x00000000#32),
    binary main_v1 main_cst main_v2 ((fun x v => Host.reduceAdd x v reducesTo_S4x64x100352_S4x64_d2 h_S_) : (⟨S4x64x100352, .f32⟩ : BufTy).Contents (Elt F) → (⟨S_, .f32⟩ : BufTy).Contents (Elt F) → (⟨S4x64, .f32⟩ : BufTy).Contents (Elt F)),
    unary main_v2 main_v3 (broadcastInDim S4x64x1 ![0, 1] bcast_S4x64_S4x64x1_0_1 : (⟨S4x64, .f32⟩ : BufTy).Contents (Elt F) → (⟨S4x64x1, .f32⟩ : BufTy).Contents (Elt F)),
    nullary main_cst_0 (constant S_ .f32 0x47C40000#32),
    unary main_cst_0 main_v4 (broadcastInDim S4x64x1 ![] bcast_S_S4x64x1 : (⟨S_, .f32⟩ : BufTy).Contents (Elt F) → (⟨S4x64x1, .f32⟩ : BufTy).Contents (Elt F)),
    binary main_v3 main_v4 main_v5 (Host.divf : (⟨S4x64x1, .f32⟩ : BufTy).Contents (Elt F) → (⟨S4x64x1, .f32⟩ : BufTy).Contents (Elt F) → (⟨S4x64x1, .f32⟩ : BufTy).Contents (Elt F)),
    unary main_v5 main_v6 (broadcastInDim S4x64x100352 ![0, 1, 2] bcast_S4x64x1_S4x64x100352_0_1_2 : (⟨S4x64x1, .f32⟩ : BufTy).Contents (Elt F) → (⟨S4x64x100352, .f32⟩ : BufTy).Contents (Elt F)),
    binary main_v1 main_v6 main_v7 (subf : (⟨S4x64x100352, .f32⟩ : BufTy).Contents (Elt F) → (⟨S4x64x100352, .f32⟩ : BufTy).Contents (Elt F) → (⟨S4x64x100352, .f32⟩ : BufTy).Contents (Elt F)),
    nullary main_v8 (iotaInDim S64x64 32 0),
    nullary main_v9 (iotaInDim S64x64 32 1),
    nullary main_c (constantI S_ 32 0#32),
    unary main_c main_v10 (broadcastInDim S64x64 ![] bcast_S_S64x64 : (⟨S_, .i32⟩ : BufTy).Contents (Elt F) → (⟨S64x64, .i32⟩ : BufTy).Contents (Elt F)),
    binary main_v8 main_v10 main_v11 (addi : (⟨S64x64, .i32⟩ : BufTy).Contents (Elt F) → (⟨S64x64, .i32⟩ : BufTy).Contents (Elt F) → (⟨S64x64, .i32⟩ : BufTy).Contents (Elt F)),
    binary main_v11 main_v9 main_v12 (cmpi .eq : (⟨S64x64, .i32⟩ : BufTy).Contents (Elt F) → (⟨S64x64, .i32⟩ : BufTy).Contents (Elt F) → (⟨S64x64, .i1⟩ : BufTy).Contents (Elt F)),
    unary main_v12 main_v13 (uitofp .f32 : (⟨S64x64, .i1⟩ : BufTy).Contents (Elt F) → (⟨S64x64, .f32⟩ : BufTy).Contents (Elt F)),
    nullary main_cst_1 (constant S_ .f32 0x3727C5AC#32),
    unary main_cst_1 main_v14 (broadcastInDim S64x64 ![] bcast_S_S64x64 : (⟨S_, .f32⟩ : BufTy).Contents (Elt F) → (⟨S64x64, .f32⟩ : BufTy).Contents (Elt F)),
    binary main_v14 main_v13 main_v15 (mulf : (⟨S64x64, .f32⟩ : BufTy).Contents (Elt F) → (⟨S64x64, .f32⟩ : BufTy).Contents (Elt F) → (⟨S64x64, .f32⟩ : BufTy).Contents (Elt F)),
    binary main_v7 main_v7 main_v16 ((fun l r => Host.dotGeneral dot_S4x64x100352_S4x64x100352_S4x64x64_2_2_1_1_0_0 none l r) : (⟨S4x64x100352, .f32⟩ : BufTy).Contents (Elt F) → (⟨S4x64x100352, .f32⟩ : BufTy).Contents (Elt F) → (⟨S4x64x64, .f32⟩ : BufTy).Contents (Elt F)),
    nullary main_cst_2 (constant S_ .f32 0x47C40000#32),
    unary main_cst_2 main_v17 (broadcastInDim S4x64x64 ![] bcast_S_S4x64x64 : (⟨S_, .f32⟩ : BufTy).Contents (Elt F) → (⟨S4x64x64, .f32⟩ : BufTy).Contents (Elt F)),
    binary main_v16 main_v17 main_v18 (Host.divf : (⟨S4x64x64, .f32⟩ : BufTy).Contents (Elt F) → (⟨S4x64x64, .f32⟩ : BufTy).Contents (Elt F) → (⟨S4x64x64, .f32⟩ : BufTy).Contents (Elt F)),
    unary main_v15 main_v19 (broadcastInDim S1x64x64 ![1, 2] bcast_S64x64_S1x64x64_1_2 : (⟨S64x64, .f32⟩ : BufTy).Contents (Elt F) → (⟨S1x64x64, .f32⟩ : BufTy).Contents (Elt F)),
    unary main_v19 main_v20 (broadcastInDim S4x64x64 ![0, 1, 2] bcast_S1x64x64_S4x64x64_0_1_2 : (⟨S1x64x64, .f32⟩ : BufTy).Contents (Elt F) → (⟨S4x64x64, .f32⟩ : BufTy).Contents (Elt F)),
    binary main_v20 main_v18 main_v21 (addf : (⟨S4x64x64, .f32⟩ : BufTy).Contents (Elt F) → (⟨S4x64x64, .f32⟩ : BufTy).Contents (Elt F) → (⟨S4x64x64, .f32⟩ : BufTy).Contents (Elt F)),
    TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4x64x64 ![] bcast_S_S4x64x64),
    TRef.unary main_call0.v4 main_call0.call0.v0 (broadcastInDim S4x64x64 ![1, 2] bcast_S64x64_S4x64x64_1_2),
    TRef.ternary main_call0.call0.v0 (.of main_v21) main_call0.v5 main_call0.call0.v1 select,
    TRef.nullary main_call0.cst_0 (constant S_ .f32 0x00000000#32),
    TRef.binary main_call0.call0.v1 main_call0.cst_0 main_call0.v7 (fun x v => Host.reduceAdd x v reducesTo_S4x64x64_S4_d1_2 h_S_),
    unary main_v22 main_v23 (broadcastInDim S4x1x1 ![0] bcast_S4_S4x1x1_0 : (⟨S4, .f32⟩ : BufTy).Contents (Elt F) → (⟨S4x1x1, .f32⟩ : BufTy).Contents (Elt F)),
    nullary main_cst_3 (constant S_ .f32 0x3F800000#32),
    unary main_cst_3 main_v24 (broadcastInDim S4x1x1 ![] bcast_S_S4x1x1 : (⟨S_, .f32⟩ : BufTy).Contents (Elt F) → (⟨S4x1x1, .f32⟩ : BufTy).Contents (Elt F)),
    binary main_v24 main_v23 main_v25 (Host.divf : (⟨S4x1x1, .f32⟩ : BufTy).Contents (Elt F) → (⟨S4x1x1, .f32⟩ : BufTy).Contents (Elt F) → (⟨S4x1x1, .f32⟩ : BufTy).Contents (Elt F)),
    unary main_v25 main_v26 (broadcastInDim S4x64x64 ![0, 1, 2] bcast_S4x1x1_S4x64x64_0_1_2 : (⟨S4x1x1, .f32⟩ : BufTy).Contents (Elt F) → (⟨S4x64x64, .f32⟩ : BufTy).Contents (Elt F)),
    binary main_v21 main_v26 main_v27 (mulf : (⟨S4x64x64, .f32⟩ : BufTy).Contents (Elt F) → (⟨S4x64x64, .f32⟩ : BufTy).Contents (Elt F) → (⟨S4x64x64, .f32⟩ : BufTy).Contents (Elt F)),
    unary main_v13 main_v28 (broadcastInDim S4x64x64 ![1, 2] bcast_S64x64_S4x64x64_1_2 : (⟨S64x64, .f32⟩ : BufTy).Contents (Elt F) → (⟨S4x64x64, .f32⟩ : BufTy).Contents (Elt F)),
    nullary main_cst_4 (constant S_ .f32 0x3FC00000#32),
    unary main_cst_4 main_v29 (broadcastInDim S4x64x64 ![] bcast_S_S4x64x64 : (⟨S_, .f32⟩ : BufTy).Contents (Elt F) → (⟨S4x64x64, .f32⟩ : BufTy).Contents (Elt F)),
    binary main_v29 main_v28 main_v30 (mulf : (⟨S4x64x64, .f32⟩ : BufTy).Contents (Elt F) → (⟨S4x64x64, .f32⟩ : BufTy).Contents (Elt F) → (⟨S4x64x64, .f32⟩ : BufTy).Contents (Elt F)),
    binary main_v28 main_v28 main_v31 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v31 main_v28 main_v32 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v32 main_v27 main_v33 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_5 (constant S_ .f32 0x3F000000#32),
    unary main_cst_5 main_v34 (broadcastInDim S4x64x64 ![] bcast_S_S4x64x64 : (⟨S_, .f32⟩ : BufTy).Contents (Elt F) → (⟨S4x64x64, .f32⟩ : BufTy).Contents (Elt F)),
    binary main_v34 main_v33 main_v35 (mulf : (⟨S4x64x64, .f32⟩ : BufTy).Contents (Elt F) → (⟨S4x64x64, .f32⟩ : BufTy).Contents (Elt F) → (⟨S4x64x64, .f32⟩ : BufTy).Contents (Elt F)),
    binary main_v30 main_v35 main_v36 (subf : (⟨S4x64x64, .f32⟩ : BufTy).Contents (Elt F) → (⟨S4x64x64, .f32⟩ : BufTy).Contents (Elt F) → (⟨S4x64x64, .f32⟩ : BufTy).Contents (Elt F)),
    nullary main_cst_6 (constant S_ .f32 0x3FC00000#32),
    unary main_cst_6 main_v37 (broadcastInDim S4x64x64 ![] bcast_S_S4x64x64 : (⟨S_, .f32⟩ : BufTy).Contents (Elt F) → (⟨S4x64x64, .f32⟩ : BufTy).Contents (Elt F)),
    binary main_v37 main_v36 main_v38 (mulf : (⟨S4x64x64, .f32⟩ : BufTy).Contents (Elt F) → (⟨S4x64x64, .f32⟩ : BufTy).Contents (Elt F) → (⟨S4x64x64, .f32⟩ : BufTy).Contents (Elt F)),
    binary main_v36 main_v36 main_v39 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v39 main_v36 main_v40 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v40 main_v27 main_v41 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_7 (constant S_ .f32 0x3F000000#32),
    unary main_cst_7 main_v42 (broadcastInDim S4x64x64 ![] bcast_S_S4x64x64 : (⟨S_, .f32⟩ : BufTy).Contents (Elt F) → (⟨S4x64x64, .f32⟩ : BufTy).Contents (Elt F)),
    binary main_v42 main_v41 main_v43 (mulf : (⟨S4x64x64, .f32⟩ : BufTy).Contents (Elt F) → (⟨S4x64x64, .f32⟩ : BufTy).Contents (Elt F) → (⟨S4x64x64, .f32⟩ : BufTy).Contents (Elt F)),
    binary main_v38 main_v43 main_v44 (subf : (⟨S4x64x64, .f32⟩ : BufTy).Contents (Elt F) → (⟨S4x64x64, .f32⟩ : BufTy).Contents (Elt F) → (⟨S4x64x64, .f32⟩ : BufTy).Contents (Elt F)),
    nullary main_cst_8 (constant S_ .f32 0x3FC00000#32),
    unary main_cst_8 main_v45 (broadcastInDim S4x64x64 ![] bcast_S_S4x64x64 : (⟨S_, .f32⟩ : BufTy).Contents (Elt F) → (⟨S4x64x64, .f32⟩ : BufTy).Contents (Elt F)),
    binary main_v45 main_v44 main_v46 (mulf : (⟨S4x64x64, .f32⟩ : BufTy).Contents (Elt F) → (⟨S4x64x64, .f32⟩ : BufTy).Contents (Elt F) → (⟨S4x64x64, .f32⟩ : BufTy).Contents (Elt F)),
    binary main_v44 main_v44 main_v47 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v47 main_v44 main_v48 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v48 main_v27 main_v49 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_9 (constant S_ .f32 0x3F000000#32),
    unary main_cst_9 main_v50 (broadcastInDim S4x64x64 ![] bcast_S_S4x64x64 : (⟨S_, .f32⟩ : BufTy).Contents (Elt F) → (⟨S4x64x64, .f32⟩ : BufTy).Contents (Elt F)),
    binary main_v50 main_v49 main_v51 (mulf : (⟨S4x64x64, .f32⟩ : BufTy).Contents (Elt F) → (⟨S4x64x64, .f32⟩ : BufTy).Contents (Elt F) → (⟨S4x64x64, .f32⟩ : BufTy).Contents (Elt F)),
    binary main_v46 main_v51 main_v52 (subf : (⟨S4x64x64, .f32⟩ : BufTy).Contents (Elt F) → (⟨S4x64x64, .f32⟩ : BufTy).Contents (Elt F) → (⟨S4x64x64, .f32⟩ : BufTy).Contents (Elt F)),
    nullary main_cst_10 (constant S_ .f32 0x3FC00000#32),
    unary main_cst_10 main_v53 (broadcastInDim S4x64x64 ![] bcast_S_S4x64x64 : (⟨S_, .f32⟩ : BufTy).Contents (Elt F) → (⟨S4x64x64, .f32⟩ : BufTy).Contents (Elt F)),
    binary main_v53 main_v52 main_v54 (mulf : (⟨S4x64x64, .f32⟩ : BufTy).Contents (Elt F) → (⟨S4x64x64, .f32⟩ : BufTy).Contents (Elt F) → (⟨S4x64x64, .f32⟩ : BufTy).Contents (Elt F)),
    binary main_v52 main_v52 main_v55 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v55 main_v52 main_v56 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v56 main_v27 main_v57 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_11 (constant S_ .f32 0x3F000000#32),
    unary main_cst_11 main_v58 (broadcastInDim S4x64x64 ![] bcast_S_S4x64x64 : (⟨S_, .f32⟩ : BufTy).Contents (Elt F) → (⟨S4x64x64, .f32⟩ : BufTy).Contents (Elt F)),
    binary main_v58 main_v57 main_v59 (mulf : (⟨S4x64x64, .f32⟩ : BufTy).Contents (Elt F) → (⟨S4x64x64, .f32⟩ : BufTy).Contents (Elt F) → (⟨S4x64x64, .f32⟩ : BufTy).Contents (Elt F)),
    binary main_v54 main_v59 main_v60 (subf : (⟨S4x64x64, .f32⟩ : BufTy).Contents (Elt F) → (⟨S4x64x64, .f32⟩ : BufTy).Contents (Elt F) → (⟨S4x64x64, .f32⟩ : BufTy).Contents (Elt F)),
    nullary main_cst_12 (constant S_ .f32 0x3FC00000#32),
    unary main_cst_12 main_v61 (broadcastInDim S4x64x64 ![] bcast_S_S4x64x64 : (⟨S_, .f32⟩ : BufTy).Contents (Elt F) → (⟨S4x64x64, .f32⟩ : BufTy).Contents (Elt F)),
    binary main_v61 main_v60 main_v62 (mulf : (⟨S4x64x64, .f32⟩ : BufTy).Contents (Elt F) → (⟨S4x64x64, .f32⟩ : BufTy).Contents (Elt F) → (⟨S4x64x64, .f32⟩ : BufTy).Contents (Elt F)),
    binary main_v60 main_v60 main_v63 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v63 main_v60 main_v64 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v64 main_v27 main_v65 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_13 (constant S_ .f32 0x3F000000#32),
    unary main_cst_13 main_v66 (broadcastInDim S4x64x64 ![] bcast_S_S4x64x64 : (⟨S_, .f32⟩ : BufTy).Contents (Elt F) → (⟨S4x64x64, .f32⟩ : BufTy).Contents (Elt F)),
    binary main_v66 main_v65 main_v67 (mulf : (⟨S4x64x64, .f32⟩ : BufTy).Contents (Elt F) → (⟨S4x64x64, .f32⟩ : BufTy).Contents (Elt F) → (⟨S4x64x64, .f32⟩ : BufTy).Contents (Elt F)),
    binary main_v62 main_v67 main_v68 (subf : (⟨S4x64x64, .f32⟩ : BufTy).Contents (Elt F) → (⟨S4x64x64, .f32⟩ : BufTy).Contents (Elt F) → (⟨S4x64x64, .f32⟩ : BufTy).Contents (Elt F)),
    unary main_v25 main_v69 (Host.sqrt : (⟨S4x1x1, .f32⟩ : BufTy).Contents (Elt F) → (⟨S4x1x1, .f32⟩ : BufTy).Contents (Elt F)),
    unary main_v69 main_v70 (broadcastInDim S4x64x64 ![0, 1, 2] bcast_S4x1x1_S4x64x64_0_1_2 : (⟨S4x1x1, .f32⟩ : BufTy).Contents (Elt F) → (⟨S4x64x64, .f32⟩ : BufTy).Contents (Elt F)),
    binary main_v68 main_v70 main_v71 (mulf : (⟨S4x64x64, .f32⟩ : BufTy).Contents (Elt F) → (⟨S4x64x64, .f32⟩ : BufTy).Contents (Elt F) → (⟨S4x64x64, .f32⟩ : BufTy).Contents (Elt F)),
    binary main_v71 main_v7 main_v72 ((fun l r => Host.dotGeneral dot_S4x64x64_S4x64x100352_S4x64x100352_2_1_1_2_0_0 none l r) : (⟨S4x64x64, .f32⟩ : BufTy).Contents (Elt F) → (⟨S4x64x100352, .f32⟩ : BufTy).Contents (Elt F) → (⟨S4x64x100352, .f32⟩ : BufTy).Contents (Elt F)),
    reshape main_v72 main_v73 rfl shapeCasts_S4x64x100352_S256x32x56x56,
    unary main_v73 main_v74 ((transpose S32x256x56x56 [1, 0, 2, 3] · transposes_S256x32x56x56_S32x256x56x56_1_0_2_3) : (⟨S256x32x56x56, .f32⟩ : BufTy).Contents (Elt F) → (⟨S32x256x56x56, .f32⟩ : BufTy).Contents (Elt F)),
    unary main_arg1 main_v75 (broadcastInDim S32x256x56x56 ![0, 1, 2, 3] bcast_S1x256x1x1_S32x256x56x56_0_1_2_3 : (⟨S1x256x1x1, .f32⟩ : BufTy).Contents (Elt F) → (⟨S32x256x56x56, .f32⟩ : BufTy).Contents (Elt F)),
    binary main_v74 main_v75 main_v76 (mulf : (⟨S32x256x56x56, .f32⟩ : BufTy).Contents (Elt F) → (⟨S32x256x56x56, .f32⟩ : BufTy).Contents (Elt F) → (⟨S32x256x56x56, .f32⟩ : BufTy).Contents (Elt F)),
    unary main_arg2 main_v77 (broadcastInDim S32x256x56x56 ![0, 1, 2, 3] bcast_S1x256x1x1_S32x256x56x56_0_1_2_3 : (⟨S1x256x1x1, .f32⟩ : BufTy).Contents (Elt F) → (⟨S32x256x56x56, .f32⟩ : BufTy).Contents (Elt F)),
    binary main_v76 main_v77 main_v78 (addf : (⟨S32x256x56x56, .f32⟩ : BufTy).Contents (Elt F) → (⟨S32x256x56x56, .f32⟩ : BufTy).Contents (Elt F) → (⟨S32x256x56x56, .f32⟩ : BufTy).Contents (Elt F)) ]

set_option maxHeartbeats 4000000 in
set_option maxRecDepth 8192 in
/-- The program is that straight line: the outlined functions' bodies sit at their call sites, and sequencing
    re-associates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., nullary_bufs_sub .., binary_bufs_sub .., unary_bufs_sub .., nullary_bufs_sub .., unary_bufs_sub .., binary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., unary_bufs_sub .., binary_bufs_sub .., binary_bufs_sub .., reshape_bufs_sub .., unary_bufs_sub .., unary_bufs_sub .., binary_bufs_sub .., unary_bufs_sub .., binary_bufs_sub ..⟩

/-! ## The line in ten consecutive pieces -/

/-- Operations 1-10: the transposed, flattened input, its channel means, the centred data. -/
abbrev opsA : List (HloOp τ sig (Elt F)) :=
  [ unary main_arg0 main_v0 ((transpose S256x32x56x56 [1, 0, 2, 3] · transposes_S32x256x56x56_S256x32x56x56_1_0_2_3) : (⟨S32x256x56x56, .f32⟩ : BufTy).Contents (Elt F) → (⟨S256x32x56x56, .f32⟩ : BufTy).Contents (Elt F)),
    reshape main_v0 main_v1 rfl shapeCasts_S256x32x56x56_S4x64x100352,
    nullary main_cst (constant S_ .f32 0x00000000#32),
    binary main_v1 main_cst main_v2 ((fun x v => Host.reduceAdd x v reducesTo_S4x64x100352_S4x64_d2 h_S_) : (⟨S4x64x100352, .f32⟩ : BufTy).Contents (Elt F) → (⟨S_, .f32⟩ : BufTy).Contents (Elt F) → (⟨S4x64, .f32⟩ : BufTy).Contents (Elt F)),
    unary main_v2 main_v3 (broadcastInDim S4x64x1 ![0, 1] bcast_S4x64_S4x64x1_0_1 : (⟨S4x64, .f32⟩ : BufTy).Contents (Elt F) → (⟨S4x64x1, .f32⟩ : BufTy).Contents (Elt F)),
    nullary main_cst_0 (constant S_ .f32 0x47C40000#32),
    unary main_cst_0 main_v4 (broadcastInDim S4x64x1 ![] bcast_S_S4x64x1 : (⟨S_, .f32⟩ : BufTy).Contents (Elt F) → (⟨S4x64x1, .f32⟩ : BufTy).Contents (Elt F)),
    binary main_v3 main_v4 main_v5 (Host.divf : (⟨S4x64x1, .f32⟩ : BufTy).Contents (Elt F) → (⟨S4x64x1, .f32⟩ : BufTy).Contents (Elt F) → (⟨S4x64x1, .f32⟩ : BufTy).Contents (Elt F)),
    unary main_v5 main_v6 (broadcastInDim S4x64x100352 ![0, 1, 2] bcast_S4x64x1_S4x64x100352_0_1_2 : (⟨S4x64x1, .f32⟩ : BufTy).Contents (Elt F) → (⟨S4x64x100352, .f32⟩ : BufTy).Contents (Elt F)),
    binary main_v1 main_v6 main_v7 (subf : (⟨S4x64x100352, .f32⟩ : BufTy).Contents (Elt F) → (⟨S4x64x100352, .f32⟩ : BufTy).Contents (Elt F) → (⟨S4x64x100352, .f32⟩ : BufTy).Contents (Elt F)) ]

/-- Operations 11-27: the identity pattern, the regulariser, the Gram matrix, the covariance. -/
abbrev opsB : List (HloOp τ sig (Elt F)) :=
  [ nullary main_v8 (iotaInDim S64x64 32 0),
    nullary main_v9 (iotaInDim S64x64 32 1),
    nullary main_c (constantI S_ 32 0#32),
    unary main_c main_v10 (broadcastInDim S64x64 ![] bcast_S_S64x64 : (⟨S_, .i32⟩ : BufTy).Contents (Elt F) → (⟨S64x64, .i32⟩ : BufTy).Contents (Elt F)),
    binary main_v8 main_v10 main_v11 (addi : (⟨S64x64, .i32⟩ : BufTy).Contents (Elt F) → (⟨S64x64, .i32⟩ : BufTy).Contents (Elt F) → (⟨S64x64, .i32⟩ : BufTy).Contents (Elt F)),
    binary main_v11 main_v9 main_v12 (cmpi .eq : (⟨S64x64, .i32⟩ : BufTy).Contents (Elt F) → (⟨S64x64, .i32⟩ : BufTy).Contents (Elt F) → (⟨S64x64, .i1⟩ : BufTy).Contents (Elt F)),
    unary main_v12 main_v13 (uitofp .f32 : (⟨S64x64, .i1⟩ : BufTy).Contents (Elt F) → (⟨S64x64, .f32⟩ : BufTy).Contents (Elt F)),
    nullary main_cst_1 (constant S_ .f32 0x3727C5AC#32),
    unary main_cst_1 main_v14 (broadcastInDim S64x64 ![] bcast_S_S64x64 : (⟨S_, .f32⟩ : BufTy).Contents (Elt F) → (⟨S64x64, .f32⟩ : BufTy).Contents (Elt F)),
    binary main_v14 main_v13 main_v15 (mulf : (⟨S64x64, .f32⟩ : BufTy).Contents (Elt F) → (⟨S64x64, .f32⟩ : BufTy).Contents (Elt F) → (⟨S64x64, .f32⟩ : BufTy).Contents (Elt F)),
    binary main_v7 main_v7 main_v16 ((fun l r => Host.dotGeneral dot_S4x64x100352_S4x64x100352_S4x64x64_2_2_1_1_0_0 none l r) : (⟨S4x64x100352, .f32⟩ : BufTy).Contents (Elt F) → (⟨S4x64x100352, .f32⟩ : BufTy).Contents (Elt F) → (⟨S4x64x64, .f32⟩ : BufTy).Contents (Elt F)),
    nullary main_cst_2 (constant S_ .f32 0x47C40000#32),
    unary main_cst_2 main_v17 (broadcastInDim S4x64x64 ![] bcast_S_S4x64x64 : (⟨S_, .f32⟩ : BufTy).Contents (Elt F) → (⟨S4x64x64, .f32⟩ : BufTy).Contents (Elt F)),
    binary main_v16 main_v17 main_v18 (Host.divf : (⟨S4x64x64, .f32⟩ : BufTy).Contents (Elt F) → (⟨S4x64x64, .f32⟩ : BufTy).Contents (Elt F) → (⟨S4x64x64, .f32⟩ : BufTy).Contents (Elt F)),
    unary main_v15 main_v19 (broadcastInDim S1x64x64 ![1, 2] bcast_S64x64_S1x64x64_1_2 : (⟨S64x64, .f32⟩ : BufTy).Contents (Elt F) → (⟨S1x64x64, .f32⟩ : BufTy).Contents (Elt F)),
    unary main_v19 main_v20 (broadcastInDim S4x64x64 ![0, 1, 2] bcast_S1x64x64_S4x64x64_0_1_2 : (⟨S1x64x64, .f32⟩ : BufTy).Contents (Elt F) → (⟨S4x64x64, .f32⟩ : BufTy).Contents (Elt F)),
    binary main_v20 main_v18 main_v21 (addf : (⟨S4x64x64, .f32⟩ : BufTy).Contents (Elt F) → (⟨S4x64x64, .f32⟩ : BufTy).Contents (Elt F) → (⟨S4x64x64, .f32⟩ : BufTy).Contents (Elt F)) ]

/-- Operations 28-46: the trace (the two outlined functions), its reciprocal, the unit-trace matrix, the iteration's start. -/
abbrev opsC0 : List (HloOp τ sig (Elt F)) :=
  [ TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4x64x64 ![] bcast_S_S4x64x64),
    TRef.unary main_call0.v4 main_call0.call0.v0 (broadcastInDim S4x64x64 ![1, 2] bcast_S64x64_S4x64x64_1_2),
    TRef.ternary main_call0.call0.v0 (.of main_v21) main_call0.v5 main_call0.call0.v1 select,
    TRef.nullary main_call0.cst_0 (constant S_ .f32 0x00000000#32),
    TRef.binary main_call0.call0.v1 main_call0.cst_0 main_call0.v7 (fun x v => Host.reduceAdd x v reducesTo_S4x64x64_S4_d1_2 h_S_),
    unary main_v22 main_v23 (broadcastInDim S4x1x1 ![0] bcast_S4_S4x1x1_0 : (⟨S4, .f32⟩ : BufTy).Contents (Elt F) → (⟨S4x1x1, .f32⟩ : BufTy).Contents (Elt F)),
    nullary main_cst_3 (constant S_ .f32 0x3F800000#32),
    unary main_cst_3 main_v24 (broadcastInDim S4x1x1 ![] bcast_S_S4x1x1 : (⟨S_, .f32⟩ : BufTy).Contents (Elt F) → (⟨S4x1x1, .f32⟩ : BufTy).Contents (Elt F)),
    binary main_v24 main_v23 main_v25 (Host.divf : (⟨S4x1x1, .f32⟩ : BufTy).Contents (Elt F) → (⟨S4x1x1, .f32⟩ : BufTy).Contents (Elt F) → (⟨S4x1x1, .f32⟩ : BufTy).Contents (Elt F)),
    unary main_v25 main_v26 (broadcastInDim S4x64x64 ![0, 1, 2] bcast_S4x1x1_S4x64x64_0_1_2 : (⟨S4x1x1, .f32⟩ : BufTy).Contents (Elt F) → (⟨S4x64x64, .f32⟩ : BufTy).Contents (Elt F)),
    binary main_v21 main_v26 main_v27 (mulf : (⟨S4x64x64, .f32⟩ : BufTy).Contents (Elt F) → (⟨S4x64x64, .f32⟩ : BufTy).Contents (Elt F) → (⟨S4x64x64, .f32⟩ : BufTy).Contents (Elt F)),
    unary main_v13 main_v28 (broadcastInDim S4x64x64 ![1, 2] bcast_S64x64_S4x64x64_1_2 : (⟨S64x64, .f32⟩ : BufTy).Contents (Elt F) → (⟨S4x64x64, .f32⟩ : BufTy).Contents (Elt F)) ]

/-- Operations 47-56: the first Newton-Schulz step. -/
abbrev opsN1 : List (HloOp τ sig (Elt F)) :=
  [ nullary main_cst_4 (constant S_ .f32 0x3FC00000#32),
    unary main_cst_4 main_v29 (broadcastInDim S4x64x64 ![] bcast_S_S4x64x64 : (⟨S_, .f32⟩ : BufTy).Contents (Elt F) → (⟨S4x64x64, .f32⟩ : BufTy).Contents (Elt F)),
    binary main_v29 main_v28 main_v30 (mulf : (⟨S4x64x64, .f32⟩ : BufTy).Contents (Elt F) → (⟨S4x64x64, .f32⟩ : BufTy).Contents (Elt F) → (⟨S4x64x64, .f32⟩ : BufTy).Contents (Elt F)),
    binary main_v28 main_v28 main_v31 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v31 main_v28 main_v32 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v32 main_v27 main_v33 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_5 (constant S_ .f32 0x3F000000#32),
    unary main_cst_5 main_v34 (broadcastInDim S4x64x64 ![] bcast_S_S4x64x64 : (⟨S_, .f32⟩ : BufTy).Contents (Elt F) → (⟨S4x64x64, .f32⟩ : BufTy).Contents (Elt F)),
    binary main_v34 main_v33 main_v35 (mulf : (⟨S4x64x64, .f32⟩ : BufTy).Contents (Elt F) → (⟨S4x64x64, .f32⟩ : BufTy).Contents (Elt F) → (⟨S4x64x64, .f32⟩ : BufTy).Contents (Elt F)),
    binary main_v30 main_v35 main_v36 (subf : (⟨S4x64x64, .f32⟩ : BufTy).Contents (Elt F) → (⟨S4x64x64, .f32⟩ : BufTy).Contents (Elt F) → (⟨S4x64x64, .f32⟩ : BufTy).Contents (Elt F)) ]

/-- Operations 57-66: the second Newton-Schulz step. -/
abbrev opsN2 : List (HloOp τ sig (Elt F)) :=
  [ nullary main_cst_6 (constant S_ .f32 0x3FC00000#32),
    unary main_cst_6 main_v37 (broadcastInDim S4x64x64 ![] bcast_S_S4x64x64 : (⟨S_, .f32⟩ : BufTy).Contents (Elt F) → (⟨S4x64x64, .f32⟩ : BufTy).Contents (Elt F)),
    binary main_v37 main_v36 main_v38 (mulf : (⟨S4x64x64, .f32⟩ : BufTy).Contents (Elt F) → (⟨S4x64x64, .f32⟩ : BufTy).Contents (Elt F) → (⟨S4x64x64, .f32⟩ : BufTy).Contents (Elt F)),
    binary main_v36 main_v36 main_v39 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v39 main_v36 main_v40 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v40 main_v27 main_v41 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_7 (constant S_ .f32 0x3F000000#32),
    unary main_cst_7 main_v42 (broadcastInDim S4x64x64 ![] bcast_S_S4x64x64 : (⟨S_, .f32⟩ : BufTy).Contents (Elt F) → (⟨S4x64x64, .f32⟩ : BufTy).Contents (Elt F)),
    binary main_v42 main_v41 main_v43 (mulf : (⟨S4x64x64, .f32⟩ : BufTy).Contents (Elt F) → (⟨S4x64x64, .f32⟩ : BufTy).Contents (Elt F) → (⟨S4x64x64, .f32⟩ : BufTy).Contents (Elt F)),
    binary main_v38 main_v43 main_v44 (subf : (⟨S4x64x64, .f32⟩ : BufTy).Contents (Elt F) → (⟨S4x64x64, .f32⟩ : BufTy).Contents (Elt F) → (⟨S4x64x64, .f32⟩ : BufTy).Contents (Elt F)) ]

/-- Operations 67-76: the third Newton-Schulz step. -/
abbrev opsN3 : List (HloOp τ sig (Elt F)) :=
  [ nullary main_cst_8 (constant S_ .f32 0x3FC00000#32),
    unary main_cst_8 main_v45 (broadcastInDim S4x64x64 ![] bcast_S_S4x64x64 : (⟨S_, .f32⟩ : BufTy).Contents (Elt F) → (⟨S4x64x64, .f32⟩ : BufTy).Contents (Elt F)),
    binary main_v45 main_v44 main_v46 (mulf : (⟨S4x64x64, .f32⟩ : BufTy).Contents (Elt F) → (⟨S4x64x64, .f32⟩ : BufTy).Contents (Elt F) → (⟨S4x64x64, .f32⟩ : BufTy).Contents (Elt F)),
    binary main_v44 main_v44 main_v47 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v47 main_v44 main_v48 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v48 main_v27 main_v49 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_9 (constant S_ .f32 0x3F000000#32),
    unary main_cst_9 main_v50 (broadcastInDim S4x64x64 ![] bcast_S_S4x64x64 : (⟨S_, .f32⟩ : BufTy).Contents (Elt F) → (⟨S4x64x64, .f32⟩ : BufTy).Contents (Elt F)),
    binary main_v50 main_v49 main_v51 (mulf : (⟨S4x64x64, .f32⟩ : BufTy).Contents (Elt F) → (⟨S4x64x64, .f32⟩ : BufTy).Contents (Elt F) → (⟨S4x64x64, .f32⟩ : BufTy).Contents (Elt F)),
    binary main_v46 main_v51 main_v52 (subf : (⟨S4x64x64, .f32⟩ : BufTy).Contents (Elt F) → (⟨S4x64x64, .f32⟩ : BufTy).Contents (Elt F) → (⟨S4x64x64, .f32⟩ : BufTy).Contents (Elt F)) ]

/-- Operations 77-86: the fourth Newton-Schulz step. -/
abbrev opsN4 : List (HloOp τ sig (Elt F)) :=
  [ nullary main_cst_10 (constant S_ .f32 0x3FC00000#32),
    unary main_cst_10 main_v53 (broadcastInDim S4x64x64 ![] bcast_S_S4x64x64 : (⟨S_, .f32⟩ : BufTy).Contents (Elt F) → (⟨S4x64x64, .f32⟩ : BufTy).Contents (Elt F)),
    binary main_v53 main_v52 main_v54 (mulf : (⟨S4x64x64, .f32⟩ : BufTy).Contents (Elt F) → (⟨S4x64x64, .f32⟩ : BufTy).Contents (Elt F) → (⟨S4x64x64, .f32⟩ : BufTy).Contents (Elt F)),
    binary main_v52 main_v52 main_v55 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v55 main_v52 main_v56 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v56 main_v27 main_v57 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_11 (constant S_ .f32 0x3F000000#32),
    unary main_cst_11 main_v58 (broadcastInDim S4x64x64 ![] bcast_S_S4x64x64 : (⟨S_, .f32⟩ : BufTy).Contents (Elt F) → (⟨S4x64x64, .f32⟩ : BufTy).Contents (Elt F)),
    binary main_v58 main_v57 main_v59 (mulf : (⟨S4x64x64, .f32⟩ : BufTy).Contents (Elt F) → (⟨S4x64x64, .f32⟩ : BufTy).Contents (Elt F) → (⟨S4x64x64, .f32⟩ : BufTy).Contents (Elt F)),
    binary main_v54 main_v59 main_v60 (subf : (⟨S4x64x64, .f32⟩ : BufTy).Contents (Elt F) → (⟨S4x64x64, .f32⟩ : BufTy).Contents (Elt F) → (⟨S4x64x64, .f32⟩ : BufTy).Contents (Elt F)) ]

/-- Operations 87-96: the fifth Newton-Schulz step. -/
abbrev opsN5 : List (HloOp τ sig (Elt F)) :=
  [ nullary main_cst_12 (constant S_ .f32 0x3FC00000#32),
    unary main_cst_12 main_v61 (broadcastInDim S4x64x64 ![] bcast_S_S4x64x64 : (⟨S_, .f32⟩ : BufTy).Contents (Elt F) → (⟨S4x64x64, .f32⟩ : BufTy).Contents (Elt F)),
    binary main_v61 main_v60 main_v62 (mulf : (⟨S4x64x64, .f32⟩ : BufTy).Contents (Elt F) → (⟨S4x64x64, .f32⟩ : BufTy).Contents (Elt F) → (⟨S4x64x64, .f32⟩ : BufTy).Contents (Elt F)),
    binary main_v60 main_v60 main_v63 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v63 main_v60 main_v64 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v64 main_v27 main_v65 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_13 (constant S_ .f32 0x3F000000#32),
    unary main_cst_13 main_v66 (broadcastInDim S4x64x64 ![] bcast_S_S4x64x64 : (⟨S_, .f32⟩ : BufTy).Contents (Elt F) → (⟨S4x64x64, .f32⟩ : BufTy).Contents (Elt F)),
    binary main_v66 main_v65 main_v67 (mulf : (⟨S4x64x64, .f32⟩ : BufTy).Contents (Elt F) → (⟨S4x64x64, .f32⟩ : BufTy).Contents (Elt F) → (⟨S4x64x64, .f32⟩ : BufTy).Contents (Elt F)),
    binary main_v62 main_v67 main_v68 (subf : (⟨S4x64x64, .f32⟩ : BufTy).Contents (Elt F) → (⟨S4x64x64, .f32⟩ : BufTy).Contents (Elt F) → (⟨S4x64x64, .f32⟩ : BufTy).Contents (Elt F)) ]

/-- Operations 97-99: the square root of the reciprocal trace and the whitening matrix. -/
abbrev opsCf : List (HloOp τ sig (Elt F)) :=
  [ unary main_v25 main_v69 (Host.sqrt : (⟨S4x1x1, .f32⟩ : BufTy).Contents (Elt F) → (⟨S4x1x1, .f32⟩ : BufTy).Contents (Elt F)),
    unary main_v69 main_v70 (broadcastInDim S4x64x64 ![0, 1, 2] bcast_S4x1x1_S4x64x64_0_1_2 : (⟨S4x1x1, .f32⟩ : BufTy).Contents (Elt F) → (⟨S4x64x64, .f32⟩ : BufTy).Contents (Elt F)),
    binary main_v68 main_v70 main_v71 (mulf : (⟨S4x64x64, .f32⟩ : BufTy).Contents (Elt F) → (⟨S4x64x64, .f32⟩ : BufTy).Contents (Elt F) → (⟨S4x64x64, .f32⟩ : BufTy).Contents (Elt F)) ]

/-- Operations 100-106: the whitened data laid back out, times the weight, plus the bias. -/
abbrev opsD : List (HloOp τ sig (Elt F)) :=
  [ binary main_v71 main_v7 main_v72 ((fun l r => Host.dotGeneral dot_S4x64x64_S4x64x100352_S4x64x100352_2_1_1_2_0_0 none l r) : (⟨S4x64x64, .f32⟩ : BufTy).Contents (Elt F) → (⟨S4x64x100352, .f32⟩ : BufTy).Contents (Elt F) → (⟨S4x64x100352, .f32⟩ : BufTy).Contents (Elt F)),
    reshape main_v72 main_v73 rfl shapeCasts_S4x64x100352_S256x32x56x56,
    unary main_v73 main_v74 ((transpose S32x256x56x56 [1, 0, 2, 3] · transposes_S256x32x56x56_S32x256x56x56_1_0_2_3) : (⟨S256x32x56x56, .f32⟩ : BufTy).Contents (Elt F) → (⟨S32x256x56x56, .f32⟩ : BufTy).Contents (Elt F)),
    unary main_arg1 main_v75 (broadcastInDim S32x256x56x56 ![0, 1, 2, 3] bcast_S1x256x1x1_S32x256x56x56_0_1_2_3 : (⟨S1x256x1x1, .f32⟩ : BufTy).Contents (Elt F) → (⟨S32x256x56x56, .f32⟩ : BufTy).Contents (Elt F)),
    binary main_v74 main_v75 main_v76 (mulf : (⟨S32x256x56x56, .f32⟩ : BufTy).Contents (Elt F) → (⟨S32x256x56x56, .f32⟩ : BufTy).Contents (Elt F) → (⟨S32x256x56x56, .f32⟩ : BufTy).Contents (Elt F)),
    unary main_arg2 main_v77 (broadcastInDim S32x256x56x56 ![0, 1, 2, 3] bcast_S1x256x1x1_S32x256x56x56_0_1_2_3 : (⟨S1x256x1x1, .f32⟩ : BufTy).Contents (Elt F) → (⟨S32x256x56x56, .f32⟩ : BufTy).Contents (Elt F)),
    binary main_v76 main_v77 main_v78 (addf : (⟨S32x256x56x56, .f32⟩ : BufTy).Contents (Elt F) → (⟨S32x256x56x56, .f32⟩ : BufTy).Contents (Elt F) → (⟨S32x256x56x56, .f32⟩ : BufTy).Contents (Elt F)) ]

/-- The whole line is the ten pieces one after the other. -/
theorem ops_split : (ops : List (HloOp τ sig (Elt F))) = opsA ++ (opsB ++ (opsC0 ++ (opsN1 ++ (opsN2 ++ (opsN3 ++ (opsN4 ++ (opsN5 ++ (opsCf ++ (opsD))))))))) := rfl

/-! ## What each piece leaves, from any contents W

For each piece: the values it computes, as the stage functions of the values it reads, and the buffers later pieces
still read, which it leaves alone. -/

section Pieces
variable (W : Valuation τ sig (Elt Ideal))

theorem A_v7 : after opsA W (main_v7 : DevRef τ sig) = centredOf (xr (W (main_arg0 : DevRef τ sig) : FVec Ideal S32x256x56x56 .f32)) := by
  line_results <;> rfl
theorem A_keeps_arg0 : after opsA W (main_arg0 : DevRef τ sig) = W (main_arg0 : DevRef τ sig) := by line_results
theorem A_keeps_arg1 : after opsA W (main_arg1 : DevRef τ sig) = W (main_arg1 : DevRef τ sig) := by line_results
theorem A_keeps_arg2 : after opsA W (main_arg2 : DevRef τ sig) = W (main_arg2 : DevRef τ sig) := by line_results

theorem B_v21 : after opsB W (main_v21 : DevRef τ sig) = sigmaOf (W (main_v7 : DevRef τ sig) : FVec Ideal S4x64x100352 .f32) := by
  line_results <;> rfl
theorem B_v13 : after opsB W (main_v13 : DevRef τ sig) = eye := by
  line_results <;> rfl
theorem B_keeps_v7 : after opsB W (main_v7 : DevRef τ sig) = W (main_v7 : DevRef τ sig) := by line_results
theorem B_keeps_arg0 : after opsB W (main_arg0 : DevRef τ sig) = W (main_arg0 : DevRef τ sig) := by line_results
theorem B_keeps_arg1 : after opsB W (main_arg1 : DevRef τ sig) = W (main_arg1 : DevRef τ sig) := by line_results
theorem B_keeps_arg2 : after opsB W (main_arg2 : DevRef τ sig) = W (main_arg2 : DevRef τ sig) := by line_results

theorem C0_v25 : after opsC0 W (main_v25 : DevRef τ sig) = invTrace (W (main_v21 : DevRef τ sig) : FVec Ideal S4x64x64 .f32) := by
  line_results <;> rfl
theorem C0_v27 : after opsC0 W (main_v27 : DevRef τ sig) = scaled (W (main_v21 : DevRef τ sig) : FVec Ideal S4x64x64 .f32) := by
  line_results <;> rfl
theorem C0_v28 : after opsC0 W (main_v28 : DevRef τ sig) = eye3Of (W (main_v13 : DevRef τ sig) : FVec Ideal S64x64 .f32) := by
  line_results <;> rfl
theorem C0_keeps_v7 : after opsC0 W (main_v7 : DevRef τ sig) = W (main_v7 : DevRef τ sig) := by line_results
theorem C0_keeps_arg0 : after opsC0 W (main_arg0 : DevRef τ sig) = W (main_arg0 : DevRef τ sig) := by line_results
theorem C0_keeps_arg1 : after opsC0 W (main_arg1 : DevRef τ sig) = W (main_arg1 : DevRef τ sig) := by line_results
theorem C0_keeps_arg2 : after opsC0 W (main_arg2 : DevRef τ sig) = W (main_arg2 : DevRef τ sig) := by line_results

theorem N1_v36 : after opsN1 W (main_v36 : DevRef τ sig) = nsStep (W (main_v27 : DevRef τ sig) : FVec Ideal S4x64x64 .f32) (W (main_v28 : DevRef τ sig) : FVec Ideal S4x64x64 .f32) := by
  line_results <;> rfl
theorem N1_keeps_v27 : after opsN1 W (main_v27 : DevRef τ sig) = W (main_v27 : DevRef τ sig) := by line_results
theorem N1_keeps_v25 : after opsN1 W (main_v25 : DevRef τ sig) = W (main_v25 : DevRef τ sig) := by line_results
theorem N1_keeps_v7 : after opsN1 W (main_v7 : DevRef τ sig) = W (main_v7 : DevRef τ sig) := by line_results
theorem N1_keeps_arg0 : after opsN1 W (main_arg0 : DevRef τ sig) = W (main_arg0 : DevRef τ sig) := by line_results
theorem N1_keeps_arg1 : after opsN1 W (main_arg1 : DevRef τ sig) = W (main_arg1 : DevRef τ sig) := by line_results
theorem N1_keeps_arg2 : after opsN1 W (main_arg2 : DevRef τ sig) = W (main_arg2 : DevRef τ sig) := by line_results

theorem N2_v44 : after opsN2 W (main_v44 : DevRef τ sig) = nsStep (W (main_v27 : DevRef τ sig) : FVec Ideal S4x64x64 .f32) (W (main_v36 : DevRef τ sig) : FVec Ideal S4x64x64 .f32) := by
  line_results <;> rfl
theorem N2_keeps_v27 : after opsN2 W (main_v27 : DevRef τ sig) = W (main_v27 : DevRef τ sig) := by line_results
theorem N2_keeps_v25 : after opsN2 W (main_v25 : DevRef τ sig) = W (main_v25 : DevRef τ sig) := by line_results
theorem N2_keeps_v7 : after opsN2 W (main_v7 : DevRef τ sig) = W (main_v7 : DevRef τ sig) := by line_results
theorem N2_keeps_arg0 : after opsN2 W (main_arg0 : DevRef τ sig) = W (main_arg0 : DevRef τ sig) := by line_results
theorem N2_keeps_arg1 : after opsN2 W (main_arg1 : DevRef τ sig) = W (main_arg1 : DevRef τ sig) := by line_results
theorem N2_keeps_arg2 : after opsN2 W (main_arg2 : DevRef τ sig) = W (main_arg2 : DevRef τ sig) := by line_results

theorem N3_v52 : after opsN3 W (main_v52 : DevRef τ sig) = nsStep (W (main_v27 : DevRef τ sig) : FVec Ideal S4x64x64 .f32) (W (main_v44 : DevRef τ sig) : FVec Ideal S4x64x64 .f32) := by
  line_results <;> rfl
theorem N3_keeps_v27 : after opsN3 W (main_v27 : DevRef τ sig) = W (main_v27 : DevRef τ sig) := by line_results
theorem N3_keeps_v25 : after opsN3 W (main_v25 : DevRef τ sig) = W (main_v25 : DevRef τ sig) := by line_results
theorem N3_keeps_v7 : after opsN3 W (main_v7 : DevRef τ sig) = W (main_v7 : DevRef τ sig) := by line_results
theorem N3_keeps_arg0 : after opsN3 W (main_arg0 : DevRef τ sig) = W (main_arg0 : DevRef τ sig) := by line_results
theorem N3_keeps_arg1 : after opsN3 W (main_arg1 : DevRef τ sig) = W (main_arg1 : DevRef τ sig) := by line_results
theorem N3_keeps_arg2 : after opsN3 W (main_arg2 : DevRef τ sig) = W (main_arg2 : DevRef τ sig) := by line_results

theorem N4_v60 : after opsN4 W (main_v60 : DevRef τ sig) = nsStep (W (main_v27 : DevRef τ sig) : FVec Ideal S4x64x64 .f32) (W (main_v52 : DevRef τ sig) : FVec Ideal S4x64x64 .f32) := by
  line_results <;> rfl
theorem N4_keeps_v27 : after opsN4 W (main_v27 : DevRef τ sig) = W (main_v27 : DevRef τ sig) := by line_results
theorem N4_keeps_v25 : after opsN4 W (main_v25 : DevRef τ sig) = W (main_v25 : DevRef τ sig) := by line_results
theorem N4_keeps_v7 : after opsN4 W (main_v7 : DevRef τ sig) = W (main_v7 : DevRef τ sig) := by line_results
theorem N4_keeps_arg0 : after opsN4 W (main_arg0 : DevRef τ sig) = W (main_arg0 : DevRef τ sig) := by line_results
theorem N4_keeps_arg1 : after opsN4 W (main_arg1 : DevRef τ sig) = W (main_arg1 : DevRef τ sig) := by line_results
theorem N4_keeps_arg2 : after opsN4 W (main_arg2 : DevRef τ sig) = W (main_arg2 : DevRef τ sig) := by line_results

theorem N5_v68 : after opsN5 W (main_v68 : DevRef τ sig) = nsStep (W (main_v27 : DevRef τ sig) : FVec Ideal S4x64x64 .f32) (W (main_v60 : DevRef τ sig) : FVec Ideal S4x64x64 .f32) := by
  line_results <;> rfl
theorem N5_keeps_v27 : after opsN5 W (main_v27 : DevRef τ sig) = W (main_v27 : DevRef τ sig) := by line_results
theorem N5_keeps_v25 : after opsN5 W (main_v25 : DevRef τ sig) = W (main_v25 : DevRef τ sig) := by line_results
theorem N5_keeps_v7 : after opsN5 W (main_v7 : DevRef τ sig) = W (main_v7 : DevRef τ sig) := by line_results
theorem N5_keeps_arg0 : after opsN5 W (main_arg0 : DevRef τ sig) = W (main_arg0 : DevRef τ sig) := by line_results
theorem N5_keeps_arg1 : after opsN5 W (main_arg1 : DevRef τ sig) = W (main_arg1 : DevRef τ sig) := by line_results
theorem N5_keeps_arg2 : after opsN5 W (main_arg2 : DevRef τ sig) = W (main_arg2 : DevRef τ sig) := by line_results

theorem Cf_v71 : after opsCf W (main_v71 : DevRef τ sig) = finish (W (main_v68 : DevRef τ sig) : FVec Ideal S4x64x64 .f32) (W (main_v25 : DevRef τ sig) : FVec Ideal S4x1x1 .f32) := by
  line_results <;> rfl
theorem Cf_keeps_v7 : after opsCf W (main_v7 : DevRef τ sig) = W (main_v7 : DevRef τ sig) := by line_results
theorem Cf_keeps_arg0 : after opsCf W (main_arg0 : DevRef τ sig) = W (main_arg0 : DevRef τ sig) := by line_results
theorem Cf_keeps_arg1 : after opsCf W (main_arg1 : DevRef τ sig) = W (main_arg1 : DevRef τ sig) := by line_results
theorem Cf_keeps_arg2 : after opsCf W (main_arg2 : DevRef τ sig) = W (main_arg2 : DevRef τ sig) := by line_results

theorem D_v78 : after opsD W (main_v78 : DevRef τ sig) = resultOf (W (main_v71 : DevRef τ sig) : FVec Ideal S4x64x64 .f32) (W (main_v7 : DevRef τ sig) : FVec Ideal S4x64x100352 .f32) (W (main_arg1 : DevRef τ sig) : FVec Ideal S1x256x1x1 .f32) (W (main_arg2 : DevRef τ sig) : FVec Ideal S1x256x1x1 .f32) := by
  line_results <;> rfl
theorem D_keeps_arg0 : after opsD W (main_arg0 : DevRef τ sig) = W (main_arg0 : DevRef τ sig) := by line_results
theorem D_keeps_arg1 : after opsD W (main_arg1 : DevRef τ sig) = W (main_arg1 : DevRef τ sig) := by line_results
theorem D_keeps_arg2 : after opsD W (main_arg2 : DevRef τ sig) = W (main_arg2 : DevRef τ sig) := by line_results

end Pieces

/-! ## The whole line read at the result and at the arguments -/

section Whole
variable (V : Valuation τ sig (Elt Ideal))

/-- After the whole line the result buffer holds the result stage of the three arguments' contents. -/
theorem v78_eq : after ops V (main_v78 : DevRef τ sig)
    = result (V (main_arg0 : DevRef τ sig)) (V (main_arg1 : DevRef τ sig)) (V (main_arg2 : DevRef τ sig)) := by
  rw [ops_split]
  simp only [after_append]
  rw [D_v78, Cf_v71, Cf_keeps_v7, Cf_keeps_arg1, Cf_keeps_arg2, N5_v68, N5_keeps_v25, N5_keeps_v7, N5_keeps_arg1, N5_keeps_arg2, N4_v60, N4_keeps_v27, N4_keeps_v25, N4_keeps_v7, N4_keeps_arg1, N4_keeps_arg2, N3_v52, N3_keeps_v27, N3_keeps_v25, N3_keeps_v7, N3_keeps_arg1, N3_keeps_arg2, N2_v44, N2_keeps_v27, N2_keeps_v25, N2_keeps_v7, N2_keeps_arg1, N2_keeps_arg2, N1_v36, N1_keeps_v27, N1_keeps_v25, N1_keeps_v7, N1_keeps_arg1, N1_keeps_arg2, C0_v27, C0_v28, C0_v25, C0_keeps_v7, C0_keeps_arg1, C0_keeps_arg2, B_v21, B_v13, B_keeps_v7, B_keeps_arg1, B_keeps_arg2, A_v7, A_keeps_arg1, A_keeps_arg2]
  rfl

/-- No operation writes this argument. -/
theorem arg0_eq : after ops V (main_arg0 : DevRef τ sig) = V (main_arg0 : DevRef τ sig) := by
  rw [ops_split]
  simp only [after_append]
  rw [D_keeps_arg0, Cf_keeps_arg0, N5_keeps_arg0, N4_keeps_arg0, N3_keeps_arg0, N2_keeps_arg0, N1_keeps_arg0, C0_keeps_arg0, B_keeps_arg0, A_keeps_arg0]

/-- No operation writes this argument. -/
theorem arg1_eq : after ops V (main_arg1 : DevRef τ sig) = V (main_arg1 : DevRef τ sig) := by
  rw [ops_split]
  simp only [after_append]
  rw [D_keeps_arg1, Cf_keeps_arg1, N5_keeps_arg1, N4_keeps_arg1, N3_keeps_arg1, N2_keeps_arg1, N1_keeps_arg1, C0_keeps_arg1, B_keeps_arg1, A_keeps_arg1]

/-- No operation writes this argument. -/
theorem arg2_eq : after ops V (main_arg2 : DevRef τ sig) = V (main_arg2 : DevRef τ sig) := by
  rw [ops_split]
  simp only [after_append]
  rw [D_keeps_arg2, Cf_keeps_arg2, N5_keeps_arg2, N4_keeps_arg2, N3_keeps_arg2, N2_keeps_arg2, N1_keeps_arg2, C0_keeps_arg2, B_keeps_arg2, A_keeps_arg2]

end Whole

/-- From any memory with zero counters every weakly fair execution of the program terminates; the result buffer
    then holds the result stage of the arguments' initial contents, and the three arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v78)
          = result (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c => ⟨(h c main_v78).trans (v78_eq _),
      (h c main_arg0).trans (arg0_eq _), (h c main_arg1).trans (arg1_eq _), (h c main_arg2).trans (arg2_eq _)⟩)
    (run_seq scopedRefs_eq scopedSems_eq (defs (F := Ideal)) (main (F := Ideal)) (fun _ => ops) main_eq (fun _ => ops_sub) m ρ)

end Cert.ReferenceIdeal.RefValue

end
-- ==== Proof.Finite.lean ====
/-
  What the precondition gives: every entry of X is a real number.
  The precondition says that |X| < +infinity at every index (and the same of the weight and the bias, which this
  certificate does not need). On the extended reals |x| is max x (-x), which is +infinity at both infinities, so an
  entry whose absolute value is below +infinity is neither of them: it is a real.
-/
import proofs.«147816_j11527692222570_1_alg».proof.Defs
import proofs.«147816_j11527692222570_1_alg».proof.Proof.Gen.Pre_finite_inputs
import Idealize.ShloMosaic.Lib.ReduceAll
import Idealize.ShloMosaic.Lib.ValueIdx

noncomputable section

namespace Cert.Whiten.Finite

open Idealize.ShloMosaic Idealize.SL.Sem

/-- The scalar shape has one index. -/
instance : Subsingleton Cert.Pre_finite_inputs.S_.Idx := ⟨fun a b => funext fun d => d.elim0⟩

/-- The word 0x7F800000 is +infinity. -/
theorem ofBits_inf : Ideal.ofBits .f32 0x7F800000#32 = (⊤ : EReal) := by
  simp [Ideal.ofBits, Ideal.ieee]

/-- An extended real whose absolute value is below +infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition every entry of the kernel program's first argument is a real number. -/
theorem x_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.Pre_finite_inputs.S32x256x56x56.Idx) :
    ∃ r : ℝ, (m ((c.tc : Thread Cert.KernelIdeal.nD Cert.KernelIdeal.τ).loc Cert.KernelIdeal.main_arg0) : Cert.Pre_finite_inputs.S32x256x56x56.Idx → EReal) i = (r : EReal) := by
  have h0 := congrFun (h c) ValueIdx.ix0
  dsimp only [Cert.Pre_finite_inputs.fn] at h0
  obtain ⟨h1, -⟩ := IntOp.andi_eq_one.1 h0
  obtain ⟨h2, -⟩ := IntOp.andi_eq_one.1 h1
  exact real_of_abs_lt_inf _ (Host.reduce_andi_all _ _ _ _ _ h2 i)

end Cert.Whiten.Finite

end
-- ==== Proof.KHost.lean ====
/-
  The host arithmetic of the idealized kernel program between and around its two pallas regions, stage by stage,
  each stage named as a function of the contents it reads — over ANY contents of the buffers, so that the program's
  running contents never have to be opened.

  Before the first region X is flattened to [32, 256, 3136]. Between the regions, from the per-group sums sx[g, d]
  and sums of products sxx[g, d, e] the first region leaves:  the mean  mu = sx / 100352;  the covariance
  Sigma = eps * I + sxx / 100352 - mu mu^T;  its trace per group, tr[g];  the reciprocal r = 1 / tr;
  the normalised covariance Sn = Sigma * r;  five steps  P <- 1.5 P - 0.5 (P P P Sn)  from the identity;  the
  whitening matrix  P * sqrt r;  and the weight and bias reshaped to columns. After the second region its output is
  reshaped to [32, 256, 56, 56].
-/
import proofs.«147816_j11527692222570_1_alg».proof.Proof.Gen.KernelIdeal.Launch
import Idealize.ShloMosaic.Lib.StableHlo.Run
import Idealize.ShloMosaic.PureOps.Ideal

noncomputable section

namespace Cert.KernelIdeal.HostValue

open Idealize.ShloMosaic Idealize.ShloMosaic.TcCoe Idealize.SL.Sem Idealize.ShloMosaic.StableHlo
open Cert.KernelIdeal Cert.KernelIdeal.Gen

/-! ## The stages as functions -/

/-- X with its pixels flattened: [32, 256, 56, 56] read as [32, 256, 3136]. -/
def flat (X : FVec Ideal S32x256x56x56 .f32) : FVec Ideal S32x256x3136 .f32 :=
  shapeCast S32x256x3136 X shapeCasts_S32x256x56x56_S32x256x3136

/-- The mean: the sums divided by the number of positions, 100352. -/
def meanOf (sx : FVec Ideal S4x64 .f32) : FVec Ideal S4x64 .f32 :=
  Host.divf (F := Ideal) sx (broadcastInDim S4x64 ![] bcast_S_S4x64 (constant (F := Ideal) S_ .f32 0x47C40000#32))

/-- The 64 x 64 identity matrix: 1 where the row number equals the column number, else 0. -/
def eye : FVec Ideal S64x64 .f32 :=
  uitofp (F := Ideal) .f32 (cmpi .eq (addi (iotaInDim S64x64 32 0) (broadcastInDim S64x64 ![] bcast_S_S64x64 (constantI S_ 32 0#32)))
    (iotaInDim S64x64 32 1))

/-- eps times the identity, as a [1, 64, 64] array. -/
def epsEye : FVec Ideal S1x64x64 .f32 :=
  mulf (broadcastInDim S1x64x64 ![] bcast_S_S1x64x64 (constant (F := Ideal) S_ .f32 0x3727C5AC#32))
    (broadcastInDim S1x64x64 ![1, 2] bcast_S64x64_S1x64x64_1_2 eye)

/-- The covariance from the sums: eps I + sxx / 100352 - mu mu^T. -/
def sigmaOf (sx : FVec Ideal S4x64 .f32) (sxx : FVec Ideal S4x64x64 .f32) : FVec Ideal S4x64x64 .f32 :=
  subf
    (addf (broadcastInDim S4x64x64 ![0, 1, 2] bcast_S1x64x64_S4x64x64_0_1_2 epsEye)
      (Host.divf (F := Ideal) sxx (broadcastInDim S4x64x64 ![] bcast_S_S4x64x64 (constant (F := Ideal) S_ .f32 0x47C40000#32))))
    (mulf
      (broadcastInDim S4x64x64 ![0, 1, 2] bcast_S4x64x1_S4x64x64_0_1_2 (broadcastInDim S4x64x1 ![0, 1] bcast_S4x64_S4x64x1_0_1 (meanOf sx)))
      (broadcastInDim S4x64x64 ![0, 1, 2] bcast_S4x1x64_S4x64x64_0_1_2 (broadcastInDim S4x1x64 ![0, 2] bcast_S4x64_S4x1x64_0_2 (meanOf sx))))

/-- The trace of each group's matrix: the diagonal selected, the rest replaced by 0, summed. -/
def traceOf (S : FVec Ideal S4x64x64 .f32) : FVec Ideal S4 .f32 :=
  Host.reduceAdd (F := Ideal)
    (select
      (broadcastInDim S4x64x64 ![1, 2] bcast_S64x64_S4x64x64_1_2
        (cmpi .eq (addi (iotaInDim S64x64 32 0) (broadcastInDim S64x64 ![] bcast_S_S64x64 (constantI S_ 32 0#32))) (iotaInDim S64x64 32 1)))
      S (broadcastInDim S4x64x64 ![] bcast_S_S4x64x64 (constant (F := Ideal) S_ .f32 0x00000000#32)))
    (constant (F := Ideal) S_ .f32 0x00000000#32) reducesTo_S4x64x64_S4_d1_2 h_S_

/-- The reciprocal of the trace, one number per group, as a [4, 1, 1] array. -/
def recipOf (tr : FVec Ideal S4 .f32) : FVec Ideal S4x1x1 .f32 :=
  broadcastInDim S4x1x1 ![0] bcast_S4_S4x1x1_0
    (Host.divf (F := Ideal) (broadcastInDim S4 ![] bcast_S_S4 (constant (F := Ideal) S_ .f32 0x3F800000#32)) tr)

/-- One Newton–Schulz step: P ↦ 1.5 P - 0.5 (P P P Sn), the products batched over the groups. -/
def nsStep (Sn P : FVec Ideal S4x64x64 .f32) : FVec Ideal S4x64x64 .f32 :=
  subf
    (mulf (broadcastInDim S4x64x64 ![] bcast_S_S4x64x64 (constant (F := Ideal) S_ .f32 0x3FC00000#32)) P)
    (mulf (broadcastInDim S4x64x64 ![] bcast_S_S4x64x64 (constant (F := Ideal) S_ .f32 0x3F000000#32))
      (Host.dotGeneral (F := Ideal) dot_S4x64x64_S4x64x64_S4x64x64_2_1_1_2_0_0 none
        (Host.dotGeneral (F := Ideal) dot_S4x64x64_S4x64x64_S4x64x64_2_1_1_2_0_0 none
          (Host.dotGeneral (F := Ideal) dot_S4x64x64_S4x64x64_S4x64x64_2_1_1_2_0_0 none P P) P) Sn))

/-- The whitening matrix from the covariance S, its trace tr and the identity I: five steps from the identity on the
    trace-normalised covariance, then scaled by the square root of the reciprocal trace. -/
def whitenOf (S : FVec Ideal S4x64x64 .f32) (tr : FVec Ideal S4 .f32) (I : FVec Ideal S64x64 .f32) : FVec Ideal S4x64x64 .f32 :=
  mulf
    (nsStep (mulf S (broadcastInDim S4x64x64 ![0, 1, 2] bcast_S4x1x1_S4x64x64_0_1_2 (recipOf tr)))
      (nsStep (mulf S (broadcastInDim S4x64x64 ![0, 1, 2] bcast_S4x1x1_S4x64x64_0_1_2 (recipOf tr)))
        (nsStep (mulf S (broadcastInDim S4x64x64 ![0, 1, 2] bcast_S4x1x1_S4x64x64_0_1_2 (recipOf tr)))
          (nsStep (mulf S (broadcastInDim S4x64x64 ![0, 1, 2] bcast_S4x1x1_S4x64x64_0_1_2 (recipOf tr)))
            (nsStep (mulf S (broadcastInDim S4x64x64 ![0, 1, 2] bcast_S4x1x1_S4x64x64_0_1_2 (recipOf tr)))
              (broadcastInDim S4x64x64 ![1, 2] bcast_S64x64_S4x64x64_1_2 I))))))
    (broadcastInDim S4x64x64 ![0, 1, 2] bcast_S4x1x1_S4x64x64_0_1_2 (Host.sqrt (F := Ideal) (recipOf tr)))

/-- A [1, 256, 1, 1] parameter as a column [256, 1]. -/
def column (p : FVec Ideal S1x256x1x1 .f32) : FVec Ideal S256x1 .f32 :=
  shapeCast S256x1 p shapeCasts_S1x256x1x1_S256x1

/-- The second region's output [32, 256, 3136] read as [32, 256, 56, 56]. -/
def unflat (Y : FVec Ideal S32x256x3136 .f32) : FVec Ideal S32x256x56x56 .f32 :=
  shapeCast S32x256x56x56 Y shapeCasts_S32x256x3136_S32x256x56x56

/-! ## Each stretch of host operations, read at the buffers the regions and the later stretches use -/

variable (Wv : Valuation τ sig (Elt Ideal))

theorem flat_read : StableHlo.after (hostOps0 (F := Ideal)) Wv (Proc.devRef .tc main_v0) = flat (Wv (Proc.devRef .tc main_arg0)) := by
  after_results
  rfl

theorem mean_read : StableHlo.after (hostOps1 (F := Ideal)) Wv (Proc.devRef .tc main_v3) = meanOf (Wv (Proc.devRef .tc main_v1_0)) := by
  after_results
  rfl

theorem eye_read : StableHlo.after (hostOps1 (F := Ideal)) Wv (Proc.devRef .tc main_v9) = eye := by
  after_results
  rfl

theorem sigma_read : StableHlo.after (hostOps1 (F := Ideal)) Wv (Proc.devRef .tc main_v22)
    = sigmaOf (Wv (Proc.devRef .tc main_v1_0)) (Wv (Proc.devRef .tc main_v1_1)) := by
  after_results_simp
  rfl

theorem trace_read : StableHlo.after (hostOps1_1 (F := Ideal)) Wv (Proc.devRef .tc main_v23) = traceOf (Wv (Proc.devRef .tc main_v22)) := by
  after_results
  rfl

theorem unflat_read : StableHlo.after (hostOps2 (F := Ideal)) Wv (Proc.devRef .tc main_v76) = unflat (Wv (Proc.devRef .tc main_v75)) := by
  after_results
  rfl

theorem whiten_read : StableHlo.after (hostOps1_2 (F := Ideal)) Wv (Proc.devRef .tc main_v72)
    = whitenOf (Wv (Proc.devRef .tc main_v22)) (Wv (Proc.devRef .tc main_v23)) (Wv (Proc.devRef .tc main_v9)) := by
  after_results_simp
  rfl

theorem weight_read : StableHlo.after (hostOps1_2 (F := Ideal)) Wv (Proc.devRef .tc main_v73) = column (Wv (Proc.devRef .tc main_arg1)) := by
  after_results_simp
  rfl

theorem bias_read : StableHlo.after (hostOps1_2 (F := Ideal)) Wv (Proc.devRef .tc main_v74) = column (Wv (Proc.devRef .tc main_arg2)) := by
  after_results_simp
  rfl

/-! ## A stretch leaves alone every buffer it does not write -/

/-- Closes `after ops Wv b = Wv b` for a literal stretch `ops` none of whose operations writes `b`. -/
macro "not_written" : tactic => `(tactic| (
  refine StableHlo.after_of_forall_not_mem _ _ (List.forall_iff_forall_mem.mp ?_)
  simp only [hostOps0, hostOps1, hostOps1_1, hostOps1_2, hostOps2, List.Forall, StableHlo.nullary_writes, StableHlo.unary_writes,
    StableHlo.binary_writes, StableHlo.ternary_writes, StableHlo.quaternary_writes, StableHlo.reshape_writes, Finset.mem_singleton]
  repeat' apply And.intro
  all_goals exact StableHlo.devRef_ne_of_ne (by decide)))

theorem keep0_arg1 : StableHlo.after (hostOps0 (F := Ideal)) Wv (Proc.devRef .tc main_arg1) = Wv (Proc.devRef .tc main_arg1) := by not_written
theorem keep0_arg2 : StableHlo.after (hostOps0 (F := Ideal)) Wv (Proc.devRef .tc main_arg2) = Wv (Proc.devRef .tc main_arg2) := by not_written
theorem keep1_arg1 : StableHlo.after (hostOps1 (F := Ideal)) Wv (Proc.devRef .tc main_arg1) = Wv (Proc.devRef .tc main_arg1) := by not_written
theorem keep1_arg2 : StableHlo.after (hostOps1 (F := Ideal)) Wv (Proc.devRef .tc main_arg2) = Wv (Proc.devRef .tc main_arg2) := by not_written
theorem keep1_v0 : StableHlo.after (hostOps1 (F := Ideal)) Wv (Proc.devRef .tc main_v0) = Wv (Proc.devRef .tc main_v0) := by not_written
theorem keep11_arg1 : StableHlo.after (hostOps1_1 (F := Ideal)) Wv (Proc.devRef .tc main_arg1) = Wv (Proc.devRef .tc main_arg1) := by not_written
theorem keep11_arg2 : StableHlo.after (hostOps1_1 (F := Ideal)) Wv (Proc.devRef .tc main_arg2) = Wv (Proc.devRef .tc main_arg2) := by not_written
theorem keep11_v0 : StableHlo.after (hostOps1_1 (F := Ideal)) Wv (Proc.devRef .tc main_v0) = Wv (Proc.devRef .tc main_v0) := by not_written
theorem keep11_v3 : StableHlo.after (hostOps1_1 (F := Ideal)) Wv (Proc.devRef .tc main_v3) = Wv (Proc.devRef .tc main_v3) := by not_written
theorem keep11_v9 : StableHlo.after (hostOps1_1 (F := Ideal)) Wv (Proc.devRef .tc main_v9) = Wv (Proc.devRef .tc main_v9) := by not_written
theorem keep11_v22 : StableHlo.after (hostOps1_1 (F := Ideal)) Wv (Proc.devRef .tc main_v22) = Wv (Proc.devRef .tc main_v22) := by not_written
theorem keep12_v0 : StableHlo.after (hostOps1_2 (F := Ideal)) Wv (Proc.devRef .tc main_v0) = Wv (Proc.devRef .tc main_v0) := by not_written
theorem keep12_v3 : StableHlo.after (hostOps1_2 (F := Ideal)) Wv (Proc.devRef .tc main_v3) = Wv (Proc.devRef .tc main_v3) := by not_written

end Cert.KernelIdeal.HostValue

end
-- ==== Proof.KValue.lean ====
/-
  The idealized kernel program's buffers at the moments that matter, in terms of the launch memory and of the two
  arrays the first pallas region leaves (the per-group sums sx and the sums of products sxx).
  When the second region is entered: its data window holds X with the pixels flattened; its mean window holds
  sx / 100352; its matrix window holds the whitening matrix computed from the covariance
  eps I + sxx / 100352 - mu mu^T; its weight and bias windows hold the two parameters as columns. After the last
  stretch the result buffer holds the second region's output array read as [32, 256, 56, 56].
  Each fact walks the program's segments back from the moment in question: a host stretch is read by the stage it
  computes or skipped because it does not write the buffer, a region leaves every buffer that is not one of its
  arrays alone and an input array as it found it.
-/
import proofs.«147816_j11527692222570_1_alg».proof.Proof.Gen.KernelIdeal.Frame
import proofs.«147816_j11527692222570_1_alg».proof.Proof.KHost

set_option maxRecDepth 16384

noncomputable section

namespace Cert.KernelIdeal.Whole

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.HostValue

variable (m : (ℓ : Loc nD τ sig) → Buf (Elt Ideal) ℓ) (ρ : Dev nD → PrngReg) (c : Dev nD)

/-- The sums the first region leaves: sx[g, d]. -/
abbrev sumx : FVec Ideal S4x64 .f32 := (dat0 (V1 m ρ) c).arrAt 1 cfg0.N
/-- The sums of products the first region leaves: sxx[g, d, e]. -/
abbrev sumxx : FVec Ideal S4x64x64 .f32 := (dat0 (V1 m ρ) c).arrAt 2 cfg0.N
/-- The covariance the host computes from them. -/
abbrev sigmaK : FVec Ideal S4x64x64 .f32 := sigmaOf (sumx m ρ c) (sumxx m ρ c)

/-! ## The data array -/

theorem V1_x : V1 m ρ c main_v0 = flat (m ((c : Thread nD τ).loc main_arg0)) :=
  flat_read (W0 m ρ c)

theorem W2_x : W2 m ρ c (Proc.devRef .tc main_v0) = flat (m ((c : Thread nD τ).loc main_arg0)) :=
  (W2_arr m ρ c 0).trans (((dat0 (V1 m ρ) c).arrAt_in 0 rfl cfg0.N).trans ((A_eq0 (V1 m ρ) c 0).trans (V1_x m ρ c)))

theorem V5_x : V5 m ρ c main_v0 = flat (m ((c : Thread nD τ).loc main_arg0)) :=
  (keep12_v0 (W4 m ρ c)).trans ((keep11_v0 (W3 m ρ c)).trans ((keep1_v0 (W2 m ρ c)).trans (W2_x m ρ c)))

/-! ## The mean -/

theorem W3_mean : W3 m ρ c (Proc.devRef .tc main_v3) = meanOf (sumx m ρ c) :=
  (mean_read (W2 m ρ c)).trans (congrArg meanOf (W2_arr m ρ c 1))

theorem V5_mean : V5 m ρ c main_v3 = meanOf (sumx m ρ c) :=
  (keep12_v3 (W4 m ρ c)).trans ((keep11_v3 (W3 m ρ c)).trans (W3_mean m ρ c))

/-! ## The whitening matrix -/

theorem W3_sigma : W3 m ρ c (Proc.devRef .tc main_v22) = sigmaK m ρ c :=
  (sigma_read (W2 m ρ c)).trans (by rw [W2_arr m ρ c 1, W2_arr m ρ c 2])

theorem V5_wm : V5 m ρ c main_v72 = whitenOf (sigmaK m ρ c) (traceOf (sigmaK m ρ c)) eye := by
  refine (whiten_read (W4 m ρ c)).trans ?_
  rw [show W4 m ρ c (Proc.devRef .tc main_v22) = sigmaK m ρ c from (keep11_v22 (W3 m ρ c)).trans (W3_sigma m ρ c),
      show W4 m ρ c (Proc.devRef .tc main_v23) = traceOf (sigmaK m ρ c) from
        (trace_read (W3 m ρ c)).trans (congrArg traceOf (W3_sigma m ρ c)),
      show W4 m ρ c (Proc.devRef .tc main_v9) = eye from (keep11_v9 (W3 m ρ c)).trans (eye_read (W2 m ρ c))]

/-! ## The weight and the bias -/

theorem W4_arg1 : W4 m ρ c (Proc.devRef .tc main_arg1) = m ((c : Thread nD τ).loc main_arg1) :=
  (keep11_arg1 (W3 m ρ c)).trans ((keep1_arg1 (W2 m ρ c)).trans
    ((W2_of_ne m ρ c main_arg1 (by decide)).trans (keep0_arg1 (W0 m ρ c))))

theorem W4_arg2 : W4 m ρ c (Proc.devRef .tc main_arg2) = m ((c : Thread nD τ).loc main_arg2) :=
  (keep11_arg2 (W3 m ρ c)).trans ((keep1_arg2 (W2 m ρ c)).trans
    ((W2_of_ne m ρ c main_arg2 (by decide)).trans (keep0_arg2 (W0 m ρ c))))

theorem V5_weight : V5 m ρ c main_v73 = column (m ((c : Thread nD τ).loc main_arg1)) :=
  (weight_read (W4 m ρ c)).trans (congrArg column (W4_arg1 m ρ c))

theorem V5_bias : V5 m ρ c main_v74 = column (m ((c : Thread nD τ).loc main_arg2)) :=
  (bias_read (W4 m ρ c)).trans (congrArg column (W4_arg2 m ρ c))

/-! ## The result -/

theorem W7_result : W7 m ρ c (Proc.devRef .tc main_v76) = unflat ((dat1 (V5 m ρ) c).arrAt 5 cfg1.N) :=
  (unflat_read (W6 m ρ c)).trans (congrArg unflat (W6_arr m ρ c 5))

end Cert.KernelIdeal.Whole

end
-- ==== Proof.Spec.lean ====
/-
  Index conventions shared by every module of this certificate. The input is X[n, ch, h, w] with 32 samples,
  256 channels and 56 x 56 pixels. The channels fall into 4 groups of 64: channel 64 g + d is member d of group g.
  The kernel side works on X with the pixels flattened, s = 56 h + w (3136 of them); the reference side moves the
  channel axis to the front and flattens (n, h, w) into one axis of 100352 = 32 * 3136 positions, k = 3136 n + s.
-/
import Idealize.ShloMosaic.Lib.ValueIdx

namespace Cert.Whiten

/-- Channel 64 g + d: member d of group g. -/
def chan (g : Fin 4) (d : Fin 64) : Fin 256 := ⟨64 * g.val + d.val, by omega⟩
/-- Pixel 56 h + w of a 56 x 56 image, flattened. -/
def pix (h w : Fin 56) : Fin 3136 := ⟨56 * h.val + w.val, by omega⟩
/-- Position 3136 n + s of sample n, pixel s, on the flattened (n, h, w) axis. -/
def pos (n : Fin 32) (s : Fin 3136) : Fin 100352 := ⟨3136 * n.val + s.val, by omega⟩

theorem chan_val (g : Fin 4) (d : Fin 64) : (chan g d).val = 64 * g.val + d.val := rfl
theorem pix_val (h w : Fin 56) : (pix h w).val = 56 * h.val + w.val := rfl
theorem pos_val (n : Fin 32) (s : Fin 3136) : (pos n s).val = 3136 * n.val + s.val := rfl

end Cert.Whiten
-- ==== Proof.KRead.lean ====
/-
  The kernel program's host stages read at an index.
  Flattening the pixels puts pixel (h, w) at s = 56 h + w and back; a parameter [1, 256, 1, 1] read as a column
  keeps entry ch; the mean at (g, d) is the sum at (g, d) over 100352; and the covariance at (g, d, e) is
  eps I at (d, e), plus the sum of products at (g, d, e) over 100352, minus the product of the means at (g, d) and
  (g, e) — each broadcast reads the coordinates it keeps.
-/
import proofs.«147816_j11527692222570_1_alg».proof.Proof.KHost
import proofs.«147816_j11527692222570_1_alg».proof.Proof.Spec
import Idealize.ShloMosaic.Lib.Pipeline.Value
import Idealize.ShloMosaic.Lib.ValueIdx

noncomputable section

namespace Cert.KernelIdeal.HostValue

open Idealize.ShloMosaic Idealize.ShloMosaic.ValueIdx
open Cert.KernelIdeal Cert.KernelIdeal.Gen Cert.Whiten

/-- The flattened X at (n, ch, 56 h + w) is X at (n, ch, h, w). -/
theorem flat_apply (X : FVec Ideal S32x256x56x56 .f32) (n : Fin 32) (ch : Fin 256) (h w : Fin 56) :
    flat X (ix3 n ch (pix h w)) = X (ix4 n ch h w) := by
  unfold flat
  refine shapeCast_apply _ _ _ _ ?_
  rw [Shape.rowMajor_val_four, Shape.rowMajor_val_three]
  show ((n.val * 256 + ch.val) * 56 + h.val) * 56 + w.val = (n.val * 256 + ch.val) * 3136 + (pix h w).val
  rw [pix_val]; omega

/-- The flattened X at (n, ch, s) is X at (n, ch, s / 56, s % 56). -/
theorem flat_apply' (X : FVec Ideal S32x256x56x56 .f32) (n : Fin 32) (ch : Fin 256) (s : Fin 3136) :
    flat X (ix3 n ch s) = X (ix4 n ch ⟨s.val / 56, by have := s.isLt; omega⟩ ⟨s.val % 56, Nat.mod_lt _ (by decide)⟩) := by
  unfold flat
  refine shapeCast_apply _ _ _ _ ?_
  rw [Shape.rowMajor_val_four, Shape.rowMajor_val_three]
  show ((n.val * 256 + ch.val) * 56 + s.val / 56) * 56 + s.val % 56 = (n.val * 256 + ch.val) * 3136 + s.val
  have := Nat.div_add_mod s.val 56
  omega

/-- An array [32, 256, 3136] read as [32, 256, 56, 56], at (n, ch, h, w), is the array at (n, ch, 56 h + w). -/
theorem unflat_apply (Y : FVec Ideal S32x256x3136 .f32) (n : Fin 32) (ch : Fin 256) (h w : Fin 56) :
    unflat Y (ix4 n ch h w) = Y (ix3 n ch (pix h w)) := by
  unfold unflat
  refine shapeCast_apply _ _ _ _ ?_
  rw [Shape.rowMajor_val_four, Shape.rowMajor_val_three]
  show (n.val * 256 + ch.val) * 3136 + (pix h w).val = ((n.val * 256 + ch.val) * 56 + h.val) * 56 + w.val
  rw [pix_val]; omega

/-- A parameter as a column, at row ch, is the parameter's entry ch. -/
theorem column_apply (p : FVec Ideal S1x256x1x1 .f32) (ch : Fin 256) :
    column p (ix2 ch (0 : Fin 1)) = p (ix4 (0 : Fin 1) ch (0 : Fin 1) (0 : Fin 1)) := by
  unfold column
  refine shapeCast_apply _ _ _ _ ?_
  rw [Shape.rowMajor_val_four, Shape.rowMajor_val_two]
  show (((0 : Fin 1).val * 256 + ch.val) * 1 + (0 : Fin 1).val) * 1 + (0 : Fin 1).val = ch.val * 1 + (0 : Fin 1).val
  simp

/-- The mean at (g, d): the sum there over the count. -/
theorem meanOf_apply (sx : FVec Ideal S4x64 .f32) (g : Fin 4) (d : Fin 64) :
    meanOf sx (ix2 g d) = Ideal.div (sx (ix2 g d)) (Ideal.ofBits .f32 0x47C40000#32) := rfl

/-- The covariance at (g, d, e). -/
theorem sigmaOf_apply (sx : FVec Ideal S4x64 .f32) (sxx : FVec Ideal S4x64x64 .f32) (g : Fin 4) (d e : Fin 64) :
    sigmaOf sx sxx (ix3 g d e)
      = (epsEye (ix3 (0 : Fin 1) d e) + Ideal.div (sxx (ix3 g d e)) (Ideal.ofBits .f32 0x47C40000#32))
        - meanOf sx (ix2 g d) * meanOf sx (ix2 g e) := by
  unfold sigmaOf
  show (broadcastInDim S4x64x64 ![0, 1, 2] bcast_S1x64x64_S4x64x64_0_1_2 epsEye (ix3 g d e)
      + Ideal.div (sxx (ix3 g d e)) (Ideal.ofBits .f32 0x47C40000#32))
      - broadcastInDim S4x64x64 ![0, 1, 2] bcast_S4x64x1_S4x64x64_0_1_2 (broadcastInDim S4x64x1 ![0, 1] bcast_S4x64_S4x64x1_0_1 (meanOf sx)) (ix3 g d e)
        * broadcastInDim S4x64x64 ![0, 1, 2] bcast_S4x1x64_S4x64x64_0_1_2 (broadcastInDim S4x1x64 ![0, 2] bcast_S4x64_S4x1x64_0_2 (meanOf sx)) (ix3 g d e) = _
  rw [broadcastInDim_apply _ bcast_S1x64x64_S4x64x64_0_1_2 epsEye (ix3 g d e) (ix3 (0 : Fin 1) d e)
        (fun a => match a with | ⟨0, _⟩ => rfl | ⟨1, _⟩ => rfl | ⟨2, _⟩ => rfl),
      broadcastInDim_apply _ bcast_S4x64x1_S4x64x64_0_1_2 _ (ix3 g d e) (ix3 g d (0 : Fin 1))
        (fun a => match a with | ⟨0, _⟩ => rfl | ⟨1, _⟩ => rfl | ⟨2, _⟩ => rfl),
      broadcastInDim_apply _ bcast_S4x64_S4x64x1_0_1 (meanOf sx) (ix3 g d (0 : Fin 1)) (ix2 g d)
        (fun a => match a with | ⟨0, _⟩ => rfl | ⟨1, _⟩ => rfl),
      broadcastInDim_apply _ bcast_S4x1x64_S4x64x64_0_1_2 _ (ix3 g d e) (ix3 g (0 : Fin 1) e)
        (fun a => match a with | ⟨0, _⟩ => rfl | ⟨1, _⟩ => rfl | ⟨2, _⟩ => rfl),
      broadcastInDim_apply _ bcast_S4x64_S4x1x64_0_2 (meanOf sx) (ix3 g (0 : Fin 1) e) (ix2 g e)
        (fun a => match a with | ⟨0, _⟩ => rfl | ⟨1, _⟩ => rfl)]

end Cert.KernelIdeal.HostValue

end
-- ==== Proof.LibCovariance.lean ====
/-
  GENERAL LEMMAS: the covariance law, on the reals and on the extended reals (no shapes, no program).
  The one algebraic law of this certificate. For two families of REAL numbers f, g over a finite index set of M
  elements, with means a = (Σ f) / M and b = (Σ g) / M,
      (Σ_i (f i - a) (g i - b)) / M  =  (Σ_i f i g i) / M - a b:
  expanding the product, the two cross terms each give -a b and the constant term gives +a b (it is summed M times and
  divided by M). It is a law of the reals: on the extended reals it fails at infinities, which is why the
  certificate's precondition (every input finite) is used here and nowhere else. The second half of this file
  carries the law to the extended reals in the two spellings the programs use: a quotient by the count is the
  division of the ideal arithmetic, a sum starts from the zero word, and a term E (the regulariser) is added on.
-/
import Idealize.ShloMosaic.PureOps.Ideal
import Mathlib.Algebra.BigOperators.Field
import Mathlib.Tactic.Ring
import Mathlib.Tactic.FieldSimp

noncomputable section

open scoped BigOperators

namespace Cert.Whiten.Cov

open Idealize.ShloMosaic

/-- The word 0x47C40000 is the float 100352.0 = 1.53125 * 2^16: the number of positions, 32 * 3136. -/
theorem ofBits_count : Ideal.ofBits .f32 0x47C40000#32 = ((100352 : ℝ) : EReal) := by
  simp [Ideal.ofBits, Ideal.ieee, -EReal.coe_mul]; norm_num

/-- The zero word is 0. -/
theorem ofBits_zero : Ideal.ofBits .f32 0x00000000#32 = 0 := by
  simp [Ideal.ofBits, Ideal.ieee]

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on the reals. -/
theorem centred_moment {ι : Type*} [Fintype ι] (f g : ι → ℝ) (M : ℝ) (hM : (Fintype.card ι : ℝ) = M) (h0 : M ≠ 0) :
    (∑ i, (f i - (∑ j, f j) / M) * (g i - (∑ j, g j) / M)) / M
      = (∑ i, f i * g i) / M - ((∑ j, f j) / M) * ((∑ j, g j) / M) := by
  have h1 : ∀ i, (f i - (∑ j, f j) / M) * (g i - (∑ j, g j) / M)
      = f i * g i - (∑ j, g j) / M * f i - (∑ j, f j) / M * g i + (∑ j, f j) / M * ((∑ j, g j) / M) := fun i => by ring
  simp only [h1, Finset.sum_add_distrib, Finset.sum_sub_distrib, ← Finset.mul_sum, Finset.sum_const, Finset.card_univ,
    nsmul_eq_mul, hM]
  field_simp
  ring

/-- The law on the extended reals, in the programs' two spellings: on the left the raw second moment over the count,
    minus the product of the two means; on the right the centred second moment over the count, each mean a sum that
    starts from 0. Any extended real E may be added to both. -/
theorem cov_eq {ι : Type*} [Fintype ι] (f g : ι → ℝ) (M : ℝ) (hM : (Fintype.card ι : ℝ) = M) (h0 : M ≠ 0) (E : EReal) :
    (E + Ideal.div (∑ i, (f i : EReal) * (g i : EReal)) (M : EReal))
        - Ideal.div (∑ i, (f i : EReal)) (M : EReal) * Ideal.div (∑ i, (g i : EReal)) (M : EReal)
      = E + Ideal.div (∑ i, ((f i : EReal) - Ideal.div (0 + ∑ j, (f j : EReal)) (M : EReal))
                              * ((g i : EReal) - Ideal.div (0 + ∑ j, (g j : EReal)) (M : EReal))) (M : EReal) := by
  simp only [Ideal.div_coe h0, zero_add, ← coe_sum, ← EReal.coe_mul, ← EReal.coe_sub]
  rw [sub_eq_add_neg, add_assoc, ← EReal.coe_neg, ← EReal.coe_add]
  congr 2
  simp only [mul_one_div]
  rw [centred_moment f g M hM h0]; ring

end Cert.Whiten.Cov

end
-- ==== Proof.LibSums.lean ====
/-
  Sums over rank-3 index sets, by coordinates. A rank-3 index set is the product of its three coordinate ranges, so a
  sum over it is a triple sum; it is also the product of its leading coordinate with the rank-2 index set of the other
  two. A leading axis of extent T·B is T consecutive blocks of B rows, so a sum over a [T·B, R, C] array is the sum
  over the T blocks of the sums over each [B, R, C] block. All in any additive commutative monoid, generic in the extents.
-/
import Idealize.ShloMosaic.Lib.ValueIdx
import Mathlib.Algebra.BigOperators.Fin
import Mathlib.Logic.Equiv.Fin.Basic

noncomputable section

open scoped BigOperators

namespace Cert.LibSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-3 index set is the sum over the leading coordinate of the sums over the rank-2 index set of the
    other two. -/
theorem sum_idx3_lead {M : Type*} [AddCommMonoid M] {n0 n1 n2 : Nat} (f : (⟨3, ![n0, n1, n2]⟩ : Shape).Idx → M) :
    ∑ i, f i = ∑ a : Fin n0, ∑ j : (⟨2, ![n1, n2]⟩ : Shape).Idx, f (ix3 a (j 0) (j 1)) := by
  rw [sum_idx3]
  refine Finset.sum_congr rfl fun a _ => ?_
  rw [sum_idx2]
  rfl

/-- A sum over `Fin (T * B)` is the sum over `T` blocks of the sums over the `B` offsets inside each block. -/
theorem sum_fin_mul {M : Type*} [AddCommMonoid M] {T B : Nat} (h : Fin (T * B) → M) :
    ∑ x, h x = ∑ t : Fin T, ∑ y : Fin B,
      h ⟨t.val * B + y.val, by
        have ht := t.isLt; have hy := y.isLt
        calc t.val * B + y.val < t.val * B + B := by omega
          _ = (t.val + 1) * B := by ring
          _ ≤ T * B := Nat.mul_le_mul_right B ht⟩ := by
  rw [← Equiv.sum_comp finProdFinEquiv h, Fintype.sum_prod_type]
  refine Finset.sum_congr rfl fun t _ => Finset.sum_congr rfl fun y _ => congrArg h (Fin.ext ?_)
  show y.val + B * t.val = t.val * B + y.val
  rw [Nat.mul_comm, Nat.add_comm]

/-- Row `y` of block `t`, as an index of the whole [T·B, R, C] array. -/
def blockIdx {T B R C : Nat} (t : Fin T) (y : (⟨3, ![B, R, C]⟩ : Shape).Idx) : (⟨3, ![T * B, R, C]⟩ : Shape).Idx :=
  ix3 ⟨t.val * B + (y 0).val, by
    have ht := t.isLt; have hy : (y 0).val < B := (y 0).isLt
    calc t.val * B + (y 0).val < t.val * B + B := by omega
      _ = (t.val + 1) * B := by ring
      _ ≤ T * B := Nat.mul_le_mul_right B ht⟩ (y 1) (y 2)

/-- A sum over a [T·B, R, C] array is the sum over its T blocks of `B` rows of the sums over each block. -/
theorem sum_blocks {M : Type*} [AddCommMonoid M] {T B R C : Nat} (f : (⟨3, ![T * B, R, C]⟩ : Shape).Idx → M) :
    ∑ z, f z = ∑ t : Fin T, ∑ y : (⟨3, ![B, R, C]⟩ : Shape).Idx, f (blockIdx t y) := by
  rw [sum_idx3, sum_fin_mul]
  refine Finset.sum_congr rfl fun t _ => ?_
  rw [sum_idx3]
  rfl

end Cert.LibSums

end
-- ==== Proof.Moments.lean ====
/-
  The two programs' sums are sums of the same numbers. Write y[g, d, k] for the entry of X in channel 64 g + d at
  position k of the flattened (sample, row, column) axis: sample k / 3136, row (k % 3136) / 56, column k % 56. The
  reference sums over k directly. The kernel sums over the samples n and the flattened pixels s, and position
  3136 n + s of the long axis is sample n, pixel s: so its double sums are the same sums, regrouped (a finite sum on
  the extended reals may be regrouped freely). With every entry of X a real number, the covariance the kernel forms
  from raw moments and the covariance the reference forms from centred data are then equal by the law of LibCovariance.lean.
-/
import proofs.«147816_j11527692222570_1_alg».proof.Proof.KRead
import proofs.«147816_j11527692222570_1_alg».proof.Proof.LibCovariance
import proofs.«147816_j11527692222570_1_alg».proof.Proof.LibSums

noncomputable section

open scoped BigOperators

namespace Cert.Whiten.Moments

open Idealize.ShloMosaic Idealize.ShloMosaic.ValueIdx
open Cert.KernelIdeal Cert.KernelIdeal.HostValue Cert.Whiten

/-- The entry of X in channel 64 g + d at position k of the flattened (sample, row, column) axis. -/
def y (X : FVec Ideal S32x256x56x56 .f32) (g : Fin 4) (d : Fin 64) (k : Fin 100352) : EReal :=
  X (ix4 (⟨k.val / 3136, by have := k.isLt; omega⟩ : Fin 32) (chan g d)
      (⟨k.val % 3136 / 56, by have := k.isLt; omega⟩ : Fin 56) (⟨k.val % 56, Nat.mod_lt _ (by decide)⟩ : Fin 56))

/-- A sum over the 100352 positions is the sum over the 32 samples of the sums over the 3136 pixels. -/
theorem sum_pos {M : Type*} [AddCommMonoid M] (h : Fin 100352 → M) :
    ∑ k, h k = ∑ n : Fin 32, ∑ s : Fin 3136, h (pos n s) := by
  have e := Cert.LibSums.sum_fin_mul (T := 32) (B := 3136) h
  rw [e]
  refine Finset.sum_congr rfl fun n _ => Finset.sum_congr rfl fun s _ => congrArg h (Fin.ext ?_)
  show n.val * 3136 + s.val = 3136 * n.val + s.val
  omega

/-- The flattened X at sample n, pixel s is y at position 3136 n + s. -/
theorem flat_pos (X : FVec Ideal S32x256x56x56 .f32) (g : Fin 4) (d : Fin 64) (n : Fin 32) (s : Fin 3136) :
    flat X (ix3 n (chan g d) s) = y X g d (pos n s) := by
  rw [flat_apply']
  unfold y
  have hn := n.isLt; have hs := s.isLt
  refine congrArg X ?_
  funext a
  match a with
  | ⟨0, _⟩ => exact Fin.ext (by show n.val = (pos n s).val / 3136; rw [pos_val]; omega)
  | ⟨1, _⟩ => rfl
  | ⟨2, _⟩ => exact Fin.ext (by show s.val / 56 = (pos n s).val % 3136 / 56; rw [pos_val]; omega)
  | ⟨3, _⟩ => exact Fin.ext (by show s.val % 56 = (pos n s).val % 56; rw [pos_val]; omega)

/-- The kernel's sum over samples and pixels is the sum of y over the positions. -/
theorem sum_flat (X : FVec Ideal S32x256x56x56 .f32) (g : Fin 4) (d : Fin 64) :
    (∑ n : Fin 32, ∑ s : Fin 3136, flat X (ix3 n (chan g d) s)) = ∑ k, y X g d k := by
  rw [sum_pos]
  exact Finset.sum_congr rfl fun n _ => Finset.sum_congr rfl fun s _ => flat_pos X g d n s

/-- The kernel's sum of products over samples and pixels is the sum of products of y over the positions. -/
theorem sum_flat_mul (X : FVec Ideal S32x256x56x56 .f32) (g : Fin 4) (d e : Fin 64) :
    (∑ n : Fin 32, ∑ s : Fin 3136, flat X (ix3 n (chan g d) s) * flat X (ix3 n (chan g e) s)) = ∑ k, y X g d k * y X g e k := by
  rw [sum_pos]
  exact Finset.sum_congr rfl fun n _ => Finset.sum_congr rfl fun s _ => by rw [flat_pos, flat_pos]

/-- With every entry of X real: the raw second moment over the count, minus the product of the means, is the centred
    second moment over the count, the means being sums that start from the zero word; E is any extended real added to both. -/
theorem cov_y (X : FVec Ideal S32x256x56x56 .f32) (hX : ∀ i, ∃ r : ℝ, X i = (r : EReal)) (g : Fin 4) (d e : Fin 64) (E : EReal) :
    (E + Ideal.div (∑ k, y X g d k * y X g e k) (Ideal.ofBits .f32 0x47C40000#32))
        - Ideal.div (∑ k, y X g d k) (Ideal.ofBits .f32 0x47C40000#32) * Ideal.div (∑ k, y X g e k) (Ideal.ofBits .f32 0x47C40000#32)
      = E + Ideal.div (∑ k, (y X g d k - Ideal.div (Ideal.ofBits .f32 0x00000000#32 + ∑ j, y X g d j) (Ideal.ofBits .f32 0x47C40000#32))
                              * (y X g e k - Ideal.div (Ideal.ofBits .f32 0x00000000#32 + ∑ j, y X g e j) (Ideal.ofBits .f32 0x47C40000#32)))
            (Ideal.ofBits .f32 0x47C40000#32) := by
  choose r hr using hX
  have hy : ∀ (d' : Fin 64) (k : Fin 100352), y X g d' k
      = ((r (ix4 (⟨k.val / 3136, by have := k.isLt; omega⟩ : Fin 32) (chan g d')
          (⟨k.val % 3136 / 56, by have := k.isLt; omega⟩ : Fin 56) (⟨k.val % 56, Nat.mod_lt _ (by decide)⟩ : Fin 56)) : ℝ) : EReal) :=
    fun d' k => hr _
  simp only [hy, Cov.ofBits_count, Cov.ofBits_zero]
  exact Cov.cov_eq _ _ 100352 (by simp) (by norm_num) E

end Cert.Whiten.Moments

end
-- ==== Proof.LibWholeBuffer.lean ====
/-
  Whole-buffer accesses. A kernel body that loads and stores every buffer through the rectangle that is the whole
  buffer (offsets zero, the buffer's own sizes, however the zeros are spelt) reads the buffer's contents and leaves
  its payload: the two facts below, for any signature, memory space, shape and element type. They turn what a
  symbolic run of such a body leaves — reads of `unread X` through the whole rectangle, a list of whole-rectangle
  writes — into `X` and into the last write's payload.
-/
import Idealize.ShloMosaic.Lib.Pipeline.Frame
import Idealize.ShloMosaic.Lib.Pipeline.FrameBody
import Idealize.ShloMosaic.Lib.Pipeline.Value

noncomputable section

namespace Cert.Lib.WholeBuffer

open Idealize.ShloMosaic

variable {sig : RefSig} {κ : Kind} {sp : Space} {Val : EltTy → Type} {S : Shape} {e : EltTy}

/-- The all-zero offsets of a whole-buffer access of rank 2 and 3, as the printed programs spell them. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- A whole buffer holding `X`, loaded through the whole rectangle, reads `X`. -/
theorem readAt_whole (m : Memref sig κ sp S e) (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero h]

/-- Whatever was stored before it, after a store through the whole rectangle the buffer reads as that store's payload. -/
theorem read_writes_whole [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

end Cert.Lib.WholeBuffer

end
-- ==== Proof.StatsPieces.lean ====
/-
  What one run of the statistics body leaves in its two accumulators, as a composition of per-sample updates.

  The body handles a block of four samples. For each sample j = 0, 1, 2, 3 in turn it loads the sample's slice of
  the block, loads the first accumulator whole, adds the slice's per-channel pixel sums to it and stores it back
  whole; then the same for the second accumulator with the slice's products summed over the pixels. On the first grid point the
  two accumulators are first overwritten with zeros. Every load and store of an accumulator goes through the
  rectangle that is the whole buffer, so each load reads exactly what the store before it left, and what the body
  leaves is the last store's payload: four nested updates of the contents the body started from (the zero
  blocks on the first point, the running contents on the others). Stated for every float instance.
-/
import proofs.«147816_j11527692222570_1_alg».proof.Proof.Gen.KernelIdeal.Frame
import proofs.«147816_j11527692222570_1_alg».proof.Proof.LibWholeBuffer
import Idealize.ShloMosaic.Lib.Pipeline.Value
import Idealize.ShloMosaic.Lib.Tactic

noncomputable section

namespace Cert.KernelIdeal.Stats

open Cert.KernelIdeal Cert.KernelIdeal.Gen Idealize.ShloMosaic Idealize.ShloMosaic.TcCoe Idealize.SL.Sem
open Idealize.ShloMosaic.Tactic
open Cert.Lib.WholeBuffer (zeros2 zeros3 readAt_whole)

/-- A load through the whole rectangle, after a store through the whole rectangle on top of any earlier stores,
    reads that store's payload. -/
theorem readCov_whole_cons {sig : RefSig} {κ : Kind} {sp : Space} {Val : EltTy → Type} {S : Shape} {e : EltTy}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

variable {F : FTy → Type} [FloatOps F]

/-- Sample j of a staged block of four samples: the slice [j : j + 1, all channels, all pixels]. -/
abbrev smp0 (x : Vec F S4x256x3136 .f32) : Vec F S1x256x3136 .f32 :=
  View.ld x (Rect.unit (s := S4x256x3136) ![0, 0, 0] S1x256x3136.size inb_S4x256x3136_S1x256x3136_0_0_0)
abbrev smp1 (x : Vec F S4x256x3136 .f32) : Vec F S1x256x3136 .f32 :=
  View.ld x (Rect.unit (s := S4x256x3136) ![1, 0, 0] S1x256x3136.size inb_S4x256x3136_S1x256x3136_1_0_0)
abbrev smp2 (x : Vec F S4x256x3136 .f32) : Vec F S1x256x3136 .f32 :=
  View.ld x (Rect.unit (s := S4x256x3136) ![2, 0, 0] S1x256x3136.size inb_S4x256x3136_S1x256x3136_2_0_0)
abbrev smp3 (x : Vec F S4x256x3136 .f32) : Vec F S1x256x3136 .f32 :=
  View.ld x (Rect.unit (s := S4x256x3136) ![3, 0, 0] S1x256x3136.size inb_S4x256x3136_S1x256x3136_3_0_0)

/-- One sample's update of the first accumulator: the accumulator plus the sample's pixel sums, channel by channel. -/
abbrev addSum (v : Vec F S1x256x3136 .f32) (acc : Vec F S4x64 .f32) : FVec F S4x64 .f32 := k0_pay5 v acc
/-- One sample's update of the second accumulator: the accumulator plus, within each channel group, the products of
    two channels summed over the pixels. -/
abbrev addGram (v : Vec F S1x256x3136 .f32) (acc : Vec F S4x64x64 .f32) : FVec F S4x64x64 .f32 := k0_pay6 v acc

/-- Four samples' updates, first to last. -/
abbrev addSum4 (x : Vec F S4x256x3136 .f32) (acc : Vec F S4x64 .f32) : FVec F S4x64 .f32 :=
  addSum (smp3 x) (addSum (smp2 x) (addSum (smp1 x) (addSum (smp0 x) acc)))
abbrev addGram4 (x : Vec F S4x256x3136 .f32) (acc : Vec F S4x64x64 .f32) : FVec F S4x64x64 .f32 :=
  addGram (smp3 x) (addGram (smp2 x) (addGram (smp1 x) (addGram (smp0 x) acc)))

/-- On a later grid point the first accumulator ends at four updates of its running contents. -/
theorem out_B_1 (c : Dev nD) (i : grid0.Coords) (a1 : Memref sig .tc .vmem S4x256x3136 .f32) (h1 : a1.IsWhole)
    (a2 : Memref sig .tc .vmem S4x64 .f32) (h2 : a2.IsWhole) (a3 : Memref sig .tc .vmem S4x64x64 .f32) (h3 : a3.IsWhole)
    (hc : ¬cond0_0 i) (x : Vec F S4x256x3136 .f32) (xo1 : Vec F S4x64 .f32) (xo2 : Vec F S4x64x64 .f32) :
    out0_B_1 c i a1 h1 a2 h2 a3 h3 hc x xo1 xo2 = addSum4 x xo1 := by
  unfold out0_B_1
  rw [View.read_writes_eq_canon _ _ _ (cover0_B_1 c i a1 h1 a2 h2 a3 h3 hc x xo1 xo2)]
  unfold kernelRun0_B
  dsimp only
  sl_unfold_words
  rw [View.canon_cons_unit_zero (S := S4x64) zeros2]
  simp only [readCov_whole_cons (S := S4x64) _ zeros2, readAt_whole a2 h2 zeros2, View.readAt_eq_ld, h1.read_unread]
  rfl

/-- On a later grid point the second accumulator ends at four updates of its running contents. -/
theorem out_B_2 (c : Dev nD) (i : grid0.Coords) (a1 : Memref sig .tc .vmem S4x256x3136 .f32) (h1 : a1.IsWhole)
    (a2 : Memref sig .tc .vmem S4x64 .f32) (h2 : a2.IsWhole) (a3 : Memref sig .tc .vmem S4x64x64 .f32) (h3 : a3.IsWhole)
    (hc : ¬cond0_0 i) (x : Vec F S4x256x3136 .f32) (xo1 : Vec F S4x64 .f32) (xo2 : Vec F S4x64x64 .f32) :
    out0_B_2 c i a1 h1 a2 h2 a3 h3 hc x xo1 xo2 = addGram4 x xo2 := by
  unfold out0_B_2
  rw [View.read_writes_eq_canon _ _ _ (cover0_B_2 c i a1 h1 a2 h2 a3 h3 hc x xo1 xo2)]
  unfold kernelRun0_B
  dsimp only
  sl_unfold_words
  rw [View.canon_cons_unit_zero (S := S4x64x64) zeros3]
  simp only [readCov_whole_cons (S := S4x64x64) _ zeros3, readAt_whole a3 h3 zeros3, View.readAt_eq_ld, h1.read_unread]
  rfl

/-- On the first grid point the first accumulator ends at four updates of the zero block. -/
theorem out_A_1 (c : Dev nD) (i : grid0.Coords) (a1 : Memref sig .tc .vmem S4x256x3136 .f32) (h1 : a1.IsWhole)
    (a2 : Memref sig .tc .vmem S4x64 .f32) (h2 : a2.IsWhole) (a3 : Memref sig .tc .vmem S4x64x64 .f32) (h3 : a3.IsWhole)
    (hc : cond0_0 i) (x : Vec F S4x256x3136 .f32) :
    out0_A_1 c i a1 h1 a2 h2 a3 h3 hc x = addSum4 x (k0_pay2 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S4x64) zeros2]
  simp only [readCov_whole_cons (S := S4x64) _ zeros2, View.readCov_unit_zero (S := S4x64) _ zeros2, View.readAt_eq_ld, h1.read_unread]
  rfl

/-- On the first grid point the second accumulator ends at four updates of the zero block. -/
theorem out_A_2 (c : Dev nD) (i : grid0.Coords) (a1 : Memref sig .tc .vmem S4x256x3136 .f32) (h1 : a1.IsWhole)
    (a2 : Memref sig .tc .vmem S4x64 .f32) (h2 : a2.IsWhole) (a3 : Memref sig .tc .vmem S4x64x64 .f32) (h3 : a3.IsWhole)
    (hc : cond0_0 i) (x : Vec F S4x256x3136 .f32) :
    out0_A_2 c i a1 h1 a2 h2 a3 h3 hc x = addGram4 x (k0_pay3 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S4x64x64) zeros3]
  simp only [readCov_whole_cons (S := S4x64x64) _ zeros3, View.readCov_unit_zero (S := S4x64x64) _ zeros3, View.readAt_eq_ld, h1.read_unread]
  rfl

end Cert.KernelIdeal.Stats

end
-- ==== Proof.LibLanes3.lean ====
/-
  A reduction over the last axis of a rank-3 vector, read at an index of the rank-2 result.

  * `multiReduction_add_lanes3_apply`: the sum over the last axis of an `[a, b, c]` vector, read at `(p, q)`, is
    `∑ k : Fin c, src (p, q, k)`;
  * `multiReduction_maximumf_lanes3_apply`: the maximum over the last axis, read at `(p, q)`, is the fold of `max`
    from the accumulator's value over `k : Fin c` of `src (p, q, k)`.
  Both hold for any extents and any float format: they are the one-axis readings of the ideal values' reductions with the
  inserted index spelt by its three coordinates.
-/
import Idealize.ShloMosaic.Lib.ValueIdx
import Idealize.ShloMosaic.PureOps.Ideal.Laws

noncomputable section

open scoped BigOperators

namespace Cert.LibLanes3

open Idealize.ShloMosaic Idealize.ShloMosaic.ValueIdx

/-- The index a last-axis reduction of a rank-3 shape inserts coordinate `k` into, at `(p, q)`, is `(p, q, k)`. -/
theorem lift_lanes3 {a b c : ℕ} (h : (⟨3, ![a, b, c]⟩ : Shape).Reduces [2] ⟨2, ![a, b]⟩) (p : Fin a) (q : Fin b)
    (k : Fin c) : h.lift (ix2 p q) k = ix3 p q k :=
  funext fun ax => Fin.ext (by match ax with | ⟨0, _⟩ => rfl | ⟨1, _⟩ => rfl | ⟨2, _⟩ => rfl)

/-- The sum over the last axis of an `[a, b, c]` vector, read at `(p, q)`: `∑ k, src (p, q, k)`. -/
theorem multiReduction_add_lanes3_apply {a b c : ℕ} {φ : FTy} (src : FVec Ideal ⟨3, ![a, b, c]⟩ φ)
    (acc : BitVec φ.bits) (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_lanes3 h p q k))

/-- The maximum over the last axis of an `[a, b, c]` vector, read at `(p, q)`: the fold of `max` from the
    accumulator's value over `k` of `src (p, q, k)`. -/
theorem multiReduction_maximumf_lanes3_apply {a b c : ℕ} {φ : FTy} (src : FVec Ideal ⟨3, ![a, b, c]⟩ φ)
    (acc : BitVec φ.bits) (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (FloatOps.ofBits φ acc) (fun k => src (ix3 p q k)) :=
  (Ideal.multiReduction_maximumf_single src acc h hφ hacc (ix2 p q)).trans
    (congrArg (fun f => (Finset.univ : Finset (Fin c)).fold max (FloatOps.ofBits φ acc) f)
      (funext fun k => congrArg src (lift_lanes3 h p q k)))

end Cert.LibLanes3

end
-- ==== Proof.LibLayout3.lean ====
/-
  Layout steps of rank-3 vectors read at an index written by its coordinates, and a one-axis contraction re-indexed by
  its coordinate.

  * `shapeCast_keep_apply`: an `[a, b]` vector cast to `[a, b, 1]` reads, at `(i, j, u)`, the operand at `(i, j)`;
  * `broadcastTo_lanes_apply`: an `[a, b, 1]` vector broadcast to `[a, b, c]` reads, at `(i, j, k)`, the operand at `(i, j, 0)`;
  * `transpose_swap01_apply`: an `[m, a, b]` vector with its first two axes swapped reads, at `(i, k, j)`, the operand
    at `(k, i, j)`;
  * `matmul_zero_reindex`: a matrix product into the zero accumulator whose dimension numbers contract ONE axis of
    extent `K`, read at an index `j`, is `∑ k : Fin K, lhs (li k) * rhs (ri k)` for any description `li`, `ri` of the
    two operand indices at contraction coordinate `k`.
  The first three hold for any extents and element type; the last for any shapes and float formats.
-/
import Idealize.ShloMosaic.Lib.ValueIdx
import Idealize.ShloMosaic.Lib.Pipeline.Value
import Idealize.ShloMosaic.PureOps.Ideal.Laws

noncomputable section

open scoped BigOperators

namespace Cert.LibLayout3

open Idealize.ShloMosaic Idealize.ShloMosaic.ValueIdx

variable {α : Type}

/-- An `[a, b]` vector cast to `[a, b, 1]` reads, at `(i, j, u)`, the operand at `(i, j)`: the unit coordinate is `0`, so
    the two row-major positions are the same number. -/
theorem shapeCast_keep_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    show i.val * b + j.val = (i.val * b + j.val) * 1 + u.val
    have hu : u.val = 0 := by omega
    omega)

/-- An `[a, b, 1]` vector broadcast to `[a, b, c]` reads, at `(i, j, k)`, the operand at `(i, j, 0)`. -/
theorem broadcastTo_lanes_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    have := i.isLt
    split <;> omega
  | ⟨1, _⟩ =>
    show j.val = if b = 1 then 0 else j.val
    have := j.isLt
    split <;> omega
  | ⟨2, _⟩ =>
    show (0 : ℕ) = if (1 : ℕ) = 1 then 0 else k.val
    rw [if_pos rfl]

/-- An `[m, a, b]` vector with its first two axes swapped (permutation `[1, 0, 2]`) reads, at `(i, k, j)`, the operand at
    `(k, i, j)`. -/
theorem transpose_swap01_apply {m a b : ℕ} (x : (⟨3, ![m, a, b]⟩ : Shape).Idx → α)
    (h : (⟨3, ![m, a, b]⟩ : Shape).Transposes [1, 0, 2] ⟨3, ![a, m, b]⟩) (i : Fin a) (k : Fin m) (j : Fin b) :
    transpose ⟨3, ![a, m, b]⟩ [1, 0, 2] x h (ix3 i k j) = x (ix3 k i j) :=
  transpose_apply _ x h _ _ fun c => match c with | ⟨0, _⟩ => rfl | ⟨1, _⟩ => rfl | ⟨2, _⟩ => rfl

/-- A matrix product into the zero accumulator, with ONE contracted axis of extent `K`, read at `j`: the sum over the
    contraction coordinate `k` of the operands' products at the indices `li k`, `ri k` that the dimension numbers give
    there (`hl`, `hr`). -/
theorem matmul_zero_reindex {sl sr so : Shape} {φ₁ φ₂ : FTy} (D : DotDims sl sr so) (prec : Option ContractPrecision)
    (K : ℕ) (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibLayout3

end
-- ==== Proof.StatsPoint.lean ====
/-
  The statistics body's arithmetic read at an index, over the extended reals.

  A sample's slice x[1, 256, 3136] is recast to [4, 64, 3136]: entry (g, d, s) is channel 64 g + d at pixel s (both
  casts keep the row-major position). One sample's update of the first accumulator adds, at (g, d), the sum over the
  3136 pixels of that channel; its update of the second accumulator adds, at (g, d, e), the sum over the pixels of
  the product of channels 64 g + d and 64 g + e (the matrix product of the recast slice with its own transpose, group
  by group, into a zero accumulator). A slice of a block of four samples reads the block at its sample.
-/
import proofs.«147816_j11527692222570_1_alg».proof.Proof.Gen.KernelIdeal.Skeleton
import proofs.«147816_j11527692222570_1_alg».proof.Proof.Spec
import proofs.«147816_j11527692222570_1_alg».proof.Proof.LibLanes3
import proofs.«147816_j11527692222570_1_alg».proof.Proof.LibLayout3
import Idealize.ShloMosaic.Lib.ValueIdx
import Idealize.ShloMosaic.Lib.Pipeline.Value
import Idealize.ShloMosaic.PureOps.Ideal.Laws

noncomputable section

open scoped BigOperators

namespace Cert.KernelIdeal.Stats

open Cert.KernelIdeal Cert.KernelIdeal.Gen Cert.Whiten Idealize.ShloMosaic Idealize.ShloMosaic.ValueIdx

/-- Sample j of a block of four samples, loaded as a [1, 256, 3136] slice, reads the block at (j, channel, pixel). -/
theorem ld_sample {Val : EltTy → Type} {e : EltTy} (x : S4x256x3136.Idx → Val e) (j : Fin 4) (off : Fin 3 → Nat) (hoff : off = ![j.val, 0, 0])
    (inb : ∀ a, off a + S1x256x3136.size a ≤ S4x256x3136.size a) (ch : Fin 256) (s : Fin 3136) :
    View.ld x (Rect.unit (s := S4x256x3136) off S1x256x3136.size inb) (ix3 (0 : Fin 1) ch s) = x (ix3 j ch s) := by
  subst hoff
  show x ((Rect.unit (s := S4x256x3136) ![j.val, 0, 0] S1x256x3136.size inb).idx (ix3 (0 : Fin 1) ch s)) = x (ix3 j ch s)
  refine congrArg x (funext fun a => Fin.ext ?_)
  match a with
  | ⟨0, _⟩ => show j.val + 1 * 0 = j.val; omega
  | ⟨1, _⟩ => show 0 + 1 * ch.val = ch.val; omega
  | ⟨2, _⟩ => show 0 + 1 * s.val = s.val; omega

/-- The recast slice at (g, d, s) is the slice at channel 64 g + d, pixel s. -/
theorem pay4_apply (v : Vec Ideal S1x256x3136 .f32) (g : Fin 4) (d : Fin 64) (s : Fin 3136) :
    k0_pay4 (F := Ideal) v (ix3 g d s) = v (ix3 (0 : Fin 1) (chan g d) s) := by
  unfold k0_pay4
  refine (shapeCast_apply _ shapeCasts_S256x3136_S4x64x3136 (ix3 g d s) (ix2 (chan g d) s) ?_).trans
    (shapeCast_apply v shapeCasts_S1x256x3136_S256x3136 (ix2 (chan g d) s) (ix3 (0 : Fin 1) (chan g d) s) ?_)
  · rw [Shape.rowMajor_val_two, Shape.rowMajor_val_three]
    show (64 * g.val + d.val) * 3136 + s.val = (g.val * 64 + d.val) * 3136 + s.val
    omega
  · rw [Shape.rowMajor_val_three, Shape.rowMajor_val_two]
    show (0 * 256 + (64 * g.val + d.val)) * 3136 + s.val = (64 * g.val + d.val) * 3136 + s.val
    omega

/-- One sample's update of the first accumulator, at (g, d): the accumulator there plus the channel's sum over the pixels. -/
theorem pay5_apply (v : Vec Ideal S1x256x3136 .f32) (acc : Vec Ideal S4x64 .f32) (g : Fin 4) (d : Fin 64) :
    k0_pay5 (F := Ideal) v acc (ix2 g d) = acc (ix2 g d) + ∑ s : Fin 3136, v (ix3 (0 : Fin 1) (chan g d) s) := by
  unfold k0_pay5
  exact congrArg₂ (· + ·) (congrFun (shapeCast_self acc shapeCasts_S4x64_S4x64) (ix2 g d))
    ((LibLanes3.multiReduction_add_lanes3_apply (k0_pay4 (F := Ideal) v) 0x00000000#32 reduces_S4x64x3136_S4x64
        (.inl rfl) rfl g d).trans (Finset.sum_congr rfl fun s _ => pay4_apply v g d s))

/-- The two operand indices of the product of the recast slice with its transpose, at contraction coordinate k. -/
theorem gram_lhsIdx (g : Fin 4) (d e : Fin 64) (k : Fin 3136) :
    dot_S4x64x3136_S4x64x3136_S4x64x64_2_2_1_1_0_0.lhsIdx (ix3 g d e)
      ((contrEquiv1 dot_S4x64x3136_S4x64x3136_S4x64x64_2_2_1_1_0_0 3136 rfl rfl).symm k) = ix3 g d k := by
  have c3 := contrEquiv1_symm_val dot_S4x64x3136_S4x64x3136_S4x64x64_2_2_1_1_0_0 3136 rfl rfl k
  funext ax; apply Fin.ext
  match ax with
  | ⟨0, _⟩ => simp [DotDims.lhsIdx, dot_S4x64x3136_S4x64x3136_S4x64x64_2_2_1_1_0_0]; rfl
  | ⟨1, _⟩ => simp [DotDims.lhsIdx, dot_S4x64x3136_S4x64x3136_S4x64x64_2_2_1_1_0_0]; rfl
  | ⟨2, _⟩ => simp [DotDims.lhsIdx, dot_S4x64x3136_S4x64x3136_S4x64x64_2_2_1_1_0_0]; exact c3

theorem gram_rhsIdx (g : Fin 4) (d e : Fin 64) (k : Fin 3136) :
    dot_S4x64x3136_S4x64x3136_S4x64x64_2_2_1_1_0_0.rhsIdx (ix3 g d e)
      ((contrEquiv1 dot_S4x64x3136_S4x64x3136_S4x64x64_2_2_1_1_0_0 3136 rfl rfl).symm k) = ix3 g e k := by
  have c3 := contrEquiv1_symm_val dot_S4x64x3136_S4x64x3136_S4x64x64_2_2_1_1_0_0 3136 rfl rfl k
  funext ax; apply Fin.ext
  match ax with
  | ⟨0, _⟩ => simp [DotDims.rhsIdx, dot_S4x64x3136_S4x64x3136_S4x64x64_2_2_1_1_0_0]; rfl
  | ⟨1, _⟩ => simp [DotDims.rhsIdx, dot_S4x64x3136_S4x64x3136_S4x64x64_2_2_1_1_0_0]; rfl
  | ⟨2, _⟩ => simp [DotDims.rhsIdx, dot_S4x64x3136_S4x64x3136_S4x64x64_2_2_1_1_0_0]; exact c3

/-- One sample's update of the second accumulator, at (g, d, e): the accumulator there plus the sum over the pixels of
    the product of channels 64 g + d and 64 g + e. -/
theorem pay6_apply (v : Vec Ideal S1x256x3136 .f32) (acc : Vec Ideal S4x64x64 .f32) (g : Fin 4) (d e : Fin 64) :
    k0_pay6 (F := Ideal) v acc (ix3 g d e)
      = acc (ix3 g d e) + ∑ s : Fin 3136, v (ix3 (0 : Fin 1) (chan g d) s) * v (ix3 (0 : Fin 1) (chan g e) s) := by
  unfold k0_pay6
  exact congrArg₂ (· + ·) (congrFun (shapeCast_self acc shapeCasts_S4x64x64_S4x64x64) (ix3 g d e))
    ((LibLayout3.matmul_zero_reindex dot_S4x64x3136_S4x64x3136_S4x64x64_2_2_1_1_0_0 none 3136 rfl rfl
        (k0_pay4 (F := Ideal) v) (k0_pay4 (F := Ideal) v) (ix3 g d e) (fun k => ix3 g d k) (fun k => ix3 g e k)
        (gram_lhsIdx g d e) (gram_rhsIdx g d e)).trans
      (Finset.sum_congr rfl fun s _ => congrArg₂ (· * ·) (pay4_apply v g d s) (pay4_apply v g e s)))

/-- The zero blocks the first grid point stores read 0 everywhere. -/
theorem pay2_apply (i : S4x64.Idx) : k0_pay2 (F := Ideal) i = 0 := Ideal.ofBits_zero_f32
theorem pay3_apply (i : S4x64x64.Idx) : k0_pay3 (F := Ideal) i = 0 := Ideal.ofBits_zero_f32

end Cert.KernelIdeal.Stats

end
-- ==== Proof.LibBlockedSum.lean ====
/-
  Blocked sums. A reduction over `Fin K` carried out block by block — `B` consecutive terms at a time, each block added to
  what the blocks before it made — is, after `r` blocks, the sum of the first `B · r` terms. To state "the first `n`
  terms" without a proof that `n ≤ K` in the index, a family `f : Fin K → α` is extended by zero past `K` (`ext f`) and
  summed over `Finset.range n`. Then: the whole range is the sum over `Fin K` (`sum_ext`); block `r` read through its own
  coordinates `k : Fin B` at positions `B · r + k` is a range sum of the extension (`sum_block`); and a prefix of `r + 1`
  blocks is the prefix of `r` blocks plus block `r` (`prefix_succ`). In any additive commutative monoid, any `K`, `B`.
-/
import Mathlib.Algebra.BigOperators.Fin
import Mathlib.Algebra.BigOperators.Group.Finset.Basic

noncomputable section

open scoped BigOperators
open Finset

namespace Cert.LibBlockedSum

variable {α : Type*} [AddCommMonoid α]

/-- A family over `Fin K`, extended by zero to every natural number. -/
def ext {K : ℕ} (f : Fin K → α) (i : ℕ) : α := if h : i < K then f ⟨i, h⟩ else 0

theorem ext_of_lt {K : ℕ} (f : Fin K → α) {i : ℕ} (h : i < K) : ext f i = f ⟨i, h⟩ := dif_pos h

/-- The whole range: the sum over `Fin K`. -/
theorem sum_ext {K : ℕ} (f : Fin K → α) : ∑ i ∈ range K, ext f i = ∑ i : Fin K, f i := by
  rw [Finset.sum_range]; exact Finset.sum_congr rfl fun i _ => ext_of_lt f i.isLt

/-- Block `r`, read through its own coordinates. -/
theorem sum_block {K B : ℕ} (f : Fin K → α) (r : ℕ) (hb : ∀ k : Fin B, B * r + k.val < K) :
    ∑ k : Fin B, f ⟨B * r + k.val, hb k⟩ = ∑ k ∈ range B, ext f (B * r + k) := by
  rw [Finset.sum_range]; exact Finset.sum_congr rfl fun k _ => (ext_of_lt f (hb k)).symm

/-- A prefix of `r + 1` blocks is the prefix of `r` blocks plus block `r`. -/
theorem prefix_succ (g : ℕ → α) (B r : ℕ) :
    ∑ i ∈ range (B * (r + 1)), g i = ∑ i ∈ range (B * r), g i + ∑ k ∈ range B, g (B * r + k) := by
  rw [Nat.mul_succ, Finset.sum_range_add]

end Cert.LibBlockedSum

end
-- ==== Proof.Stats.lean ====
/-
  What the first region of the program leaves in its two result arrays, over the extended reals.

  The region runs the statistics body at 8 grid points; point t stages samples 4 t, …, 4 t + 3 of the input
  x[32, 256, 3136], and the two results — S[4, 64] and G[4, 64, 64] — are one block each, carried from point to point and
  written back after the last. With x[n, g, d, s] the entry of sample n at channel 64 g + d and pixel s:

    S[g, d]    = Σ over all 32 samples n and 3136 pixels s of x[n, g, d, s],
    G[g, d, e] = Σ over n and s of x[n, g, d, s] · x[n, g, e, s].

  After point t the accumulators hold these sums restricted to the samples n < 4 (t + 1): the first point starts from
  zero blocks, each later point from what the point before left, and each adds its own four samples. Sums over the
  first 4 (t + 1) samples are written as range sums of the per-sample terms extended by zero, so the step from t to
  t + 1 is the splitting of a range sum, and after the last point the range is all 32 samples.
-/
import proofs.«147816_j11527692222570_1_alg».proof.Proof.StatsPieces
import proofs.«147816_j11527692222570_1_alg».proof.Proof.StatsPoint
import proofs.«147816_j11527692222570_1_alg».proof.Proof.LibBlockedSum
import proofs.«147816_j11527692222570_1_alg».proof.Proof.Spec
import Idealize.ShloMosaic.Lib.Pipeline.Value

noncomputable section

open scoped BigOperators

namespace Cert.KernelIdeal.Stats

open Cert.KernelIdeal Cert.KernelIdeal.Gen Cert.Whiten Idealize.ShloMosaic Idealize.ShloMosaic.ValueIdx
open Idealize.ShloMosaic.TcCoe Idealize.SL.Sem
open Idealize.ShloMosaic.Pipeline (Dat)
open Cert.Lib.WholeBuffer (zeros2 zeros3)
open Cert.LibBlockedSum (ext)

/-! ## Every float instance: the accumulators point by point, and the result arrays -/

section AnyInstance

variable {F : FTy → Type} [FloatOps F]
variable (V : (c : Dev nD) → (b : Ref sig .tc) → Buf (Elt F) ((c : Thread nD τ).loc b))

/-- On the first point the first accumulator ends at four updates of the zero block; -/
theorem outs1_first (c : Dev nD) (t : Fin cfg0.N) (h0 : t.val % 8 = 0) :
    (outsAt0 V c t.val t.isLt).1 = addSum4 (iblk0 V c 0 t) (k0_pay2 (F := F)) := by
  rw [outsAt0_A V c t h0]
  exact out_A_1 c (grid0.coords t) (ms0_0 t) (hs0_0 t) (ms0_1 t) (hs0_1 t) (ms0_2 t) (hs0_2 t) ((hcond0_0 t).mpr h0)
    (iblk0 V c 0 t)

/-- on a later point, at four updates of what the point before left. -/
theorem outs1_later (c : Dev nD) (t : Fin cfg0.N) (h0 : ¬t.val % 8 = 0) :
    (outsAt0 V c t.val t.isLt).1
      = addSum4 (iblk0 V c 0 t) (outsAt0 V c (t.val - 1) (Nat.lt_of_le_of_lt (Nat.sub_le _ _) t.isLt)).1 := by
  rw [outsAt0_B V c t h0]
  exact out_B_1 c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2

/-- The same for the second accumulator. -/
theorem outs2_first (c : Dev nD) (t : Fin cfg0.N) (h0 : t.val % 8 = 0) :
    (outsAt0 V c t.val t.isLt).2 = addGram4 (iblk0 V c 0 t) (k0_pay3 (F := F)) := by
  rw [outsAt0_A V c t h0]
  exact out_A_2 c (grid0.coords t) (ms0_0 t) (hs0_0 t) (ms0_1 t) (hs0_1 t) (ms0_2 t) (hs0_2 t) ((hcond0_0 t).mpr h0)
    (iblk0 V c 0 t)

theorem outs2_later (c : Dev nD) (t : Fin cfg0.N) (h0 : ¬t.val % 8 = 0) :
    (outsAt0 V c t.val t.isLt).2
      = addGram4 (iblk0 V c 0 t) (outsAt0 V c (t.val - 1) (Nat.lt_of_le_of_lt (Nat.sub_le _ _) t.isLt)).2 := by
  rw [outsAt0_B V c t h0]
  exact out_B_2 c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2

theorem seven_lt : 7 < cfg0.N := by rw [show cfg0.N = 8 from N_0]; decide

/-- What the accumulators hold after the last point, as contents of the two result arrays (each array is one block). -/
abbrev last1 (c : Dev nD) : Buf (Elt F) ((c : Thread nD τ).loc main_v1_0) := (outsAt0 V c 7 seven_lt).1
abbrev last2 (c : Dev nD) : Buf (Elt F) ((c : Thread nD τ).loc main_v1_1) := (outsAt0 V c 7 seven_lt).2

/-- The one write-back of the first result, after the last point, writes the first accumulator: its block, read
    through zero offsets, is the whole array. -/
theorem flushed1_eq (c : Dev nD) (t : Fin cfg0.N) (hf : (cfg0.win 1).flush t = true) :
    (dat0 V c).flushed 1 t = ((cfg0.win 1).blk t).view.read (Elt F) (last1 V c) := by
  have hN : cfg0.N = 8 := N_0
  have h7 : t.val = 7 := by have := (flush0_1 t).mp hf; have := t.isLt; omega
  obtain rfl : t = t0_7 := Fin.ext h7
  show (cfg0.win 1).cut (grid0.coords t0_7) ((dat0 V c).after 1 t0_7) = _
  rw [after0_1]
  have hz' : (fun a => win0_1.index t0_7 a * main_v1_0.ty.shape.size a) = fun _ => 0 :=
    funext fun a => by fin_cases a <;> decide
  exact (Memref.read_access_unit_zero (Elt F) main_v1_0 hz' (fun a => by rw [congrFun hz' a]; simp) (last1 V c)).symm

theorem flushed2_eq (c : Dev nD) (t : Fin cfg0.N) (hf : (cfg0.win 2).flush t = true) :
    (dat0 V c).flushed 2 t = ((cfg0.win 2).blk t).view.read (Elt F) (last2 V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2]
  have hz' : (fun a => win0_2.index t0_7 a * main_v1_1.ty.shape.size a) = fun _ => 0 :=
    funext fun a => by fin_cases a <;> decide
  exact (Memref.read_access_unit_zero (Elt F) main_v1_1 hz' (fun a => by rw [congrFun hz' a]; simp) (last2 V c)).symm

/-- So the first result array ends holding the first accumulator after the last point: that point's block covers it. -/
theorem final1 (c : Dev nD) : (dat0 V c).arrAt 1 cfg0.N = last1 V c :=
  (dat0 V c).arrAt_eq_of_cover 1 (last1 V c) (flushed1_eq V c) fun i =>
    ⟨t0_7, (flush0_1 t0_7).mpr rfl, by
      show i ∈ ((View.whole main_v1_0).slice (win0_1.rect t0_7)).set
      rw [View.set_slice_whole, Rect.mem_set_unit]
      intro a
      have h0 : (i 0 : Nat) < 4 := (i 0).isLt
      have h1 : (i 1 : Nat) < 64 := (i 1).isLt
      match a with
      | ⟨0, _⟩ =>
        show win0_1.index t0_7 0 * win0_1.size 0 ≤ (i 0 : Nat)
          ∧ (i 0 : Nat) < win0_1.index t0_7 0 * win0_1.size 0 + win0_1.xsize (grid0.coords t0_7) 0
        rw [show win0_1.index t0_7 0 * win0_1.size 0 = 0 from by decide +kernel,
          show win0_1.xsize (grid0.coords t0_7) 0 = 4 from by decide +kernel]; omega
      | ⟨1, _⟩ =>
        show win0_1.index t0_7 1 * win0_1.size 1 ≤ (i 1 : Nat)
          ∧ (i 1 : Nat) < win0_1.index t0_7 1 * win0_1.size 1 + win0_1.xsize (grid0.coords t0_7) 1
        rw [show win0_1.index t0_7 1 * win0_1.size 1 = 0 from by decide +kernel,
          show win0_1.xsize (grid0.coords t0_7) 1 = 64 from by decide +kernel]; omega⟩

/-- And the second result array ends holding the second accumulator after the last point. -/
theorem final2 (c : Dev nD) : (dat0 V c).arrAt 2 cfg0.N = last2 V c :=
  (dat0 V c).arrAt_eq_of_cover 2 (last2 V c) (flushed2_eq V c) fun i =>
    ⟨t0_7, (flush0_2 t0_7).mpr rfl, by
      show i ∈ ((View.whole main_v1_1).slice (win0_2.rect t0_7)).set
      rw [View.set_slice_whole, Rect.mem_set_unit]
      intro a
      have h0 : (i 0 : Nat) < 4 := (i 0).isLt
      have h1 : (i 1 : Nat) < 64 := (i 1).isLt
      have h2 : (i 2 : Nat) < 64 := (i 2).isLt
      match a with
      | ⟨0, _⟩ =>
        show win0_2.index t0_7 0 * win0_2.size 0 ≤ (i 0 : Nat)
          ∧ (i 0 : Nat) < win0_2.index t0_7 0 * win0_2.size 0 + win0_2.xsize (grid0.coords t0_7) 0
        rw [show win0_2.index t0_7 0 * win0_2.size 0 = 0 from by decide +kernel,
          show win0_2.xsize (grid0.coords t0_7) 0 = 4 from by decide +kernel]; omega
      | ⟨1, _⟩ =>
        show win0_2.index t0_7 1 * win0_2.size 1 ≤ (i 1 : Nat)
          ∧ (i 1 : Nat) < win0_2.index t0_7 1 * win0_2.size 1 + win0_2.xsize (grid0.coords t0_7) 1
        rw [show win0_2.index t0_7 1 * win0_2.size 1 = 0 from by decide +kernel,
          show win0_2.xsize (grid0.coords t0_7) 1 = 64 from by decide +kernel]; omega
      | ⟨2, _⟩ =>
        show win0_2.index t0_7 2 * win0_2.size 2 ≤ (i 2 : Nat)
          ∧ (i 2 : Nat) < win0_2.index t0_7 2 * win0_2.size 2 + win0_2.xsize (grid0.coords t0_7) 2
        rw [show win0_2.index t0_7 2 * win0_2.size 2 = 0 from by decide +kernel,
          show win0_2.xsize (grid0.coords t0_7) 2 = 64 from by decide +kernel]; omega⟩

end AnyInstance

/-! ## Over the extended reals: the sums -/

variable (V : (c : Dev nD) → (b : Ref sig .tc) → Buf (Elt Ideal) ((c : Thread nD τ).loc b))

/-- The input x[n, ch, s] on core c, as an extended-real function of its index. -/
abbrev xin (c : Dev nD) : S32x256x3136.Idx → EReal := V c main_v0

/-- Sample n's contribution to S[g, d], and to G[g, d, e]. -/
def sx (c : Dev nD) (g : Fin 4) (d : Fin 64) (n : Fin 32) : EReal := ∑ s : Fin 3136, xin V c (ix3 n (chan g d) s)
def sxx (c : Dev nD) (g : Fin 4) (d e : Fin 64) (n : Fin 32) : EReal :=
  ∑ s : Fin 3136, xin V c (ix3 n (chan g d) s) * xin V c (ix3 n (chan g e) s)

/-- Four updates of the first accumulator by the four samples of a block, at (g, d). -/
theorem addSum4_apply (x : Vec Ideal S4x256x3136 .f32) (acc : Vec Ideal S4x64 .f32) (g : Fin 4) (d : Fin 64) :
    addSum4 x acc (ix2 g d) = acc (ix2 g d) + ∑ j : Fin 4, ∑ s : Fin 3136, x (ix3 j (chan g d) s) := by
  have e0 : ∀ s, smp0 x (ix3 (0 : Fin 1) (chan g d) s) = x (ix3 (0 : Fin 4) (chan g d) s) :=
    fun s => ld_sample x 0 _ rfl _ (chan g d) s
  have e1 : ∀ s, smp1 x (ix3 (0 : Fin 1) (chan g d) s) = x (ix3 (1 : Fin 4) (chan g d) s) :=
    fun s => ld_sample x 1 _ rfl _ (chan g d) s
  have e2 : ∀ s, smp2 x (ix3 (0 : Fin 1) (chan g d) s) = x (ix3 (2 : Fin 4) (chan g d) s) :=
    fun s => ld_sample x 2 _ rfl _ (chan g d) s
  have e3 : ∀ s, smp3 x (ix3 (0 : Fin 1) (chan g d) s) = x (ix3 (3 : Fin 4) (chan g d) s) :=
    fun s => ld_sample x 3 _ rfl _ (chan g d) s
  show k0_pay5 (F := Ideal) (smp3 x) (k0_pay5 (F := Ideal) (smp2 x) (k0_pay5 (F := Ideal) (smp1 x)
    (k0_pay5 (F := Ideal) (smp0 x) acc))) (ix2 g d) = _
  rw [pay5_apply, pay5_apply, pay5_apply, pay5_apply, Fin.sum_univ_four]
  simp only [e0, e1, e2, e3, add_assoc]

/-- Four updates of the second accumulator by the four samples of a block, at (g, d, e). -/
theorem addGram4_apply (x : Vec Ideal S4x256x3136 .f32) (acc : Vec Ideal S4x64x64 .f32) (g : Fin 4) (d e : Fin 64) :
    addGram4 x acc (ix3 g d e)
      = acc (ix3 g d e) + ∑ j : Fin 4, ∑ s : Fin 3136, x (ix3 j (chan g d) s) * x (ix3 j (chan g e) s) := by
  have e0 : ∀ (ch : Fin 256) s, smp0 x (ix3 (0 : Fin 1) ch s) = x (ix3 (0 : Fin 4) ch s) :=
    fun ch s => ld_sample x 0 _ rfl _ ch s
  have e1 : ∀ (ch : Fin 256) s, smp1 x (ix3 (0 : Fin 1) ch s) = x (ix3 (1 : Fin 4) ch s) :=
    fun ch s => ld_sample x 1 _ rfl _ ch s
  have e2 : ∀ (ch : Fin 256) s, smp2 x (ix3 (0 : Fin 1) ch s) = x (ix3 (2 : Fin 4) ch s) :=
    fun ch s => ld_sample x 2 _ rfl _ ch s
  have e3 : ∀ (ch : Fin 256) s, smp3 x (ix3 (0 : Fin 1) ch s) = x (ix3 (3 : Fin 4) ch s) :=
    fun ch s => ld_sample x 3 _ rfl _ ch s
  show k0_pay6 (F := Ideal) (smp3 x) (k0_pay6 (F := Ideal) (smp2 x) (k0_pay6 (F := Ideal) (smp1 x)
    (k0_pay6 (F := Ideal) (smp0 x) acc))) (ix3 g d e) = _
  rw [pay6_apply, pay6_apply, pay6_apply, pay6_apply, Fin.sum_univ_four]
  simp only [e0, e1, e2, e3, add_assoc]

/-- Where the input window's block sits: block t on the sample axis, block 0 on the other two. -/
theorem idx_facts : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The block staged at point t, at (j, ch, s), is the input at sample 4 t + j. -/
theorem iblk_apply (c : Dev nD) (t : Fin cfg0.N) (j : Fin 4) (ch : Fin 256) (s : Fin 3136)
    (hn : 4 * t.val + j.val < 32) :
    (iblk0 V c 0 t : Vec Ideal S4x256x3136 .f32) (ix3 j ch s) = xin V c (ix3 (⟨4 * t.val + j.val, hn⟩ : Fin 32) ch s) := by
  obtain ⟨i0, i1, i2⟩ := idx_facts t
  unfold iblk0
  rw [View.read_apply]
  show V c main_v0 _ = V c main_v0 _
  congr 1
  funext a
  apply Fin.ext
  match a with
  | ⟨0, _⟩ => show win0_0.index t 0 * 4 + 1 * j.val = 4 * t.val + j.val; rw [i0]; omega
  | ⟨1, _⟩ => show win0_0.index t 1 * 256 + 1 * ch.val = ch.val; rw [i1]; omega
  | ⟨2, _⟩ => show win0_0.index t 2 * 3136 + 1 * s.val = s.val; rw [i2]; omega

theorem block_lt (t : Fin cfg0.N) (k : Fin 4) : 4 * t.val + k.val < 32 := by
  have := t.isLt; have hN : cfg0.N = 8 := N_0; omega

/-- The four samples of a block that reads the input at samples 4 t, …, 4 t + 3, summed, are the per-sample terms at
    those positions. -/
theorem block_sx (c : Dev nD) (t : Fin cfg0.N) (g : Fin 4) (d : Fin 64) (x : Vec Ideal S4x256x3136 .f32)
    (hx : ∀ (j : Fin 4) (ch : Fin 256) (s : Fin 3136),
      x (ix3 j ch s) = xin V c (ix3 (⟨4 * t.val + j.val, block_lt t j⟩ : Fin 32) ch s)) :
    ∑ j : Fin 4, ∑ s : Fin 3136, x (ix3 j (chan g d) s) = ∑ k ∈ Finset.range 4, ext (sx V c g d) (4 * t.val + k) := by
  rw [← Cert.LibBlockedSum.sum_block (sx V c g d) t.val (block_lt t)]
  exact Finset.sum_congr rfl fun j _ => Finset.sum_congr rfl fun s _ => hx j (chan g d) s

theorem block_sxx (c : Dev nD) (t : Fin cfg0.N) (g : Fin 4) (d e : Fin 64) (x : Vec Ideal S4x256x3136 .f32)
    (hx : ∀ (j : Fin 4) (ch : Fin 256) (s : Fin 3136),
      x (ix3 j ch s) = xin V c (ix3 (⟨4 * t.val + j.val, block_lt t j⟩ : Fin 32) ch s)) :
    ∑ j : Fin 4, ∑ s : Fin 3136, x (ix3 j (chan g d) s) * x (ix3 j (chan g e) s)
      = ∑ k ∈ Finset.range 4, ext (sxx V c g d e) (4 * t.val + k) := by
  rw [← Cert.LibBlockedSum.sum_block (sxx V c g d e) t.val (block_lt t)]
  exact Finset.sum_congr rfl fun j _ => Finset.sum_congr rfl fun s _ =>
    congrArg₂ (· * ·) (hx j (chan g d) s) (hx j (chan g e) s)

/-- One point's step: from the sums over the samples before block t to the sums over the samples through block t. -/
theorem step_sx (c : Dev nD) (t : Fin cfg0.N) (g : Fin 4) (d : Fin 64) (x : Vec Ideal S4x256x3136 .f32)
    (hx : ∀ (j : Fin 4) (ch : Fin 256) (s : Fin 3136),
      x (ix3 j ch s) = xin V c (ix3 (⟨4 * t.val + j.val, block_lt t j⟩ : Fin 32) ch s))
    (acc : Vec Ideal S4x64 .f32) (hacc : acc (ix2 g d) = ∑ i ∈ Finset.range (4 * t.val), ext (sx V c g d) i) :
    addSum4 x acc (ix2 g d) = ∑ i ∈ Finset.range (4 * (t.val + 1)), ext (sx V c g d) i := by
  rw [addSum4_apply x acc g d, hacc, block_sx V c t g d x hx, Cert.LibBlockedSum.prefix_succ _ 4 t.val]

theorem step_sxx (c : Dev nD) (t : Fin cfg0.N) (g : Fin 4) (d e : Fin 64) (x : Vec Ideal S4x256x3136 .f32)
    (hx : ∀ (j : Fin 4) (ch : Fin 256) (s : Fin 3136),
      x (ix3 j ch s) = xin V c (ix3 (⟨4 * t.val + j.val, block_lt t j⟩ : Fin 32) ch s))
    (acc : Vec Ideal S4x64x64 .f32)
    (hacc : acc (ix3 g d e) = ∑ i ∈ Finset.range (4 * t.val), ext (sxx V c g d e) i) :
    addGram4 x acc (ix3 g d e) = ∑ i ∈ Finset.range (4 * (t.val + 1)), ext (sxx V c g d e) i := by
  rw [addGram4_apply x acc g d e, hacc, block_sxx V c t g d e x hx, Cert.LibBlockedSum.prefix_succ _ 4 t.val]

/-- After point n the first accumulator holds, at (g, d), the sum over the first 4 (n + 1) samples. -/
theorem sx_after (c : Dev nD) (g : Fin 4) (d : Fin 64) : ∀ (n : ℕ) (h : n < cfg0.N),
    ((outsAt0 V c n h).1 : Vec Ideal S4x64 .f32) (ix2 g d) = ∑ i ∈ Finset.range (4 * (n + 1)), ext (sx V c g d) i
  | 0, h => by
    rw [outs1_first V c ⟨0, h⟩ rfl]
    exact step_sx V c ⟨0, h⟩ g d (iblk0 V c 0 ⟨0, h⟩) (fun j ch s => iblk_apply V c ⟨0, h⟩ j ch s (block_lt ⟨0, h⟩ j))
      (k0_pay2 (F := Ideal)) ((pay2_apply _).trans (by simp))
  | n + 1, h => by
    have hN : cfg0.N = 8 := N_0
    have hB : ¬(⟨n + 1, h⟩ : Fin cfg0.N).val % 8 = 0 := by dsimp only; omega
    rw [outs1_later V c ⟨n + 1, h⟩ hB]
    exact step_sx V c ⟨n + 1, h⟩ g d (iblk0 V c 0 ⟨n + 1, h⟩)
      (fun j ch s => iblk_apply V c ⟨n + 1, h⟩ j ch s (block_lt ⟨n + 1, h⟩ j)) _ (sx_after c g d n (Nat.lt_of_succ_lt h))

/-- After point n the second accumulator holds, at (g, d, e), the sum over the first 4 (n + 1) samples. -/
theorem sxx_after (c : Dev nD) (g : Fin 4) (d e : Fin 64) : ∀ (n : ℕ) (h : n < cfg0.N),
    ((outsAt0 V c n h).2 : Vec Ideal S4x64x64 .f32) (ix3 g d e)
      = ∑ i ∈ Finset.range (4 * (n + 1)), ext (sxx V c g d e) i
  | 0, h => by
    rw [outs2_first V c ⟨0, h⟩ rfl]
    exact step_sxx V c ⟨0, h⟩ g d e (iblk0 V c 0 ⟨0, h⟩) (fun j ch s => iblk_apply V c ⟨0, h⟩ j ch s (block_lt ⟨0, h⟩ j))
      (k0_pay3 (F := Ideal)) ((pay3_apply _).trans (by simp))
  | n + 1, h => by
    have hN : cfg0.N = 8 := N_0
    have hB : ¬(⟨n + 1, h⟩ : Fin cfg0.N).val % 8 = 0 := by dsimp only; omega
    rw [outs2_later V c ⟨n + 1, h⟩ hB]
    exact step_sxx V c ⟨n + 1, h⟩ g d e (iblk0 V c 0 ⟨n + 1, h⟩)
      (fun j ch s => iblk_apply V c ⟨n + 1, h⟩ j ch s (block_lt ⟨n + 1, h⟩ j)) _ (sxx_after c g d e n (Nat.lt_of_succ_lt h))

/-- The first result array after the region: S[g, d] = Σ over samples and pixels of x. -/
theorem sumx_final (c : Dev nD) (g : Fin 4) (d : Fin 64) :
    ((Gen.dat0 (F := Ideal) V c).arrAt 1 cfg0.N : S4x64.Idx → EReal) (ix2 g d)
      = ∑ n : Fin 32, ∑ s : Fin 3136, xin V c (ix3 n (chan g d) s) := by
  rw [final1 V c]
  exact (sx_after V c g d 7 seven_lt).trans (Cert.LibBlockedSum.sum_ext (sx V c g d))

/-- The second result array after the region: G[g, d, e] = Σ over samples and pixels of the products. -/
theorem sumxx_final (c : Dev nD) (g : Fin 4) (d e : Fin 64) :
    ((Gen.dat0 (F := Ideal) V c).arrAt 2 cfg0.N : S4x64x64.Idx → EReal) (ix3 g d e)
      = ∑ n : Fin 32, ∑ s : Fin 3136, xin V c (ix3 n (chan g d) s) * xin V c (ix3 n (chan g e) s) := by
  rw [final2 V c]
  exact (sxx_after V c g d e 7 seven_lt).trans (Cert.LibBlockedSum.sum_ext (sxx V c g d e))

end Cert.KernelIdeal.Stats

end
-- ==== Proof.Sums.lean ====
/-
  What the first pallas region leaves, in terms of X. Its output arrays hold, per group g and members d, e, the
  sum over all 32 samples and 3136 pixels of the flattened input at channel 64 g + d, and of the products of the
  entries at channels 64 g + d and 64 g + e. The flattened input is X with the pixels flattened, and a sum over
  (sample, pixel) is the sum over the flattened positions: so the two arrays are the sums of y and of y y over the
  100352 positions.
-/
import proofs.«147816_j11527692222570_1_alg».proof.Proof.KValue
import proofs.«147816_j11527692222570_1_alg».proof.Proof.Moments
import proofs.«147816_j11527692222570_1_alg».proof.Proof.Stats

set_option maxRecDepth 16384

noncomputable section

open scoped BigOperators

namespace Cert.Whiten.Bridge

open Idealize.ShloMosaic Idealize.ShloMosaic.ValueIdx Idealize.ShloMosaic.TcCoe Idealize.SL.Sem
open Cert.KernelIdeal Cert.KernelIdeal.Gen Cert.KernelIdeal.HostValue Cert.KernelIdeal.Whole
open Cert.Whiten Cert.Whiten.Moments

variable (m : (ℓ : Loc nD τ sig) → Buf (Elt Ideal) ℓ) (ρ : Dev nD → PrngReg) (c : Dev nD)

/-- X: the kernel program's first argument on core c. -/
abbrev Xk : FVec Ideal S32x256x56x56 .f32 := m ((c : Thread nD τ).loc main_arg0)

/-- The sums at (g, d): the sum of y over the positions. -/
theorem sumx_y (g : Fin 4) (d : Fin 64) : sumx m ρ c (ix2 g d) = ∑ k, y (Xk m c) g d k := by
  refine (Cert.KernelIdeal.Stats.sumx_final (V1 m ρ) c g d).trans ?_
  unfold Cert.KernelIdeal.Stats.xin
  rw [V1_x]
  exact sum_flat (Xk m c) g d

/-- The sums of products at (g, d, e): the sum of y y over the positions. -/
theorem sumxx_y (g : Fin 4) (d e : Fin 64) : sumxx m ρ c (ix3 g d e) = ∑ k, y (Xk m c) g d k * y (Xk m c) g e k := by
  refine (Cert.KernelIdeal.Stats.sumxx_final (V1 m ρ) c g d e).trans ?_
  unfold Cert.KernelIdeal.Stats.xin
  rw [V1_x]
  exact sum_flat_mul (Xk m c) g d e

end Cert.Whiten.Bridge

end
-- ==== Proof.Tail.lean ====
/-
  The two programs turn a covariance into a whitening matrix by the same arithmetic: the trace of each group's
  matrix, its reciprocal r, the normalised matrix S r, five steps P <- 1.5 P - 0.5 (P P P (S r)) from the identity,
  and the product with sqrt r. The one difference of spelling: the kernel's program divides 1 by the four traces and
  then lays the four reciprocals out as [4, 1, 1], the reference lays the traces out first and divides then — the
  same four numbers at the same places. So the two chains are one function of the covariance, whatever it is
  (nothing here needs it finite).
-/
import proofs.«147816_j11527692222570_1_alg».proof.Proof.KHost
import proofs.«147816_j11527692222570_1_alg».proof.Proof.RefRun

noncomputable section

namespace Cert.Whiten.Tail

open Idealize.ShloMosaic

/-- The identity matrix is spelt the same way in both programs. -/
theorem eye_eq : Cert.KernelIdeal.HostValue.eye = Cert.ReferenceIdeal.RefValue.eye := rfl

/-- So is the trace. -/
theorem trace_eq (S : FVec Ideal Cert.KernelIdeal.S4x64x64 .f32) :
    Cert.KernelIdeal.HostValue.traceOf S = Cert.ReferenceIdeal.RefValue.traceOf S := rfl

/-- Dividing and then laying out is laying out and then dividing. -/
theorem recip_eq (S : FVec Ideal Cert.KernelIdeal.S4x64x64 .f32) :
    Cert.KernelIdeal.HostValue.recipOf (Cert.ReferenceIdeal.RefValue.traceOf S) = Cert.ReferenceIdeal.RefValue.invTrace S := rfl

/-- One Newton–Schulz step is spelt the same way in both programs. -/
theorem nsStep_eq (A P : FVec Ideal Cert.KernelIdeal.S4x64x64 .f32) :
    Cert.KernelIdeal.HostValue.nsStep A P = Cert.ReferenceIdeal.RefValue.nsStep A P := rfl

/-- The whole chain: one function of the covariance. -/
theorem whiten_eq (S : FVec Ideal Cert.KernelIdeal.S4x64x64 .f32) :
    Cert.KernelIdeal.HostValue.whitenOf S (Cert.KernelIdeal.HostValue.traceOf S) Cert.KernelIdeal.HostValue.eye
      = Cert.ReferenceIdeal.RefValue.whitening S := by
  unfold Cert.KernelIdeal.HostValue.whitenOf Cert.ReferenceIdeal.RefValue.whitening Cert.ReferenceIdeal.RefValue.scaled
    Cert.ReferenceIdeal.RefValue.eye3
  rw [trace_eq, recip_eq, eye_eq]
  simp only [nsStep_eq]

end Cert.Whiten.Tail

end
-- ==== Proof.LibKeepdims3.lean ====
/-
  Keep-dims layout steps of rank-2 and rank-3 vectors, and the swap of the first two axes of a rank-3 vector, each read
  at an index written by its coordinates.

  * `shapeCast_ab_ab1_apply`: an `[a, b]` array cast to `[a, b, 1]` reads, at `(p, q, u)`, the operand at `(p, q)`;
  * `broadcastTo_ab1_abc_apply`: an `[a, b, 1]` array broadcast to `[a, b, c]` reads, at `(p, q, k)`, the operand at `(p, q, 0)`;
  * `broadcastTo_1bc_abc_apply`: a `[1, b, c]` array broadcast to `[a, b, c]` reads, at `(m, p, q)`, the operand at `(0, p, q)`;
  * `broadcastTo_a1_ab_apply`: an `[a, 1]` column broadcast to `[a, b]` reads, at `(p, q)`, the operand at `(p, 0)`;
  * `transpose_ix3_102_apply`: an `[m, a, b]` array with its first two axes swapped reads, at `(i, k, j)`, the operand at `(k, i, j)`.
  All hold for any extents and any element type.
-/
import Idealize.ShloMosaic.Lib.ValueIdx
import Idealize.ShloMosaic.Lib.Pipeline.Value

namespace Cert.LibKeepdims3

open Idealize.ShloMosaic Idealize.ShloMosaic.ValueIdx

variable {α : Type}

/-- An `[a, b]` array cast to `[a, b, 1]` reads, at `(p, q, u)`, the operand at `(p, q)`: the two row-major positions
    agree because the unit coordinate is `0`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, k)`, the operand at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    exact (if_pos rfl).symm

/-- A `[1, b, c]` array broadcast to `[a, b, c]` reads, at `(m, p, q)`, the operand at `(0, p, q)`. -/
theorem broadcastTo_1bc_abc_apply {a b c : ℕ} (x : (⟨3, ![1, b, c]⟩ : Shape).Idx → α)
    (h : (⟨3, ![1, b, c]⟩ : Shape).Broadcasts ⟨3, ![a, b, c]⟩) (m : Fin a) (p : Fin b) (q : Fin c) :
    broadcastTo ⟨3, ![a, b, c]⟩ x h (ix3 m p q) = x (ix3 (0 : Fin 1) p q) := by
  refine broadcastTo_apply x h (ix3 m p q) (ix3 (0 : Fin 1) p q) fun ax => ?_
  match ax with
  | ⟨0, _⟩ =>
    exact (if_pos rfl).symm
  | ⟨1, _⟩ =>
    show p.val = if b = 1 then 0 else p.val
    split
    · have := p.isLt; omega
    · rfl
  | ⟨2, _⟩ =>
    show q.val = if c = 1 then 0 else q.val
    split
    · have := q.isLt; omega
    · rfl

/-- An `[a, 1]` column broadcast to `[a, b]` reads, at `(p, q)`, the operand at `(p, 0)`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ =>
    exact (if_pos rfl).symm

/-- An `[m, a, b]` array with its first two axes swapped (permutation `[1, 0, 2]`) reads, at `(i, k, j)`, the operand
    at `(k, i, j)`. -/
theorem transpose_ix3_102_apply {m a b : ℕ} (x : (⟨3, ![m, a, b]⟩ : Shape).Idx → α)
    (h : (⟨3, ![m, a, b]⟩ : Shape).Transposes [1, 0, 2] ⟨3, ![a, m, b]⟩) (i : Fin a) (k : Fin m) (j : Fin b) :
    transpose ⟨3, ![a, m, b]⟩ [1, 0, 2] x h (ix3 i k j) = x (ix3 k i j) :=
  transpose_apply _ x h _ _ fun c => match c with | ⟨0, _⟩ => rfl | ⟨1, _⟩ => rfl | ⟨2, _⟩ => rfl

end Cert.LibKeepdims3
-- ==== Proof.ApplyPayload.lean ====
/-
  One sample of the whitening layer, entry by entry.

  The input X[n, ch, s] has 256 channels in 4 groups of 64 (channel 64 g + d is member d of group g) and 3136 pixels.
  Within a group the layer subtracts the group's mean vector from the 64 channel values of a pixel, multiplies the
  centred vector by the group's 64 x 64 whitening matrix, and then scales and shifts each channel by its own weight and
  bias:
      Y[n, 64 g + d, s] = (sum over e of W[g, d, e] * (X[n, 64 g + e, s] - mean[g, e])) * weight[64 g + d] + bias[64 g + d].
  `whitenAt` is that right-hand side for an array of any number of samples. The two arithmetic terms that the kernel
  body stores (one per sample of its block of two) are both `whitenAt` of the sample's slice: the casts between
  [1, 256, 3136], [256, 3136] and [4, 64, 3136] keep the row-major position, which is channel 64 g + d at pixel s in
  all three; the mean [4, 64] and the two columns [256, 1] are spread along the pixels; the matrix product contracts
  the matrix's last axis with the data's member axis, group by group, into a zero accumulator.
-/
import proofs.«147816_j11527692222570_1_alg».proof.Proof.Gen.KernelIdeal.Skeleton
import proofs.«147816_j11527692222570_1_alg».proof.Proof.Spec
import proofs.«147816_j11527692222570_1_alg».proof.Proof.LibLayout3
import proofs.«147816_j11527692222570_1_alg».proof.Proof.LibKeepdims3
import Idealize.ShloMosaic.Lib.ValueIdx
import Idealize.ShloMosaic.Lib.Pipeline.Value
import Idealize.ShloMosaic.PureOps.Ideal.Laws

noncomputable section

open scoped BigOperators

namespace Cert.KernelIdeal.Apply

open Cert.KernelIdeal Cert.Whiten Idealize.ShloMosaic Idealize.ShloMosaic.ValueIdx

/-! ## A channel's group and its place in the group -/

/-- The group of channel `ch`: `ch / 64`. -/
def grp (ch : Fin 256) : Fin 4 := ⟨ch.val / 64, by omega⟩
/-- The place of channel `ch` in its group: `ch % 64`. -/
def mem (ch : Fin 256) : Fin 64 := ⟨ch.val % 64, by omega⟩

theorem grp_val (ch : Fin 256) : (grp ch).val = ch.val / 64 := rfl
theorem mem_val (ch : Fin 256) : (mem ch).val = ch.val % 64 := rfl

/-- A channel is member `mem ch` of group `grp ch`. -/
theorem chan_grp_mem (ch : Fin 256) : chan (grp ch) (mem ch) = ch :=
  Fin.ext (by rw [chan_val, grp_val, mem_val]; omega)
/-- Channel 64 g + d lies in group g … -/
theorem grp_chan (g : Fin 4) (d : Fin 64) : grp (chan g d) = g :=
  Fin.ext (by rw [grp_val, chan_val]; omega)
/-- … at place d. -/
theorem mem_chan (g : Fin 4) (d : Fin 64) : mem (chan g d) = d :=
  Fin.ext (by rw [mem_val, chan_val]; omega)

/-! ## The layer at one entry -/

/-- The whitened, scaled and shifted value of sample `n`, channel `ch`, pixel `s`, for an input of `N` samples. -/
def whitenAt {N : ℕ} (X : (⟨3, ![N, 256, 3136]⟩ : Shape).Idx → EReal) (mean : S4x64.Idx → EReal) (W : S4x64x64.Idx → EReal)
    (wt bs : S256x1.Idx → EReal) (n : Fin N) (ch : Fin 256) (s : Fin 3136) : EReal :=
  (∑ e : Fin 64, W (ix3 (grp ch) (mem ch) e) * (X (ix3 n (chan (grp ch) e) s) - mean (ix2 (grp ch) e)))
      * wt (ix2 ch (0 : Fin 1)) + bs (ix2 ch (0 : Fin 1))

/-- At channel 64 g + d the group is g and the place d. -/
theorem whitenAt_chan {N : ℕ} (X : (⟨3, ![N, 256, 3136]⟩ : Shape).Idx → EReal) (mean : S4x64.Idx → EReal)
    (W : S4x64x64.Idx → EReal) (wt bs : S256x1.Idx → EReal) (n : Fin N) (g : Fin 4) (d : Fin 64) (s : Fin 3136) :
    whitenAt X mean W wt bs n (chan g d) s
      = (∑ e : Fin 64, W (ix3 g d e) * (X (ix3 n (chan g e) s) - mean (ix2 g e)))
          * wt (ix2 (chan g d) (0 : Fin 1)) + bs (ix2 (chan g d) (0 : Fin 1)) := by
  unfold whitenAt
  rw [grp_chan, mem_chan]

/-! ## The body's arithmetic, read at an entry -/

/-- The centred slice: the sample's slice viewed as [4, 64, 3136] minus the mean spread along the pixels. Entry
    (g, e, s) of the view sits at row-major position (64 g + e) * 3136 + s, which is entry (0, 64 g + e, s) of the slice. -/
theorem centred_apply (x : Vec Ideal S1x256x3136 .f32) (mean : Vec Ideal S4x64 .f32) (g : Fin 4) (e : Fin 64) (s : Fin 3136) :
    Gen.k1_pay3 x mean (ix3 g e s)
      = (x : S1x256x3136.Idx → EReal) (ix3 (0 : Fin 1) (chan g e) s) - (mean : S4x64.Idx → EReal) (ix2 g e) := by
  unfold Gen.k1_pay3
  rw [subf_apply]
  congr 1
  · refine (shapeCast_apply _ _ (ix3 g e s) (ix2 (chan g e) s) ?_).trans ?_
    · rw [Shape.rowMajor_val_two, Shape.rowMajor_val_three]
      show (chan g e).val * 3136 + s.val = (g.val * 64 + e.val) * 3136 + s.val
      rw [chan_val]; omega
    · refine shapeCast_apply _ _ (ix2 (chan g e) s) (ix3 (0 : Fin 1) (chan g e) s) ?_
      rw [Shape.rowMajor_val_three, Shape.rowMajor_val_two]
      show ((0 : ℕ) * 256 + (chan g e).val) * 3136 + s.val = (chan g e).val * 3136 + s.val
      omega
  · rw [LibKeepdims3.broadcastTo_ab1_abc_apply, LibKeepdims3.shapeCast_ab_ab1_apply, shapeCast_self]

/-- The whitening matrix passes through a cast to its own shape. -/
theorem matrix_eq (w : Vec Ideal S4x64x64 .f32) : Gen.k1_pay4 w = w := by
  unfold Gen.k1_pay4
  exact shapeCast_self _ _

/-- The index pair that the dimension numbers give at output entry (g, d, s) and contraction coordinate e: the matrix is
    read at (g, d, e), the data at (g, e, s). Axis 0 is the batch axis of both operands, axis 1 of the matrix and axis 2
    of the data are kept, and the matrix's axis 2 is contracted with the data's axis 1. -/
theorem matrix_idx (g : Fin 4) (d : Fin 64) (s : Fin 3136) (e : Fin 64) :
    dot_S4x64x64_S4x64x3136_S4x64x3136_2_1_1_2_0_0.lhsIdx (ix3 g d s)
        ((contrEquiv1 dot_S4x64x64_S4x64x3136_S4x64x3136_2_1_1_2_0_0 64 rfl rfl).symm e) = ix3 g d e := by
  funext a
  apply Fin.ext
  match a with
  | ⟨0, _⟩ => rfl
  | ⟨1, _⟩ => rfl
  | ⟨2, _⟩ =>
    exact (dot_S4x64x64_S4x64x3136_S4x64x3136_2_1_1_2_0_0.lhsIdx_val_of_single (cl := ⟨2, by decide⟩) rfl _ _).trans
      (contrEquiv1_symm_val dot_S4x64x64_S4x64x3136_S4x64x3136_2_1_1_2_0_0 64 rfl rfl e)

theorem data_idx (g : Fin 4) (d : Fin 64) (s : Fin 3136) (e : Fin 64) :
    dot_S4x64x64_S4x64x3136_S4x64x3136_2_1_1_2_0_0.rhsIdx (ix3 g d s)
        ((contrEquiv1 dot_S4x64x64_S4x64x3136_S4x64x3136_2_1_1_2_0_0 64 rfl rfl).symm e) = ix3 g e s := by
  funext a
  apply Fin.ext
  match a with
  | ⟨0, _⟩ => rfl
  | ⟨1, _⟩ =>
    exact (dot_S4x64x64_S4x64x3136_S4x64x3136_2_1_1_2_0_0.rhsIdx_val_of_single (cr := ⟨1, by decide⟩) rfl _ _).trans
      (contrEquiv1_symm_val dot_S4x64x64_S4x64x3136_S4x64x3136_2_1_1_2_0_0 64 rfl rfl e)
  | ⟨2, _⟩ => rfl

/-- The product with the whitening matrix into the zero accumulator, viewed back as [256, 3136] and then [1, 256, 3136],
    times the weight column plus the bias column: at entry (0, 64 g + d, s) the sum over the group's members e of
    matrix (g, d, e) times data (g, e, s), scaled and shifted by channel 64 g + d's weight and bias. -/
theorem whitened_apply (v30 : FVec Ideal S4x64x3136 .f32) (v32 : FVec Ideal S4x64x64 .f32) (wt bs : Vec Ideal S256x1 .f32)
    (g : Fin 4) (d : Fin 64) (s : Fin 3136) :
    Gen.k1_pay1 v30 v32 (constant (F := Ideal) S4x64x3136 .f32 0x00000000#32) wt bs (ix3 (0 : Fin 1) (chan g d) s)
      = (∑ e : Fin 64, (v32 : S4x64x64.Idx → EReal) (ix3 g d e) * (v30 : S4x64x3136.Idx → EReal) (ix3 g e s))
          * (wt : S256x1.Idx → EReal) (ix2 (chan g d) (0 : Fin 1)) + (bs : S256x1.Idx → EReal) (ix2 (chan g d) (0 : Fin 1)) := by
  unfold Gen.k1_pay1
  refine (shapeCast_apply _ _ (ix3 (0 : Fin 1) (chan g d) s) (ix2 (chan g d) s) ?_).trans ?_
  · rw [Shape.rowMajor_val_two, Shape.rowMajor_val_three]
    show (chan g d).val * 3136 + s.val = ((0 : ℕ) * 256 + (chan g d).val) * 3136 + s.val
    omega
  rw [addf_apply, mulf_apply]
  congr 1
  · congr 1
    · refine (shapeCast_apply _ _ (ix2 (chan g d) s) (ix3 g d s) ?_).trans ?_
      · rw [Shape.rowMajor_val_three, Shape.rowMajor_val_two]
        show (g.val * 64 + d.val) * 3136 + s.val = (chan g d).val * 3136 + s.val
        rw [chan_val]; omega
      · exact LibLayout3.matmul_zero_reindex dot_S4x64x64_S4x64x3136_S4x64x3136_2_1_1_2_0_0 none 64 rfl rfl v32 v30
          (ix3 g d s) (fun e => ix3 g d e) (fun e => ix3 g e s) (matrix_idx g d s) (data_idx g d s)
    · rw [LibKeepdims3.broadcastTo_a1_ab_apply, shapeCast_self]
  · rw [LibKeepdims3.broadcastTo_a1_ab_apply, shapeCast_self]

/-- The term stored for the block's second sample is `whitenAt` of that sample's slice. -/
theorem second_store_apply (x : Vec Ideal S1x256x3136 .f32) (mean : Vec Ideal S4x64 .f32) (w : Vec Ideal S4x64x64 .f32)
    (wt bs : Vec Ideal S256x1 .f32) (ch : Fin 256) (s : Fin 3136) :
    Gen.k1_pay1 (Gen.k1_pay3 x mean) (Gen.k1_pay4 w) (constant (F := Ideal) S4x64x3136 .f32 0x00000000#32) wt bs
        (ix3 (0 : Fin 1) ch s)
      = whitenAt x mean w wt bs (0 : Fin 1) ch s := by
  obtain ⟨g, d, rfl⟩ : ∃ (g : Fin 4) (d : Fin 64), ch = chan g d := ⟨grp ch, mem ch, (chan_grp_mem ch).symm⟩
  rw [whitened_apply, whitenAt_chan, matrix_eq]
  simp only [centred_apply]

/-- The term stored for the block's first sample is the same arithmetic, written out in one piece. -/
theorem first_store_eq (x : Vec Ideal S1x256x3136 .f32) (mean : Vec Ideal S4x64 .f32) (w : Vec Ideal S4x64x64 .f32)
    (wt bs : Vec Ideal S256x1 .f32) :
    Gen.k1_pay2 x mean w wt bs
      = Gen.k1_pay1 (Gen.k1_pay3 x mean) (Gen.k1_pay4 w) (constant (F := Ideal) S4x64x3136 .f32 0x00000000#32) wt bs := rfl

/-- So it too is `whitenAt` of its sample's slice. -/
theorem first_store_apply (x : Vec Ideal S1x256x3136 .f32) (mean : Vec Ideal S4x64 .f32) (w : Vec Ideal S4x64x64 .f32)
    (wt bs : Vec Ideal S256x1 .f32) (ch : Fin 256) (s : Fin 3136) :
    Gen.k1_pay2 x mean w wt bs (ix3 (0 : Fin 1) ch s) = whitenAt x mean w wt bs (0 : Fin 1) ch s := by
  rw [first_store_eq, second_store_apply]

end Cert.KernelIdeal.Apply

end
-- ==== Proof.ApplyBlock.lean ====
/-
  What the kernel body leaves in its output block, as one function of the block's index.

  The output block holds two samples. The body fills it with two stores, one row of shape [1, 256, 3136] per sample;
  row j is the layer applied to row j of the input block, with the same mean, whitening matrix, weight and bias for
  both. So entry (j, ch, s) of the block after the body is `whitenAt` of the input block at sample j: each store's
  term at its own index (0, ch, s) is `whitenAt` of the loaded row, the loaded row is row j of the input block, and
  the store's rectangle puts (0, ch, s) at (j, ch, s). The two rows tile the block, so every entry is under one of them.
-/
import proofs.«147816_j11527692222570_1_alg».proof.Proof.Gen.KernelIdeal.Frame
import proofs.«147816_j11527692222570_1_alg».proof.Proof.ApplyPayload

noncomputable section

open scoped BigOperators

namespace Cert.KernelIdeal.Apply

open Cert.KernelIdeal Cert.Whiten Idealize.ShloMosaic Idealize.ShloMosaic.ValueIdx

theorem zero2 : (![0, 0] : Fin 2 → ℕ) = fun _ => 0 := funext fun a => by fin_cases a <;> rfl
theorem zero3 : (![0, 0, 0] : Fin 3 → ℕ) = fun _ => 0 := funext fun a => by fin_cases a <;> rfl

/-- The layer at sample `n` reads the input at sample `n` only: a one-sample array that agrees with sample `n` of `X`
    gives the same value. -/
theorem whitenAt_sample {N : ℕ} (X : (⟨3, ![N, 256, 3136]⟩ : Shape).Idx → EReal) (x : S1x256x3136.Idx → EReal) (n : Fin N)
    (hx : ∀ (ch : Fin 256) (s : Fin 3136), x (ix3 (0 : Fin 1) ch s) = X (ix3 n ch s))
    (mean : S4x64.Idx → EReal) (W : S4x64x64.Idx → EReal) (wt bs : S256x1.Idx → EReal) (ch : Fin 256) (s : Fin 3136) :
    whitenAt x mean W wt bs (0 : Fin 1) ch s = whitenAt X mean W wt bs n ch s := by
  unfold whitenAt
  simp only [hx]

/-- The layer's value depends on the input only through sample `n` at pixel `s`: two inputs that agree there, channel by
    channel, with the same four parameters, give the same value. -/
theorem whitenAt_congr {N M : ℕ} {X : (⟨3, ![N, 256, 3136]⟩ : Shape).Idx → EReal} {X' : (⟨3, ![M, 256, 3136]⟩ : Shape).Idx → EReal}
    {mean mean' : S4x64.Idx → EReal} {W W' : S4x64x64.Idx → EReal} {wt wt' bs bs' : S256x1.Idx → EReal}
    {n : Fin N} {n' : Fin M} {ch ch' : Fin 256} {s s' : Fin 3136}
    (hmean : mean = mean') (hW : W = W') (hwt : wt = wt') (hbs : bs = bs') (hch : ch = ch') (hs : s = s')
    (hX : ∀ q : Fin 256, X (ix3 n q s) = X' (ix3 n' q s')) :
    whitenAt X mean W wt bs n ch s = whitenAt X' mean' W' wt' bs' n' ch' s' := by
  subst hmean hW hwt hbs hch hs
  unfold whitenAt
  simp only [hX]

/-- Row 0 of the block: entry (0, ch, s) of the row is entry (0, ch, s) of the block. -/
theorem row0_idx (ch : Fin 256) (s : Fin 3136) : Gen.r1_0.emb (ix3 (0 : Fin 1) ch s) = ix3 (0 : Fin 2) ch s := by
  funext a
  apply Fin.ext
  match a with
  | ⟨0, _⟩ => rfl
  | ⟨1, _⟩ => show 0 + 1 * ch.val = ch.val; omega
  | ⟨2, _⟩ => show 0 + 1 * s.val = s.val; omega

/-- Row 1 of the block: entry (0, ch, s) of the row is entry (1, ch, s) of the block. -/
theorem row1_idx (ch : Fin 256) (s : Fin 3136) : Gen.r1_4.emb (ix3 (0 : Fin 1) ch s) = ix3 (1 : Fin 2) ch s := by
  funext a
  apply Fin.ext
  match a with
  | ⟨0, _⟩ => rfl
  | ⟨1, _⟩ => show 0 + 1 * ch.val = ch.val; omega
  | ⟨2, _⟩ => show 0 + 1 * s.val = s.val; omega

/-- The output block after the body, entry by entry: the layer applied to the input block, sample by sample. -/
theorem block_apply (x0 : Vec Ideal S2x256x3136 .f32) (x1 : Vec Ideal S4x64 .f32) (x2 : Vec Ideal S4x64x64 .f32)
    (x3 x4 : Vec Ideal S256x1 .f32) (y : S2x256x3136.Idx) :
    Gen.out1_5 (F := Ideal) x0 x1 x2 x3 x4 y = whitenAt x0 x1 x2 x3 x4 (y 0) (y 1) (y 2) := by
  unfold Gen.out1_5
  refine View.canon_apply_of_pieces (Val := Elt Ideal) (S := S2x256x3136) (e := .f32) (fun y : S2x256x3136.Idx => whitenAt x0 x1 x2 x3 x4 (y 0) (y 1) (y 2)) _ ?_ y
    (Gen.cover1_5 _ _ y)
  intro p hp
  rcases List.mem_cons.mp hp with rfl | hp
  · intro x
    obtain ⟨u, ch, s, rfl⟩ : ∃ (u : Fin 1) (ch : Fin 256) (s : Fin 3136), x = ix3 u ch s := ⟨x 0, x 1, x 2, eq_ix3 x⟩
    obtain rfl : u = 0 := Subsingleton.elim _ _
    show Gen.k1_pay1 (Gen.k1_pay3 (View.ld x0 Gen.r1_4) (View.ld x1 Gen.r1_1)) (Gen.k1_pay4 (View.ld x2 Gen.r1_2))
          (constant (F := Ideal) S4x64x3136 .f32 0x00000000#32) (View.ld x3 Gen.r1_3) (View.ld x4 Gen.r1_3) (ix3 (0 : Fin 1) ch s)
        = whitenAt x0 x1 x2 x3 x4 ((Gen.r1_4.emb (ix3 (0 : Fin 1) ch s)) 0) ((Gen.r1_4.emb (ix3 (0 : Fin 1) ch s)) 1)
            ((Gen.r1_4.emb (ix3 (0 : Fin 1) ch s)) 2)
    rw [second_store_apply, row1_idx, View.ld_unit_zero (S := S4x64) zero2, View.ld_unit_zero (S := S4x64x64) zero3,
      View.ld_unit_zero (S := S256x1) zero2 _ x3, View.ld_unit_zero (S := S256x1) zero2 _ x4]
    exact whitenAt_sample x0 (View.ld x0 Gen.r1_4) (1 : Fin 2) (fun ch s => congrArg x0 (row1_idx ch s)) x1 x2 x3 x4 ch s
  · obtain rfl := List.mem_singleton.mp hp
    intro x
    obtain ⟨u, ch, s, rfl⟩ : ∃ (u : Fin 1) (ch : Fin 256) (s : Fin 3136), x = ix3 u ch s := ⟨x 0, x 1, x 2, eq_ix3 x⟩
    obtain rfl : u = 0 := Subsingleton.elim _ _
    show Gen.k1_pay2 (View.ld x0 Gen.r1_0) (View.ld x1 Gen.r1_1) (View.ld x2 Gen.r1_2) (View.ld x3 Gen.r1_3)
          (View.ld x4 Gen.r1_3) (ix3 (0 : Fin 1) ch s)
        = whitenAt x0 x1 x2 x3 x4 ((Gen.r1_0.emb (ix3 (0 : Fin 1) ch s)) 0) ((Gen.r1_0.emb (ix3 (0 : Fin 1) ch s)) 1)
            ((Gen.r1_0.emb (ix3 (0 : Fin 1) ch s)) 2)
    rw [first_store_apply, row0_idx, View.ld_unit_zero (S := S4x64) zero2, View.ld_unit_zero (S := S4x64x64) zero3,
      View.ld_unit_zero (S := S256x1) zero2 _ x3, View.ld_unit_zero (S := S256x1) zero2 _ x4]
    exact whitenAt_sample x0 (View.ld x0 Gen.r1_0) (0 : Fin 2) (fun ch s => congrArg x0 (row0_idx ch s)) x1 x2 x3 x4 ch s

end Cert.KernelIdeal.Apply

end
-- ==== Proof.Apply.lean ====
/-
  What the second region leaves in its output array.

  The region's grid has 16 points. Point t stages samples 2t and 2t + 1 of the input (a block of shape [2, 256, 3136])
  together with the whole mean, whitening matrix, weight and bias, and writes back the block of the same two samples of
  the output. The body maps an input block to the layer applied to it sample by sample, and the layer at a sample reads
  the input at that sample only; so what point t writes back is block t of ONE array: the layer applied to the whole
  input. The 16 blocks cover the 32 samples (sample n lies in block n / 2), so after the last point the output array
  is that array.
-/
import proofs.«147816_j11527692222570_1_alg».proof.Proof.Gen.KernelIdeal.Frame
import proofs.«147816_j11527692222570_1_alg».proof.Proof.ApplyBlock
import Idealize.ShloMosaic.Lib.Pipeline.Value

noncomputable section

open scoped BigOperators

namespace Cert.KernelIdeal.Apply

open Cert.KernelIdeal Cert.Whiten Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The layer applied to the whole input as the region finds it: the array the region's output ends holding. -/
abbrev whitened (c : Dev nD) : S32x256x3136.Idx → EReal :=
  fun i => whitenAt (V c main_v0) (V c main_v3) (V c main_v72) (V c main_v73) (V c main_v74) (i 0) (i 1) (i 2)

/-- The windows' block indices at every grid point, decided over the 16 points: the input's and the output's block at
    point `t` is block `t` along the samples and block 0 along the channels and pixels; the four parameters' block is
    their whole array. -/
theorem block_indices : ∀ t : Fin cfg1.N,
    win1_0.index t (0 : Fin 3) = t.val ∧ win1_0.index t (1 : Fin 3) = 0 ∧ win1_0.index t (2 : Fin 3) = 0
    ∧ win1_5.index t (0 : Fin 3) = t.val ∧ win1_5.index t (1 : Fin 3) = 0 ∧ win1_5.index t (2 : Fin 3) = 0
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The input block at point `t`: entry (j, ch, s) is entry (2 t + j, ch, s) of the input. -/
theorem input_block (c : Dev nD) (t : Fin cfg1.N) (x : S2x256x3136.Idx) (k : S32x256x3136.Idx)
    (h0 : (k 0).val = 2 * t.val + (x 0).val) (h1 : (k 1).val = (x 1).val) (h2 : (k 2).val = (x 2).val) :
    (Gen.iblk1 V c 0 t : Vec Ideal S2x256x3136 .f32) x = (V c main_v0 : S32x256x3136.Idx → EReal) k := by
  obtain ⟨e0, e1, e2, -⟩ := block_indices t
  show V c main_v0 (((cfg1.win 0).blk t).view.emb x) = V c main_v0 k
  congr 1
  funext a
  apply Fin.ext
  match a with
  | ⟨0, _⟩ => show win1_0.index t (0 : Fin 3) * 2 + 1 * (x 0).val = (k 0).val; rw [e0, h0]; omega
  | ⟨1, _⟩ => show win1_0.index t (1 : Fin 3) * 256 + 1 * (x 1).val = (k 1).val; rw [e1, h1]; omega
  | ⟨2, _⟩ => show win1_0.index t (2 : Fin 3) * 3136 + 1 * (x 2).val = (k 2).val; rw [e2, h2]; omega

/-- The mean's block at every point is the whole mean. -/
theorem mean_block (c : Dev nD) (t : Fin cfg1.N) :
    (Gen.iblk1 V c 1 t : Vec Ideal S4x64 .f32) = (V c main_v3 : S4x64.Idx → EReal) := by
  obtain ⟨-, -, -, -, -, -, e0, e1, -⟩ := block_indices t
  funext x
  show V c main_v3 (((cfg1.win 1).blk t).view.emb x) = V c main_v3 x
  congr 1
  funext a
  apply Fin.ext
  match a with
  | ⟨0, _⟩ => show win1_1.index t (0 : Fin 2) * 4 + 1 * (x 0).val = (x 0).val; rw [e0]; omega
  | ⟨1, _⟩ => show win1_1.index t (1 : Fin 2) * 64 + 1 * (x 1).val = (x 1).val; rw [e1]; omega

/-- The whitening matrix's block at every point is the whole matrix. -/
theorem matrix_block (c : Dev nD) (t : Fin cfg1.N) :
    (Gen.iblk1 V c 2 t : Vec Ideal S4x64x64 .f32) = (V c main_v72 : S4x64x64.Idx → EReal) := by
  obtain ⟨-, -, -, -, -, -, -, -, e0, e1, e2, -⟩ := block_indices t
  funext x
  show V c main_v72 (((cfg1.win 2).blk t).view.emb x) = V c main_v72 x
  congr 1
  funext a
  apply Fin.ext
  match a with
  | ⟨0, _⟩ => show win1_2.index t (0 : Fin 3) * 4 + 1 * (x 0).val = (x 0).val; rw [e0]; omega
  | ⟨1, _⟩ => show win1_2.index t (1 : Fin 3) * 64 + 1 * (x 1).val = (x 1).val; rw [e1]; omega
  | ⟨2, _⟩ => show win1_2.index t (2 : Fin 3) * 64 + 1 * (x 2).val = (x 2).val; rw [e2]; omega

/-- The weight's block at every point is the whole weight column. -/
theorem weight_block (c : Dev nD) (t : Fin cfg1.N) :
    (Gen.iblk1 V c 3 t : Vec Ideal S256x1 .f32) = (V c main_v73 : S256x1.Idx → EReal) := by
  obtain ⟨-, -, -, -, -, -, -, -, -, -, -, e0, e1, -⟩ := block_indices t
  funext x
  show V c main_v73 (((cfg1.win 3).blk t).view.emb x) = V c main_v73 x
  congr 1
  funext a
  apply Fin.ext
  match a with
  | ⟨0, _⟩ => show win1_3.index t (0 : Fin 2) * 256 + 1 * (x 0).val = (x 0).val; rw [e0]; omega
  | ⟨1, _⟩ => show win1_3.index t (1 : Fin 2) * 1 + 1 * (x 1).val = (x 1).val; rw [e1]; omega

/-- The bias's block at every point is the whole bias column. -/
theorem bias_block (c : Dev nD) (t : Fin cfg1.N) :
    (Gen.iblk1 V c 4 t : Vec Ideal S256x1 .f32) = (V c main_v74 : S256x1.Idx → EReal) := by
  obtain ⟨-, -, -, -, -, -, -, -, -, -, -, -, -, e0, e1⟩ := block_indices t
  funext x
  show V c main_v74 (((cfg1.win 4).blk t).view.emb x) = V c main_v74 x
  congr 1
  funext a
  apply Fin.ext
  match a with
  | ⟨0, _⟩ => show win1_4.index t (0 : Fin 2) * 256 + 1 * (x 0).val = (x 0).val; rw [e0]; omega
  | ⟨1, _⟩ => show win1_4.index t (1 : Fin 2) * 1 + 1 * (x 1).val = (x 1).val; rw [e1]; omega

/-- WHAT POINT `t` WRITES BACK is block `t` of the layer applied to the whole input. -/
theorem written_back (c : Dev nD) (t : Fin cfg1.N) :
    (Gen.dat1 (F := Ideal) V c).flushed 5 t = ((cfg1.win 5).blk t).view.read (Elt Ideal) (whitened V c) := by
  show (cfg1.win 5).cut (grid1.coords t) ((Gen.dat1 (F := Ideal) V c).after 5 t) = _
  rw [Gen.after1_5]
  obtain ⟨-, -, -, e0, e1, e2, -⟩ := block_indices t
  funext y
  show Gen.out1_5 (F := Ideal) (Gen.iblk1 V c 0 t) (Gen.iblk1 V c 1 t) (Gen.iblk1 V c 2 t) (Gen.iblk1 V c 3 t) (Gen.iblk1 V c 4 t) y
      = whitened V c (((cfg1.win 5).blk t).view.emb y)
  refine (block_apply _ _ _ _ _ y).trans ?_
  have hy0 : (y 0).val < 2 := (y 0).isLt
  have k0 : ((((cfg1.win 5).blk t).view.emb y) 0).val = 2 * t.val + (y 0).val := by
    show win1_5.index t (0 : Fin 3) * 2 + 1 * (y 0).val = _; rw [e0]; omega
  have k1 : ((((cfg1.win 5).blk t).view.emb y) 1).val = (y 1).val := by
    show win1_5.index t (1 : Fin 3) * 256 + 1 * (y 1).val = _; rw [e1]; omega
  have k2 : ((((cfg1.win 5).blk t).view.emb y) 2).val = (y 2).val := by
    show win1_5.index t (2 : Fin 3) * 3136 + 1 * (y 2).val = _; rw [e2]; omega
  refine whitenAt_congr (mean_block V c t) (matrix_block V c t) (weight_block V c t) (bias_block V c t)
    (Fin.ext k1.symm) (Fin.ext k2.symm) fun q => ?_
  exact input_block V c t _ _ k0 rfl k2

/-- An index of the output array is in point `t`'s block iff each coordinate is in the block's range on its axis. -/
theorem mem_block (t : Fin cfg1.N) (i : S32x256x3136.Idx) :
    i ∈ ((cfg1.win 5).blk t).view.set ↔ ∀ a : Fin 3, win1_5.index t a * S2x256x3136.size a ≤ (i a).val
      ∧ (i a).val < win1_5.index t a * S2x256x3136.size a + S2x256x3136.size a := by
  show i ∈ ((View.whole main_v75).slice (win1_5.rect t)).set ↔ _
  rw [View.set_slice_whole, Rect.mem_set_unit]
  exact Iff.rfl

/-- Every index of the output array is in some point's block: sample `n` is in the block of point `n / 2`. -/
theorem covered (i : S32x256x3136.Idx) :
    ∃ t : Fin cfg1.N, (cfg1.win 5).flush t = true ∧ i ∈ ((cfg1.win 5).blk t).view.set := by
  have hi0 : (i 0).val < 32 := (i 0).isLt
  have hi1 : (i 1).val < 256 := (i 1).isLt
  have hi2 : (i 2).val < 3136 := (i 2).isLt
  have hN : grid1.N = 16 := Gen.N_1
  have ht : (i 0).val / 2 < grid1.N := by rw [hN]; omega
  obtain ⟨-, -, -, e0, e1, e2, -⟩ := block_indices ⟨(i 0).val / 2, ht⟩
  refine ⟨⟨(i 0).val / 2, ht⟩, Gen.flush1_5 _, ?_⟩
  rw [mem_block]
  intro a
  match a with
  | ⟨0, _⟩ =>
    show win1_5.index ⟨(i 0).val / 2, ht⟩ (0 : Fin 3) * 2 ≤ (i 0).val
      ∧ (i 0).val < win1_5.index ⟨(i 0).val / 2, ht⟩ (0 : Fin 3) * 2 + 2
    rw [e0]; show (i 0).val / 2 * 2 ≤ (i 0).val ∧ (i 0).val < (i 0).val / 2 * 2 + 2; omega
  | ⟨1, _⟩ =>
    show win1_5.index ⟨(i 0).val / 2, ht⟩ (1 : Fin 3) * 256 ≤ (i 1).val
      ∧ (i 1).val < win1_5.index ⟨(i 0).val / 2, ht⟩ (1 : Fin 3) * 256 + 256
    rw [e1]; omega
  | ⟨2, _⟩ =>
    show win1_5.index ⟨(i 0).val / 2, ht⟩ (2 : Fin 3) * 3136 ≤ (i 2).val
      ∧ (i 2).val < win1_5.index ⟨(i 0).val / 2, ht⟩ (2 : Fin 3) * 3136 + 3136
    rw [e2]; omega

/-- THE OUTPUT ARRAY after the region: the layer applied to the whole input, entry by entry. -/
theorem out_array (c : Dev nD) :
    (Gen.dat1 (F := Ideal) V c).arrAt 5 cfg1.N
      = fun i : S32x256x3136.Idx =>
          whitenAt (V c main_v0) (V c main_v3) (V c main_v72) (V c main_v73) (V c main_v74) (i 0) (i 1) (i 2) :=
  (Gen.dat1 (F := Ideal) V c).arrAt_eq_of_cover 5 (whitened V c) (fun t _ => written_back V c t) covered

/-- The same at sample `n`, channel 64 g + d, pixel `s`. -/
theorem out_final (c : Dev nD) (n : Fin 32) (g : Fin 4) (d : Fin 64) (s : Fin 3136) :
    ((Gen.dat1 (F := Ideal) V c).arrAt 5 cfg1.N : S32x256x3136.Idx → EReal) (ix3 n (chan g d) s)
      = whitenAt (V c main_v0) (V c main_v3) (V c main_v72) (V c main_v73) (V c main_v74) n (chan g d) s := by
  rw [out_array]

end Cert.KernelIdeal.Apply

end
-- ==== Proof.RefRead.lean ====
/-
  The reference program's stages read at one index, over the exact extended-real values.

  With channel 64 g + d written (g, d), pixel 56 h + w written as one number, and position 3136 n + pixel on the long axis:

    xr X (g, d, k)            is X at sample k / 3136, channel (g, d), pixel row k % 3136 / 56, column k % 56;
    meanCol X (g, d, 0)       is the host sum's initial value plus the sum of xr X (g, d, k) over k, divided by 100352;
    centred X (g, d, k)       is xr X (g, d, k) minus that mean;
    sigma X (g, d, e)         is the regulariser's entry (d, e) plus the sum over k of centred (g, d, k) * centred (g, e, k),
                              divided by 100352;
    result X w b (n, (g, d), h, w') is the sum over e of whitening (sigma X) (g, d, e) * centred X (g, e, position),
                              times the weight of channel (g, d), plus its bias.

  Each is proved for the stage as a function of the value it reads (the names ending in Of) and then specialised. The layout
  steps (casts, transposes, broadcasts) move an index to the operand's index with the same row-major position or the same
  named coordinates; a dot product contracting one axis is the plain sum over that axis's coordinate; the host's sum over
  one axis is its initial value plus the plain sum.
-/
import proofs.«147816_j11527692222570_1_alg».proof.Proof.RefRun
import proofs.«147816_j11527692222570_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Cert.ReferenceIdeal.RefValue Cert.Whiten
open Idealize.ShloMosaic Idealize.ShloMosaic.ValueIdx

/-- A host dot product contracting ONE axis of extent K, read at an index: the sum over the contraction coordinate of the
    operands' products at the indices the dimension numbers give there. -/
theorem dotGeneral_reindex {sl sr so : Shape} {φ₁ φ₂ : FTy} (D : DotDims sl sr so) (prec : Option ContractPrecision)
    (K : ℕ) (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    Host.dotGeneral (F := Ideal) D prec lhs rhs j = ∑ k : Fin K, lhs (li k) * rhs (ri k) := by
  show FloatOps.dotGeneral D prec .single lhs rhs j = _
  rw [Ideal.dotGeneral_apply, ← Equiv.sum_comp (contrEquiv1 D K hrank hsize).symm]
  exact Finset.sum_congr rfl fun k _ => by rw [hl k, hr k]

/-- The host's division at an index divides the elements. -/
theorem hostDivf_apply {s : Shape} {φ : FTy} (a b : FVec Ideal s φ) (i : s.Idx) :
    Host.divf (F := Ideal) a b i = Ideal.div (a i) (b i) := rfl

/-- The host's sum at a reduced index: the exact sum from the initial value's one element. -/
theorem hostReduceAdd_apply {s t u : Shape} {axes : List (Fin s.rank)} {φ : FTy} (x : FVec Ideal s φ)
    (init : u.Idx → Ideal φ) (hr : s.ReducesTo axes t) (hu : 0 < u.numel) (j : t.Idx) :
    Host.reduceAdd (F := Ideal) x init hr hu j = Ideal.hostReduceAdd hr x (init (Shape.Idx.first hu)) j := rfl

/-- A scalar constant broadcast to any shape reads the constant's value everywhere. -/
theorem splat_apply {t : Shape} (hb : S_.BroadcastsInDim t (![] : Fin 0 → Fin t.rank)) (b : BitVec 32) (j : t.Idx) :
    broadcastInDim t ![] hb (constant (F := Ideal) S_ .f32 b) j = Ideal.ofBits .f32 b := rfl

variable (g : Fin 4) (d e : Fin 64) (k : Fin 100352) (n : Fin 32) (h w' : Fin 56)

/-! ## The input re-laid: channels in front, samples and pixels flattened -/

/-- Position k of the long axis is sample k / 3136, pixel row k % 3136 / 56, pixel column k % 56; channel 64 g + d sits
    at (g, d). The cast keeps the row-major position and the transpose swaps the first two coordinates back. -/
theorem xr_apply (X : FVec Ideal S32x256x56x56 .f32) :
    xr X (ix3 g d k)
      = X (ix4 (⟨k.val / 3136, by omega⟩ : Fin 32) (chan g d) (⟨k.val % 3136 / 56, by omega⟩ : Fin 56)
            (⟨k.val % 56, by omega⟩ : Fin 56)) := by
  unfold xr
  refine (shapeCast_apply _ _ (ix3 g d k)
    (ix4 (chan g d) (⟨k.val / 3136, by omega⟩ : Fin 32) (⟨k.val % 3136 / 56, by omega⟩ : Fin 56)
      (⟨k.val % 56, by omega⟩ : Fin 56)) ?_).trans ?_
  · rw [Shape.rowMajor_val_four, Shape.rowMajor_val_three]
    show (((64 * g.val + d.val) * 32 + k.val / 3136) * 56 + k.val % 3136 / 56) * 56 + k.val % 56
        = (g.val * 64 + d.val) * 100352 + k.val
    omega
  · exact transpose_apply _ _ _ _ _ fun b =>
      match b with | ⟨0, _⟩ => rfl | ⟨1, _⟩ => rfl | ⟨2, _⟩ => rfl | ⟨3, _⟩ => rfl

/-! ## The channel means and the centred data -/

/-- The mean column of a channel-major array at (g, d): the host sum's initial value plus the sum over the long axis,
    divided by the axis's length as a float. -/
theorem meanColOf_apply (x : FVec Ideal S4x64x100352 .f32) :
    meanColOf x (ix3 g d 0)
      = Ideal.div (Ideal.ofBits .f32 0x00000000#32 + ∑ k : Fin 100352, x (ix3 g d k)) (Ideal.ofBits .f32 0x47C40000#32) := by
  have hred : S4x64x100352.Reduces [2] S4x64 := by decide
  unfold meanColOf
  rw [hostDivf_apply, splat_apply]
  refine congrArg (Ideal.div · (Ideal.ofBits .f32 0x47C40000#32)) ?_
  refine (broadcastInDim_apply _ _ _ (ix3 g d (0 : Fin 1)) (ix2 g d) fun a => ?_).trans ?_
  · match a with | ⟨0, _⟩ => rfl | ⟨1, _⟩ => rfl
  · rw [hostReduceAdd_apply, Ideal.hostReduceAdd_single reducesTo_S4x64x100352_S4x64_d2 hred]
    refine congrArg₂ (· + ·) (constant_apply _ _) (Finset.sum_congr rfl fun k _ => congrArg x (funext fun a => ?_))
    match a with | ⟨0, _⟩ => exact Fin.ext rfl | ⟨1, _⟩ => exact Fin.ext rfl | ⟨2, _⟩ => exact Fin.ext rfl

theorem meanCol_apply (X : FVec Ideal S32x256x56x56 .f32) :
    meanCol X (ix3 g d 0)
      = Ideal.div (Ideal.ofBits .f32 0x00000000#32 + ∑ k : Fin 100352, xr X (ix3 g d k)) (Ideal.ofBits .f32 0x47C40000#32) :=
  meanColOf_apply g d (xr X)

/-- Centring subtracts, at every position of the long axis, the channel's mean. -/
theorem centredOf_apply (x : FVec Ideal S4x64x100352 .f32) :
    centredOf x (ix3 g d k) = x (ix3 g d k) - meanColOf x (ix3 g d 0) := by
  unfold centredOf
  rw [subf_apply]
  refine congrArg (x (ix3 g d k) - ·) ?_
  exact broadcastInDim_apply _ _ _ (ix3 g d k) (ix3 g d (0 : Fin 1)) fun a =>
    match a with | ⟨0, _⟩ => rfl | ⟨1, _⟩ => rfl | ⟨2, _⟩ => rfl

theorem centred_apply (X : FVec Ideal S32x256x56x56 .f32) :
    centred X (ix3 g d k) = xr X (ix3 g d k) - meanCol X (ix3 g d 0) :=
  centredOf_apply g d k (xr X)

/-! ## The covariance -/

/-- The Gram product over the long axis, read at (g, d, e). -/
theorem gram_apply (c : FVec Ideal S4x64x100352 .f32) :
    Host.dotGeneral (F := Ideal) dot_S4x64x100352_S4x64x100352_S4x64x64_2_2_1_1_0_0 none c c (ix3 g d e)
      = ∑ k : Fin 100352, c (ix3 g d k) * c (ix3 g e k) :=
  dotGeneral_reindex dot_S4x64x100352_S4x64x100352_S4x64x64_2_2_1_1_0_0 none 100352 rfl rfl c c (ix3 g d e)
    (fun k => ix3 g d k) (fun k => ix3 g e k)
    (fun k => funext fun a => match a with | ⟨0, _⟩ => Fin.ext rfl | ⟨1, _⟩ => Fin.ext rfl | ⟨2, _⟩ => Fin.ext rfl)
    (fun k => funext fun a => match a with | ⟨0, _⟩ => Fin.ext rfl | ⟨1, _⟩ => Fin.ext rfl | ⟨2, _⟩ => Fin.ext rfl)

/-- The regulariser broadcast to every group reads the same 64 x 64 entry in each. -/
theorem epsBroadcast_apply :
    broadcastInDim S4x64x64 ![0, 1, 2] bcast_S1x64x64_S4x64x64_0_1_2
        (broadcastInDim S1x64x64 ![1, 2] bcast_S64x64_S1x64x64_1_2 epsI) (ix3 g d e) = epsI (ix2 d e) := by
  refine (broadcastInDim_apply _ _ _ (ix3 g d e) (ix3 (0 : Fin 1) d e) fun a => ?_).trans ?_
  · match a with | ⟨0, _⟩ => rfl | ⟨1, _⟩ => rfl | ⟨2, _⟩ => rfl
  · refine broadcastInDim_apply _ _ _ (ix3 (0 : Fin 1) d e) (ix2 d e) fun a => ?_
    match a with | ⟨0, _⟩ => rfl | ⟨1, _⟩ => rfl

/-- The covariance of centred data at (g, d, e): the regulariser's entry plus the Gram sum divided by the long axis's
    length as a float. -/
theorem sigmaOf_apply (c : FVec Ideal S4x64x100352 .f32) :
    sigmaOf c (ix3 g d e)
      = epsI (ix2 d e)
        + Ideal.div (∑ k : Fin 100352, c (ix3 g d k) * c (ix3 g e k)) (Ideal.ofBits .f32 0x47C40000#32) := by
  show broadcastInDim S4x64x64 ![0, 1, 2] bcast_S1x64x64_S4x64x64_0_1_2
          (broadcastInDim S1x64x64 ![1, 2] bcast_S64x64_S1x64x64_1_2 epsI) (ix3 g d e)
        + Ideal.div
            (Host.dotGeneral (F := Ideal) dot_S4x64x100352_S4x64x100352_S4x64x64_2_2_1_1_0_0 none c c (ix3 g d e))
            (Ideal.ofBits .f32 0x47C40000#32) = _
  rw [epsBroadcast_apply, gram_apply]

theorem sigma_apply (X : FVec Ideal S32x256x56x56 .f32) :
    sigma X (ix3 g d e)
      = epsI (ix2 d e)
        + Ideal.div (∑ k : Fin 100352, centred X (ix3 g d k) * centred X (ix3 g e k)) (Ideal.ofBits .f32 0x47C40000#32) :=
  sigmaOf_apply g d e (centred X)

/-! ## The result -/

/-- The whitening matrix times the centred data, read at (g, d, k): the sum over the group's 64 members. -/
theorem whitenDot_apply (Wm : FVec Ideal S4x64x64 .f32) (c : FVec Ideal S4x64x100352 .f32) :
    Host.dotGeneral (F := Ideal) dot_S4x64x64_S4x64x100352_S4x64x100352_2_1_1_2_0_0 none Wm c (ix3 g d k)
      = ∑ e : Fin 64, Wm (ix3 g d e) * c (ix3 g e k) :=
  dotGeneral_reindex dot_S4x64x64_S4x64x100352_S4x64x100352_2_1_1_2_0_0 none 64 rfl rfl Wm c (ix3 g d k)
    (fun e => ix3 g d e) (fun e => ix3 g e k)
    (fun e => funext fun a => match a with | ⟨0, _⟩ => Fin.ext rfl | ⟨1, _⟩ => Fin.ext rfl | ⟨2, _⟩ => Fin.ext rfl)
    (fun e => funext fun a => match a with | ⟨0, _⟩ => Fin.ext rfl | ⟨1, _⟩ => Fin.ext rfl | ⟨2, _⟩ => Fin.ext rfl)

/-- Laying a channel-major array back out as [32, 256, 56, 56]: sample n, channel 64 g + d, pixel (h, w) reads group g,
    member d, position 3136 n + 56 h + w. -/
theorem layoutBack_apply (z : FVec Ideal S4x64x100352 .f32) :
    transpose S32x256x56x56 [1, 0, 2, 3] (shapeCast S256x32x56x56 z shapeCasts_S4x64x100352_S256x32x56x56)
        transposes_S256x32x56x56_S32x256x56x56_1_0_2_3 (ix4 n (chan g d) h w')
      = z (ix3 g d (pos n (pix h w'))) := by
  refine (transpose_apply _ _ _ (ix4 n (chan g d) h w') (ix4 (chan g d) n h w') fun b => ?_).trans ?_
  · match b with | ⟨0, _⟩ => rfl | ⟨1, _⟩ => rfl | ⟨2, _⟩ => rfl | ⟨3, _⟩ => rfl
  · refine shapeCast_apply _ _ (ix4 (chan g d) n h w') (ix3 g d (pos n (pix h w'))) ?_
    rw [Shape.rowMajor_val_four, Shape.rowMajor_val_three]
    show (g.val * 64 + d.val) * 100352 + (3136 * n.val + (56 * h.val + w'.val))
        = (((64 * g.val + d.val) * 32 + n.val) * 56 + h.val) * 56 + w'.val
    omega

/-- A per-channel array broadcast over samples and pixels reads the channel's entry. -/
theorem chanBroadcast_apply (v : FVec Ideal S1x256x1x1 .f32) (c : Fin 256) :
    broadcastInDim S32x256x56x56 ![0, 1, 2, 3] bcast_S1x256x1x1_S32x256x56x56_0_1_2_3 v (ix4 n c h w')
      = v (ix4 (0 : Fin 1) c (0 : Fin 1) (0 : Fin 1)) :=
  broadcastInDim_apply _ _ _ (ix4 n c h w') (ix4 (0 : Fin 1) c (0 : Fin 1) (0 : Fin 1)) fun a =>
    match a with | ⟨0, _⟩ => rfl | ⟨1, _⟩ => rfl | ⟨2, _⟩ => rfl | ⟨3, _⟩ => rfl

/-- The output at sample n, channel 64 g + d, pixel (h, w): the whitened value there times the channel's weight plus the
    channel's bias. -/
theorem resultOf_apply (Wm : FVec Ideal S4x64x64 .f32) (c : FVec Ideal S4x64x100352 .f32) (w b : FVec Ideal S1x256x1x1 .f32) :
    resultOf Wm c w b (ix4 n (chan g d) h w')
      = (∑ e : Fin 64, Wm (ix3 g d e) * c (ix3 g e (pos n (pix h w')))) * w (ix4 0 (chan g d) 0 0)
        + b (ix4 0 (chan g d) 0 0) := by
  show transpose S32x256x56x56 [1, 0, 2, 3]
          (shapeCast S256x32x56x56
            (Host.dotGeneral (F := Ideal) dot_S4x64x64_S4x64x100352_S4x64x100352_2_1_1_2_0_0 none Wm c)
            shapeCasts_S4x64x100352_S256x32x56x56)
          transposes_S256x32x56x56_S32x256x56x56_1_0_2_3 (ix4 n (chan g d) h w')
        * broadcastInDim S32x256x56x56 ![0, 1, 2, 3] bcast_S1x256x1x1_S32x256x56x56_0_1_2_3 w (ix4 n (chan g d) h w')
      + broadcastInDim S32x256x56x56 ![0, 1, 2, 3] bcast_S1x256x1x1_S32x256x56x56_0_1_2_3 b (ix4 n (chan g d) h w') = _
  rw [layoutBack_apply, chanBroadcast_apply, chanBroadcast_apply, whitenDot_apply]

theorem result_apply (X : FVec Ideal S32x256x56x56 .f32) (w b : FVec Ideal S1x256x1x1 .f32) :
    result X w b (ix4 n (chan g d) h w')
      = (∑ e : Fin 64, whitening (sigma X) (ix3 g d e) * centred X (ix3 g e (pos n (pix h w')))) * w (ix4 0 (chan g d) 0 0)
        + b (ix4 0 (chan g d) 0 0) :=
  resultOf_apply g d n h w' (whitening (sigma X)) (centred X) w b

end Cert.ReferenceIdeal.RefRead

end
-- ==== Proof.Bridge.lean ====
/-
  The bridge: the kernel program's result and the reference's result are one array.

  Both are, at sample n, channel 64 g + d, pixel (h, w),
      (Σ_e  Wm[g, d, e] (X[n, 64 g + e, h, w] - mu[g, e]))  weight[64 g + d] + bias[64 g + d],
  with mu the per-channel mean over samples and pixels and Wm the whitening matrix of the covariance. The kernel's
  second region computes exactly this from what it finds in its windows, and the reference's last lines compute it
  from the centred data. What has to be seen is that the two programs' mu and covariance agree:
    * the mean: the kernel's sum over samples and pixels and the reference's sum over the flattened positions are the
      same sum regrouped, and both divide it by 100352;
    * the covariance: the kernel forms  eps I + (Σ x x^T) / 100352 - mu mu^T  from the raw sums its first region
      accumulates, the reference  eps I + (Σ (x - mu)(x - mu)^T) / 100352  from centred data; these agree because
      every entry of X is a real number (the precondition), by the law of LibCovariance.lean;
    * the whitening matrix is then the same function of the same covariance (Tail.lean).
-/
import proofs.«147816_j11527692222570_1_alg».proof.Proof.Sums
import proofs.«147816_j11527692222570_1_alg».proof.Proof.KRead
import proofs.«147816_j11527692222570_1_alg».proof.Proof.Tail
import proofs.«147816_j11527692222570_1_alg».proof.Proof.Apply
import proofs.«147816_j11527692222570_1_alg».proof.Proof.RefRead

set_option maxRecDepth 16384

noncomputable section

open scoped BigOperators

namespace Cert.Whiten.Bridge

open Idealize.ShloMosaic Idealize.ShloMosaic.ValueIdx Idealize.ShloMosaic.TcCoe Idealize.SL.Sem
open Cert.KernelIdeal Cert.KernelIdeal.Gen Cert.KernelIdeal.HostValue Cert.KernelIdeal.Whole
open Cert.Whiten Cert.Whiten.Moments
open Cert.ReferenceIdeal.RefValue (xr meanCol centred sigma whitening result epsI)

variable (m : (ℓ : Loc nD τ sig) → Buf (Elt Ideal) ℓ) (ρ : Dev nD → PrngReg) (c : Dev nD)

/-! ## The reference's data is y -/

/-- The reference's channel-major, flattened X at (g, d, k) is y[g, d, k]. -/
theorem xr_y (X : FVec Ideal S32x256x56x56 .f32) (g : Fin 4) (d : Fin 64) (k : Fin 100352) :
    xr X (ix3 g d k) = y X g d k :=
  Cert.ReferenceIdeal.RefRead.xr_apply g d k X

/-! ## The means agree -/

theorem mean_eq (g : Fin 4) (e : Fin 64) :
    meanOf (sumx m ρ c) (ix2 g e) = meanCol (Xk m c) (ix3 g e (0 : Fin 1)) := by
  rw [meanOf_apply, sumx_y, Cert.ReferenceIdeal.RefRead.meanCol_apply]
  simp only [xr_y, Cov.ofBits_zero, zero_add]

/-! ## The covariances agree -/

theorem sigma_eq (hX : ∀ i, ∃ r : ℝ, Xk m c i = (r : EReal)) : sigmaK m ρ c = sigma (Xk m c) := by
  funext idx
  obtain ⟨g, d, e, rfl⟩ : ∃ (g : Fin 4) (d e : Fin 64), idx = ix3 g d e := ⟨idx 0, idx 1, idx 2, eq_ix3 idx⟩
  show sigmaOf (sumx m ρ c) (sumxx m ρ c) (ix3 g d e) = _
  rw [sigmaOf_apply, meanOf_apply, meanOf_apply, sumx_y, sumx_y, sumxx_y, Cert.ReferenceIdeal.RefRead.sigma_apply]
  simp only [Cert.ReferenceIdeal.RefRead.centred_apply, Cert.ReferenceIdeal.RefRead.meanCol_apply, xr_y]
  rw [show epsEye (ix3 (0 : Fin 1) d e) = epsI (ix2 d e) from rfl]
  exact cov_y (Xk m c) hX g d e _

/-! ## The results agree -/

theorem result_eq (hX : ∀ i, ∃ r : ℝ, Xk m c i = (r : EReal)) :
    (W7 m ρ c (Proc.devRef .tc main_v76) : FVec Ideal S32x256x56x56 .f32)
      = result (Xk m c) (m ((c : Thread nD τ).loc main_arg1)) (m ((c : Thread nD τ).loc main_arg2)) := by
  rw [W7_result]
  funext idx
  obtain ⟨n, ch, h, w, rfl⟩ : ∃ (n : Fin 32) (ch : Fin 256) (h w : Fin 56), idx = ix4 n ch h w :=
    ⟨idx 0, idx 1, idx 2, idx 3, eq_ix4 idx⟩
  obtain ⟨g, d, rfl⟩ : ∃ (g : Fin 4) (d : Fin 64), ch = chan g d :=
    ⟨Cert.KernelIdeal.Apply.grp ch, Cert.KernelIdeal.Apply.mem ch, (Cert.KernelIdeal.Apply.chan_grp_mem ch).symm⟩
  rw [unflat_apply]
  refine (Cert.KernelIdeal.Apply.out_final (V5 m ρ) c n g d (pix h w)).trans ?_
  rw [Cert.KernelIdeal.Apply.whitenAt_chan, V5_x, V5_mean, V5_wm, V5_weight, V5_bias, column_apply, column_apply,
    Cert.ReferenceIdeal.RefRead.result_apply, Tail.whiten_eq, sigma_eq m ρ c hX]
  refine congrArg₂ (· + ·) (congrArg₂ (· * ·) (Finset.sum_congr rfl fun e _ => ?_) rfl) rfl
  rw [flat_apply, mean_eq, Cert.ReferenceIdeal.RefRead.centred_apply, xr_y, ← flat_pos, flat_apply]

end Cert.Whiten.Bridge

end
-- ==== Proof.lean ====
/-
  The certificate of an iterative whitening normalisation: a kernel of two pallas regions against its jnp reference.

  X[n, ch, h, w] has 32 samples, 256 channels in 4 groups of 64, and 56 x 56 pixels. Per group the programs form the
  mean mu over samples and pixels, the 64 x 64 covariance Sigma = eps I + E[(x - mu)(x - mu)^T], normalise it by its
  trace, run five Newton–Schulz steps towards Sigma^(-1/2), and apply the resulting matrix to the centred data, then
  a per-channel scale and shift. The kernel's first region accumulates the raw sums Σ x and Σ x x^T over 8 blocks of
  4 samples; the host turns them into mu and Sigma = eps I + E[x x^T] - mu mu^T and runs the small matrix
  iteration; the second region centres, multiplies and scales block by block. The reference does the same on the
  whole array at once, with the covariance taken of the centred data.

  The three frame claims: the two kernel programs by their generated frames, the reference by its run. The ideal
  pass rewrote nothing, so there is nothing to preserve. The algebraic claim: at the ideal instance both programs
  run, and the results are one array (Proof/Bridge.lean) — the one place where the precondition is used, because
  E[x x^T] - mu mu^T = E[(x - mu)(x - mu)^T] is a law of the reals, not of the extended reals.
-/
import proofs.«147816_j11527692222570_1_alg».proof.Defs
import proofs.«147816_j11527692222570_1_alg».proof.Proof.Gen.Kernel
import proofs.«147816_j11527692222570_1_alg».proof.Proof.Gen.Kernel.Frame
import proofs.«147816_j11527692222570_1_alg».proof.Proof.Gen.KernelIdeal
import proofs.«147816_j11527692222570_1_alg».proof.Proof.Gen.KernelIdeal.Frame
import proofs.«147816_j11527692222570_1_alg».proof.Proof.Gen.ReferenceIdeal
import proofs.«147816_j11527692222570_1_alg».proof.Proof.Gen.Pre_finite_inputs
import proofs.«147816_j11527692222570_1_alg».proof.Proof.KRun
import proofs.«147816_j11527692222570_1_alg».proof.Proof.RefRun
import proofs.«147816_j11527692222570_1_alg».proof.Proof.Finite
import proofs.«147816_j11527692222570_1_alg».proof.Proof.Bridge

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, with the result forgotten. -/
theorem frame_reference_ideal : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- At the ideal instance, from memories agreeing on the arguments, both programs run and end with one result. -/
theorem algebraic : Cert.algebraic_KernelIdeal_ReferenceIdeal := by
  intro m ρ m' ρ' hpre hagree
  refine ⟨fun c => Cert.KernelIdeal.Gen.W7 m ρ c (Proc.devRef .tc Cert.KernelIdeal.main_v76),
    Cert.KernelIdeal.Whole.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2]
  exact (Cert.Whiten.Bridge.result_eq m ρ c (Cert.Whiten.Finite.x_real m hpre c)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
